-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x4096x64 .f32) (main_arg1 : FVec F S8x4096x4096 .f32) (main_arg2 : FVec F S64x64 .f32) (main_arg3 : FVec F S64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S8x4096x1 : Shape := ⟨3, ![8, 4096, 1]⟩
abbrev S1x512x4096 : Shape := ⟨3, ![1, 512, 4096]⟩
abbrev S1x512x1 : Shape := ⟨3, ![1, 512, 1]⟩
abbrev S512x4096 : Shape := ⟨2, ![512, 4096]⟩
abbrev S512 : Shape := ⟨1, ![512]⟩
abbrev S512x1 : Shape := ⟨2, ![512, 1]⟩
abbrev S1x4096x64 : Shape := ⟨3, ![1, 4096, 64]⟩
abbrev S1x4096x1 : Shape := ⟨3, ![1, 4096, 1]⟩
abbrev S4096x64 : Shape := ⟨2, ![4096, 64]⟩
abbrev S1x64 : Shape := ⟨2, ![1, 64]⟩
abbrev S4096x1 : Shape := ⟨2, ![4096, 1]⟩
abbrev S1x1024x1024 : Shape := ⟨3, ![1, 1024, 1024]⟩
abbrev S1x1024x1 : Shape := ⟨3, ![1, 1024, 1]⟩
abbrev S1x1024x64 : Shape := ⟨3, ![1, 1024, 64]⟩
abbrev S1024x64 : Shape := ⟨2, ![1024, 64]⟩
abbrev S1024x1024 : Shape := ⟨2, ![1024, 1024]⟩
abbrev S1024x1 : Shape := ⟨2, ![1024, 1]⟩

abbrev nBuf : Space → Nat
  | .hbm => 7
  | .vmem => 23
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S64x64, .f32⟩
  | .hbm, ⟨3, _⟩ => ⟨S64, .f32⟩
  | .hbm, ⟨4, _⟩ => ⟨S8x4096x1, .f32⟩
  | .hbm, ⟨5, _⟩ => ⟨S8x4096x64, .f32⟩
  | .hbm, ⟨6, _⟩ => ⟨S8x4096x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x1, .f32⟩
  | .local _ .vmem, ⟨3, _⟩ => ⟨S1x512x1, .f32⟩
  | .local _ .vmem, ⟨4, _⟩ => ⟨S1x4096x64, .f32⟩
  | .local _ .vmem, ⟨5, _⟩ => ⟨S1x4096x64, .f32⟩
  | .local _ .vmem, ⟨6, _⟩ => ⟨S64x64, .f32⟩
  | .local _ .vmem, ⟨7, _⟩ => ⟨S64, .f32⟩
  | .local _ .vmem, ⟨8, _⟩ => ⟨S1x4096x1, .f32⟩
  | .local _ .vmem, ⟨9, _⟩ => ⟨S1x4096x1, .f32⟩
  | .local _ .vmem, ⟨10, _⟩ => ⟨S1x4096x64, .f32⟩
  | .local _ .vmem, ⟨11, _⟩ => ⟨S1x4096x64, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1, .f32⟩
  | .local _ .vmem, ⟨15, _⟩ => ⟨S1x1024x1, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x64, .f32⟩
  | .local _ .vmem, ⟨19, _⟩ => ⟨S1x1024x64, .f32⟩
  | .local _ .vmem, ⟨20, _⟩ => ⟨S1x1024x64, .f32⟩
  | .local _ .vmem, ⟨21, _⟩ => ⟨S1x1024x64, .f32⟩
  | .local _ .vmem, ⟨22, _⟩ => ⟨S1024x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  broadcasts_S4096x1_S4096x64 : S4096x1.Broadcasts S4096x64
  shapeCasts_S4096x64_S1x4096x64 : S4096x64.ShapeCasts S1x4096x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x64 : S1024x1.Broadcasts S1024x64
  shapeCasts_S1024x64_S1x1024x64 : S1024x64.ShapeCasts S1x1024x64
  dot_S4096x64_S64x64_S4096x64_1_0_0_1_n_n_wf : DotDims.WF S4096x64 S64x64 S4096x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x4096x4096.size a
  hwx0_0 : ∀ i : grid0.Coords, EltTy.bits .f32 = 32 ∨ (Rect.block (s := S8x4096x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x4096x1.size a
  hwx0_1 : ∀ i : grid0.Coords, EltTy.bits .f32 = 32 ∨ (Rect.block (s := S8x4096x1) S1x512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x64.size a ≤ S8x4096x64.size a
  hwx1_0 : ∀ i : grid1.Coords, EltTy.bits .f32 = 32 ∨ (Rect.block (s := S8x4096x64) S1x4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x1.size a ≤ S8x4096x1.size a
  hwx1_3 : ∀ i : grid1.Coords, EltTy.bits .f32 = 32 ∨ (Rect.block (s := S8x4096x1) S1x4096x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x64.size a ≤ S8x4096x64.size a
  hwx1_4 : ∀ i : grid1.Coords, EltTy.bits .f32 = 32 ∨ (Rect.block (s := S8x4096x64) S1x4096x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x4096x4096.size a
  hwx2_0 : ∀ i : grid2.Coords, EltTy.bits .f32 = 32 ∨ (Rect.block (s := S8x4096x4096) S1x1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1.size a ≤ S8x4096x1.size a
  hwx2_1 : ∀ i : grid2.Coords, EltTy.bits .f32 = 32 ∨ (Rect.block (s := S8x4096x1) S1x1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x64.size a ≤ S8x4096x64.size a
  hwx2_2 : ∀ i : grid2.Coords, EltTy.bits .f32 = 32 ∨ (Rect.block (s := S8x4096x64) S1x1024x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x64.size a ≤ S8x4096x64.size a
  hwx2_3 : ∀ i : grid2.Coords, EltTy.bits .f32 = 32 ∨ (Rect.block (s := S8x4096x64) S1x1024x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x64.size a ≤ S8x4096x64.size a
  hwx2_4 : ∀ i : grid2.Coords, EltTy.bits .f32 = 32 ∨ (Rect.block (s := S8x4096x64) S1x1024x64.size (cc2_transform_4 i) (hinb2_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x1024x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x1024x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S64x64 : Shape := ⟨2, ![64, 64]⟩
abbrev S64 : Shape := ⟨1, ![64]⟩
abbrev S4096x4096 : Shape := ⟨2, ![4096, 4096]⟩
abbrev S_ : Shape := ⟨0, ![]⟩
abbrev S1x4096x4096 : Shape := ⟨3, ![1, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S1x1x64 : Shape := ⟨3, ![1, 1, 64]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x4096, .f32⟩
  | .hbm, ⟨2, _⟩ => ⟨S64x64, .f32⟩
  | .hbm, ⟨3, _⟩ => ⟨S64, .f32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .f32⟩
  | .hbm, ⟨11, _⟩ => ⟨S1x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x1x4096, .f32⟩
  | .hbm, ⟨26, _⟩ => ⟨S8x4096x4096, .f32⟩
  | .hbm, ⟨27, _⟩ => ⟨S8x4096x4096, .f32⟩
  | .hbm, ⟨28, _⟩ => ⟨S8x4096x64, .f32⟩
  | .hbm, ⟨29, _⟩ => ⟨S1x1x64, .f32⟩
  | .hbm, ⟨30, _⟩ => ⟨S8x4096x64, .f32⟩
  | .hbm, ⟨31, _⟩ => ⟨S8x4096x64, .f32⟩
  | .hbm, ⟨32, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  dot_S8x4096x64_S64x64_S8x4096x64_2_0_01_1_n_n_wf : DotDims.WF S8x4096x64 S64x64 S8x4096x64 [2] [0] [0, 1] [1] [] []
  dot_S8x4096x4096_S8x4096x64_S8x4096x64_2_1_1_2_0_0_wf : DotDims.WF S8x4096x4096 S8x4096x64 S8x4096x64 [2] [1] [1] [2] [0] [0]

variable [Facts₀]

def dot_S8x4096x64_S64x64_S8x4096x64_2_0_01_1_n_n : DotDims S8x4096x64 S64x64 S8x4096x64 where
  lhsContracting := [2]
  rhsContracting := [0]
  lhsNonContracting := [0, 1]
  rhsNonContracting := [1]
  lhsBatch := []
  rhsBatch := []
  wf := dot_S8x4096x64_S64x64_S8x4096x64_2_0_01_1_n_n_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.K.Reg0.lean ====
/-
  The first stage of the program: the inverse square root of each node's degree.

  The stage walks an 8 x 8 grid; at a point it is handed a slab of 512 adjacency rows of one batch
  ([1, 512, 4096]) and leaves the 512 inverse root degrees of those rows ([1, 512, 1]).  Its body has one
  shape of control: it reads the whole slab, computes, and writes the whole output block.  So what the body
  leaves in the output block is a closed function of the slab, and the slab it finds is the adjacency
  array's block at the point.  Everything is stated at the buffer contents `V` the stage is entered with.
-/
import proofs.«139989_j90280212562329_2_alg».proof.Proof.Gen.Kernel.Launch
import proofs.«139989_j90280212562329_2_alg».proof.Proof.Gen.Kernel.Skeleton
import proofs.«139989_j90280212562329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the two windows -/

/-- The block of window `w` (0: the adjacency slab, 1: the inverse root degrees) at point `t`, read off the
    window's array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency slab in the staging buffer is the array's block at every point, for any proof data whose
    array is the entry contents and whose body leaves the slab in place: where the pipeline does not fetch,
    the block index has not moved. -/
theorem slab0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two accesses: the whole slab, the whole output block -/

/-- The whole slab of adjacency rows. -/
abbrev slabRect : Rect S1x512x4096 := Rect.unit (s := S1x512x4096) ![0, 0, 0] S1x512x4096.size inb_S1x512x4096_S1x512x4096_0_0_0

/-- The whole block of inverse root degrees. -/
abbrev dinvRect : Rect S1x512x1 := Rect.unit (s := S1x512x1) ![0, 0, 0] S1x512x1.size inb_S1x512x1_S1x512x1_0_0_0

/-! ## What the body leaves in the output block -/

/-- The output block after the body, from the slab: the one store, of the payload computed from the loaded slab. -/
def out0_1 (x0 : Vec F S1x512x4096 .f32) : Vec F S1x512x1 .f32 :=
  View.canon [⟨dinvRect, k0_pay1 (View.ld x0 slabRect)⟩]

/-- The one store is of the whole block, so it covers it. -/
theorem cover0_1 (p0 : Vec F S1x512x1 .f32) (y : S1x512x1.Idx) :
    ∃ pc ∈ ([⟨dinvRect, p0⟩] : List (View.Piece (Elt F) S1x512x1 .f32)), y ∈ pc.1.set :=
  View.cover_of_tiled [⟨dinvRect, p0⟩] S1x512x1.size (by rfl) y

/-! ## The body's triple -/

set_option maxHeartbeats 1000000 in
/-- The body on whole staging memrefs, the slab's at read contents `x0` and the output's at anything, runs to the
    continuation holding the slab as it was and the output block at `out0_1 x0`. -/
theorem sound_kernel0 (c : Dev nD) (E : Set ℕ) (i : grid0.Coords) (arg2 : Memref sig .tc .vmem S1x512x4096 .f32) (harg2 : arg2.IsWhole) (arg3 : Memref sig .tc .vmem S1x512x1 .f32) (harg3 : arg3.IsWhole)
    (x0 : Vec F S1x512x4096 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__deg_kernel i arg2 harg2 arg3 harg3) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The stage's proof data -/

/-- The proof data of the stage on core `c`: the arrays as the stage finds them; after the body at point `t`
    the slab's buffer at the slab and the output's at `out0_1` of the slab; the invariant "the scoped rest
    and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The slab's staging buffer holds the array's block at every point. -/
theorem before0_0 (c : Dev nD) (t : Fin cfg0.N) (d) : (dat0 V c).before 0 t d = iblk0 V c 0 t :=
  slab0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the slab's memref holds the array's block, so the triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second stage of the program: the linear layer with each row scaled by that node's inverse root degree.

  The stage walks a grid of 8 points, one per batch; at a point it is handed the batch's feature rows
  ([1, 4096, 64]), the weights ([64, 64]), the bias ([64]) and the batch's inverse root degrees
  ([1, 4096, 1]) and leaves the scaled rows ([1, 4096, 64]).  The weights and the bias have a constant block
  index: the pipeline fetches them at the first point only and their buffers keep them.  The body has one
  shape of control: it reads the four whole blocks, computes, and writes the whole output block.  Everything
  is stated at the buffer contents `V` the stage is entered with.
-/
import proofs.«139989_j90280212562329_2_alg».proof.Proof.Gen.Kernel.Launch
import proofs.«139989_j90280212562329_2_alg».proof.Proof.Gen.Kernel.Skeleton
import proofs.«139989_j90280212562329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the five windows -/

/-- The block of window `w` (0: features, 1: weights, 2: bias, 3: inverse root degrees, 4: scaled rows) at
    point `t`, read off the window's array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its array's block at every point, fetched there or not, for any proof data
    whose array is the entry contents and whose body leaves the block in place: where the pipeline does not
    fetch, the block index has not moved.  One statement per input window. -/
theorem feat1_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem weight1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem bias1_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem scale1_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block whole -/

/-- The whole block of feature rows; the output block has the same shape and is stored whole through it too. -/
abbrev rowsRect : Rect S1x4096x64 := Rect.unit (s := S1x4096x64) ![0, 0, 0] S1x4096x64.size inb_S1x4096x64_S1x4096x64_0_0_0
/-- The whole weight matrix. -/
abbrev weightRect : Rect S64x64 := Rect.unit (s := S64x64) ![0, 0] S64x64.size inb_S64x64_S64x64_0_0
/-- The whole bias vector. -/
abbrev biasRect : Rect S64 := Rect.unit (s := S64) ![0] S64.size inb_S64_S64_0
/-- The whole column of inverse root degrees. -/
abbrev scaleRect : Rect S1x4096x1 := Rect.unit (s := S1x4096x1) ![0, 0, 0] S1x4096x1.size inb_S1x4096x1_S1x4096x1_0_0_0

/-! ## What the body leaves in the output block -/

/-- The output block after the body, from the four input blocks: the one store, of the payload computed from
    the four loads. -/
def out1_4 (x0 : Vec F S1x4096x64 .f32) (x1 : Vec F S64x64 .f32) (x2 : Vec F S64 .f32) (x3 : Vec F S1x4096x1 .f32) : Vec F S1x4096x64 .f32 :=
  View.canon [⟨rowsRect, k1_pay1 (View.ld x0 rowsRect) (View.ld x1 weightRect) (View.ld x2 biasRect) (View.ld x3 scaleRect)⟩]

/-- The one store is of the whole block, so it covers it. -/
theorem cover1_4 (p0 : Vec F S1x4096x64 .f32) (y : S1x4096x64.Idx) :
    ∃ pc ∈ ([⟨rowsRect, p0⟩] : List (View.Piece (Elt F) S1x4096x64 .f32)), y ∈ pc.1.set :=
  View.cover_of_tiled [⟨rowsRect, p0⟩] S1x4096x64.size (by rfl) y

/-! ## The body's triple -/

set_option maxHeartbeats 1000000 in
/-- The body on whole staging memrefs, the inputs' at read contents `x0 … x3` and the output's at anything, runs
    to the continuation holding the inputs' as they were and the output block at `out1_4 x0 x1 x2 x3`. -/
theorem sound_kernel1 (c : Dev nD) (E : Set ℕ) (i : grid1.Coords) (arg1 : Memref sig .tc .vmem S1x4096x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x4096x1 .f32) (harg4 : arg4.IsWhole) (arg5 : Memref sig .tc .vmem S1x4096x64 .f32) (harg5 : arg5.IsWhole)
    (x0 : Vec F S1x4096x64 .f32) (x1 : Vec F S64x64 .f32) (x2 : Vec F S64 .f32) (x3 : Vec F S1x4096x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__hs_kernel i arg1 harg1 arg2 harg2 arg3 harg3 arg4 harg4 arg5 harg5) K := by
  simp only [cc1__hs_kernel_eq_skeleton]; unfold cc1__hs_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The stage's proof data -/

/-- The proof data of the stage on core `c`: the arrays as the stage finds them; after the body at point `t`
    each input's buffer at its block and the output's at `out1_4` of the four input blocks; the invariant "the
    scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's staging buffer holds its array's block at every point. -/
theorem before1_0 (c : Dev nD) (t : Fin cfg1.N) (d) : (dat1 V c).before 0 t d = iblk1 V c 0 t :=
  feat1_of V (dat1 V c) (A_eq1 V c 0) (after1_0 V c) t d
theorem before1_1 (c : Dev nD) (t : Fin cfg1.N) (d) : (dat1 V c).before 1 t d = iblk1 V c 1 t :=
  weight1_of V (dat1 V c) (A_eq1 V c 1) (after1_1 V c) t d
theorem before1_2 (c : Dev nD) (t : Fin cfg1.N) (d) : (dat1 V c).before 2 t d = iblk1 V c 2 t :=
  bias1_of V (dat1 V c) (A_eq1 V c 2) (after1_2 V c) t d
theorem before1_3 (c : Dev nD) (t : Fin cfg1.N) (d) : (dat1 V c).before 3 t d = iblk1 V c 3 t :=
  scale1_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their arrays' blocks, so the triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
import proofs.«139989_j90280212562329_2_alg».proof.Proof.Gen.Kernel.Launch
import proofs.«139989_j90280212562329_2_alg».proof.Proof.Gen.Kernel.Skeleton
import proofs.«139989_j90280212562329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The two conditions of the aggregation body, in closed form

The body branches twice on the reduction coordinate `k = i 2`, the fastest axis of the 8 × 4 × 4 grid, so that
`k = t mod 4` at the point of position `t`: the accumulator is zeroed when `k = 0` and the output block is
written when `k = 3`. -/

/-- The first condition (`k = 0`), as the body computes it from the grid coordinates. -/
abbrev isFirst (i : grid2.Coords) : Prop :=
  (Scalar.cmpi .ne (Scalar.extui (Scalar.cmpi .eq (BitVec.ofNat 32 (i 2).val) 0#32)) 0#32) = 1#1

/-- It holds exactly at the positions divisible by four. -/
theorem isFirst_iff : ∀ t : Fin cfg2.N, isFirst (grid2.coords t) ↔ t.val % 4 = 0 :=
  (by decide +kernel : ∀ t : Fin grid2.N, isFirst (grid2.coords t) ↔ t.val % 4 = 0)

/-- The second condition (`k = 3`). -/
abbrev isLast (i : grid2.Coords) : Prop := k2_cond2 i = 1#1

/-- It holds exactly at the positions that are three modulo four. -/
theorem isLast_iff : ∀ t : Fin cfg2.N, isLast (grid2.coords t) ↔ t.val % 4 = 3 :=
  (by decide +kernel : ∀ t : Fin grid2.N, isLast (grid2.coords t) ↔ t.val % 4 = 3)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
theorem live2_3 : ∀ t : Fin cfg2.N, cfg2.idle 3 (grid2.coords t) = false := fun _ => rfl
/-- The output window is idle wherever `k ≠ 3`, -/
theorem idle2_4 : ∀ t : Fin cfg2.N, ¬ t.val % 4 = 3 → cfg2.idle 4 (grid2.coords t) = true :=
  (by decide +kernel : ∀ t : Fin grid2.N, ¬ t.val % 4 = 3 → cfg2.idle 4 (grid2.coords t) = true)
/-- is not written back there, -/
theorem noFlush2_4 : ∀ t : Fin cfg2.N, ¬ t.val % 4 = 3 → (cfg2.win 4).flush t = false :=
  (by decide +kernel : ∀ t : Fin grid2.N, ¬ t.val % 4 = 3 → win2_4.flush t = false)
/-- and is live where `k = 3`. -/
theorem live2_4 : ∀ t : Fin cfg2.N, t.val % 4 = 3 → cfg2.idle 4 (grid2.coords t) = false :=
  (by decide +kernel : ∀ t : Fin grid2.N, t.val % 4 = 3 → cfg2.idle 4 (grid2.coords t) = false)

/-! ## The memrefs the body is called with -/

abbrev mw0 (t : Fin cfg2.N) : Memref sig .tc .vmem S1x1024x1024 .f32 := win2_0.stage (cfg2.slots t 0)
abbrev hw0 (t : Fin cfg2.N) : (mw0 t).IsWhole := hstage2_0 ((cfg2.slots t 0).cast nbuf2_0)
abbrev mw1 (t : Fin cfg2.N) : Memref sig .tc .vmem S1x1024x1 .f32 := win2_1.stage (cfg2.slots t 1)
abbrev hw1 (t : Fin cfg2.N) : (mw1 t).IsWhole := hstage2_1 ((cfg2.slots t 1).cast nbuf2_1)
abbrev mw2 (t : Fin cfg2.N) : Memref sig .tc .vmem S1x1024x64 .f32 := win2_2.stage (cfg2.slots t 2)
abbrev hw2 (t : Fin cfg2.N) : (mw2 t).IsWhole := hstage2_2 ((cfg2.slots t 2).cast nbuf2_2)
abbrev mw3 (t : Fin cfg2.N) : Memref sig .tc .vmem S1x1024x64 .f32 := win2_3.stage (cfg2.slots t 3)
abbrev hw3 (t : Fin cfg2.N) : (mw3 t).IsWhole := hstage2_3 ((cfg2.slots t 3).cast nbuf2_3)
abbrev mw4 (t : Fin cfg2.N) : Memref sig .tc .vmem S1x1024x64 .f32 := win2_4.stage (cfg2.slots t 4)
abbrev hw4 (t : Fin cfg2.N) : (mw4 t).IsWhole := hstage2_4 ((cfg2.slots t 4).cast nbuf2_4)
/-- The accumulator: a whole scoped buffer of the kernel's own, passed beside the windows. -/
abbrev accM : Memref sig .tc .vmem S1024x64 .f32 := Memref.whole cc2_scratch0
/-- The views through which the accumulator's and the output block's contents are stated. -/
abbrev accV : View sig .tc .vmem S1024x64 .f32 := accM.view
abbrev outV : View sig .tc .vmem S1x1024x64 .f32 := (Memref.whole cc2_stg4_0 : Memref sig .tc .vmem S1x1024x64 .f32).view

/-! ## The body on any whole memrefs, case by case -/

set_option maxHeartbeats 4000000 in
/-- `k = 0`: the accumulator, at anything, is zeroed and then receives the tile product; the output block is
    handed back untouched. The witness is the list of pieces the accumulator ends with. -/
noncomputable def runFirst (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : isFirst i) (hc1 : ¬isLast i)
    (x0 : Vec F S1x1024x1024 .f32) (x1 : Vec F S1x1024x1 .f32) (x2 : Vec F S1x1024x64 .f32) (x3 : Vec F S1x1024x64 .f32) :
    { LS : List (View.Piece (Elt F) S1024x64 .f32) //
      ∀ (y4 : Vec F S1x1024x64 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ (∃ d, owns (c : Thread nD τ) sc fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ (∃ f, sc.view.loc (c : Thread nD τ) ↦[sc.view.set]{fullShare} sc.view.writes (Elt F) f LS)) -∗ K ⟨⟩))
          ⊢ wp frame (wpE (defs₀ (F := F)) Variants.none c none) E (cc2__agg_kernel i a0 ha0 a1 ha1 a2 ha2 a3 ha3 a4 ha4 sc hsc) K } := by
  refine ⟨?_, fun y4 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := ha0.eq_unread hf0; obtain rfl := ha1.eq_unread hf1; obtain rfl := ha2.eq_unread hf2
    obtain rfl := ha3.eq_unread hf3; obtain rfl := ha4.eq_unread hf4
    sl_exec (disch := first | exact hc0 | exact hc1)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    iexists _; iexact HS

set_option maxHeartbeats 4000000 in
/-- `k = 1, 2`: the accumulator, at what the point before left, receives the tile product; the output block is
    handed back untouched. -/
noncomputable def runMid (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : ¬isLast i)
    (x0 : Vec F S1x1024x1024 .f32) (x1 : Vec F S1x1024x1 .f32) (x2 : Vec F S1x1024x64 .f32) (x3 : Vec F S1x1024x64 .f32) (xs : Vec F S1024x64 .f32) :
    { LS : List (View.Piece (Elt F) S1024x64 .f32) //
      ∀ (y4 : Vec F S1x1024x64 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ owns (c : Thread nD τ) sc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ (∃ f, sc.view.loc (c : Thread nD τ) ↦[sc.view.set]{fullShare} sc.view.writes (Elt F) f LS)) -∗ K ⟨⟩))
          ⊢ wp frame (wpE (defs₀ (F := F)) Variants.none c none) E (cc2__agg_kernel i a0 ha0 a1 ha1 a2 ha2 a3 ha3 a4 ha4 sc hsc) K } := by
  refine ⟨?_, fun y4 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := ha0.eq_unread hf0; obtain rfl := ha1.eq_unread hf1; obtain rfl := ha2.eq_unread hf2
    obtain rfl := ha3.eq_unread hf3; obtain rfl := ha4.eq_unread hf4; obtain rfl := hsc.eq_unread hfs
    sl_exec (disch := first | exact hc0 | exact hc1)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    iexists _; iexact HS

set_option maxHeartbeats 4000000 in
/-- `k = 3`: the accumulator receives the last tile product, and the output block, at anything, is stored whole
    from the accumulator, the row factors and the node's own rows. The witness is the pair of piece lists the output
    block and the accumulator end with. -/
noncomputable def runLast (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) :
    Σ' (L4 : List (View.Piece (Elt F) S1x1024x64 .f32)), { LS : List (View.Piece (Elt F) S1024x64 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) sc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L4) ∗ (∃ f, sc.view.loc (c : Thread nD τ) ↦[sc.view.set]{fullShare} sc.view.writes (Elt F) f LS)) -∗ K ⟨⟩))
          ⊢ wp frame (wpE (defs₀ (F := F)) Variants.none c none) E (cc2__agg_kernel i a0 ha0 a1 ha1 a2 ha2 a3 ha3 a4 ha4 sc hsc) K } := by
  refine ⟨?_, ?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := ha0.eq_unread hf0; obtain rfl := ha1.eq_unread hf1; obtain rfl := ha2.eq_unread hf2
    obtain rfl := ha3.eq_unread hf3; obtain rfl := hsc.eq_unread hfs
    sl_exec (disch := first | exact hc0 | exact hc1)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]; · iexists _; iexact H4
    iexists _; iexact HS

end Cert.Kernel.Hand

end
-- ==== Proof.K.Reg2.lean ====
import proofs.«139989_j90280212562329_2_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the point of position `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's current staging buffer holds its block at every point, fetched there or not: an input that is not
fetched at a point has the block index it had at the point before, and the body leaves the inputs in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The region's invariant, its parts named -/

/-- The staging buffers of the two earlier regions, each whole at some contents: the body never touches them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

theorem sep_assoc_eq (P Q R : sProp 𝕄) : iprop((P ∗ Q) ∗ R) = iprop(P ∗ Q ∗ R) :=
  Idealize.SL.BI.equiv_iff.mp ⟨Idealize.SL.BI.sep_assoc, Idealize.SL.BI.sep_assoc'⟩

/-- The invariant the region is entered with: the other regions' staging buffers and the accumulator at anything, and
    the generator register at some state. -/
theorem PhiA2_eq (c : Dev nD) :
    (Pipeline.ΦA spec2 c : sProp 𝕄)
      = iprop(iprop(others (F := F) c ∗ (∃ d, owns (c : Thread nD τ) accM fullShare d)) ∗ (∃ r, prngReg c r)) := by
  unfold Pipeline.ΦA; rw [scopedRest2_eq]; unfold others; simp only [accM, owns_whole, sep_assoc_eq]; rfl

/-! ## What each case leaves -/

/-- The pieces the accumulator ends with when `k = 0` cover it. -/
theorem accFirst_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : isFirst i) (hc1 : ¬isLast i)
    (x0 : Vec F S1x1024x1024 .f32) (x1 : Vec F S1x1024x1 .f32) (x2 : Vec F S1x1024x64 .f32) (x3 : Vec F S1x1024x64 .f32) (y : S1024x64.Idx) :
    ∃ pc ∈ (runFirst c i a0 ha0 a1 ha1 a2 ha2 a3 ha3 a4 ha4 sc hsc hc0 hc1 x0 x1 x2 x3).1, y ∈ pc.1.set :=
  View.cover_of_tiledL (runFirst c i a0 ha0 a1 ha1 a2 ha2 a3 ha3 a4 ha4 sc hsc hc0 hc1 x0 x1 x2 x3).1 S1024x64.size (by sl_kernel_rfl) y

/-- The pieces the accumulator ends with when `k = 1, 2` cover it. -/
theorem accMid_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : ¬isLast i)
    (x0 : Vec F S1x1024x1024 .f32) (x1 : Vec F S1x1024x1 .f32) (x2 : Vec F S1x1024x64 .f32) (x3 : Vec F S1x1024x64 .f32) (xs : Vec F S1024x64 .f32) (y : S1024x64.Idx) :
    ∃ pc ∈ (runMid c i a0 ha0 a1 ha1 a2 ha2 a3 ha3 a4 ha4 sc hsc hc0 hc1 x0 x1 x2 x3 xs).1, y ∈ pc.1.set :=
  View.cover_of_tiledL (runMid c i a0 ha0 a1 ha1 a2 ha2 a3 ha3 a4 ha4 sc hsc hc0 hc1 x0 x1 x2 x3 xs).1 S1024x64.size (by sl_kernel_rfl) y

/-- The pieces the output block ends with when `k = 3` cover it. -/
theorem outLast_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) (y : S1x1024x64.Idx) :
    ∃ pc ∈ (runLast c i a0 ha0 a1 ha1 a2 ha2 a3 ha3 a4 ha4 sc hsc hc0 hc1 x0 x1 x2 x3 xs).1, y ∈ pc.1.set :=
  View.cover_of_tiledL (runLast c i a0 ha0 a1 ha1 a2 ha2 a3 ha3 a4 ha4 sc hsc hc0 hc1 x0 x1 x2 x3 xs).1 S1x1024x64.size (by sl_kernel_rfl) y

/-- The pieces the accumulator ends with when `k = 3` cover it. -/
theorem accLast_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) (y : S1024x64.Idx) :
    ∃ pc ∈ (runLast c i a0 ha0 a1 ha1 a2 ha2 a3 ha3 a4 ha4 sc hsc hc0 hc1 x0 x1 x2 x3 xs).2.1, y ∈ pc.1.set :=
  View.cover_of_tiledL (runLast c i a0 ha0 a1 ha1 a2 ha2 a3 ha3 a4 ha4 sc hsc hc0 hc1 x0 x1 x2 x3 xs).2.1 S1024x64.size (by sl_kernel_rfl) y

theorem notLast_of_first (t : Fin cfg2.N) (h0 : t.val % 4 = 0) : ¬isLast (grid2.coords t) :=
  fun h => by have := (isLast_iff t).mp h; omega
theorem notFirst_of (t : Fin cfg2.N) (h0 : ¬t.val % 4 = 0) : ¬isFirst (grid2.coords t) := fun h => h0 ((isFirst_iff t).mp h)
theorem notLast_of (t : Fin cfg2.N) (h1 : ¬t.val % 4 = 3) : ¬isLast (grid2.coords t) := fun h => h1 ((isLast_iff t).mp h)

/-- The three runs at the point of position `t`: on the current staging memrefs and the accumulator, the inputs at
    their blocks. -/
abbrev runFirstAt (c : Dev nD) (t : Fin cfg2.N) (h0 : t.val % 4 = 0) :=
  runFirst c (grid2.coords t) (mw0 t) (hw0 t) (mw1 t) (hw1 t) (mw2 t) (hw2 t) (mw3 t) (hw3 t) (mw4 t) (hw4 t) accM (Memref.isWhole_whole _) ((isFirst_iff t).mpr h0) (notLast_of_first t h0) (iblk2 V c 0 t) (iblk2 V c 1 t) (iblk2 V c 2 t) (iblk2 V c 3 t)
abbrev runMidAt (c : Dev nD) (t : Fin cfg2.N) (h0 : ¬t.val % 4 = 0) (h1 : ¬t.val % 4 = 3) (xs : Vec F S1024x64 .f32) :=
  runMid c (grid2.coords t) (mw0 t) (hw0 t) (mw1 t) (hw1 t) (mw2 t) (hw2 t) (mw3 t) (hw3 t) (mw4 t) (hw4 t) accM (Memref.isWhole_whole _) (notFirst_of t h0) (notLast_of t h1) (iblk2 V c 0 t) (iblk2 V c 1 t) (iblk2 V c 2 t) (iblk2 V c 3 t) xs
abbrev runLastAt (c : Dev nD) (t : Fin cfg2.N) (h0 : ¬t.val % 4 = 0) (h1 : t.val % 4 = 3) (xs : Vec F S1024x64 .f32) :=
  runLast c (grid2.coords t) (mw0 t) (hw0 t) (mw1 t) (hw1 t) (mw2 t) (hw2 t) (mw3 t) (hw3 t) (mw4 t) (hw4 t) accM (Memref.isWhole_whole _) (notFirst_of t h0) ((isLast_iff t).mpr h1) (iblk2 V c 0 t) (iblk2 V c 1 t) (iblk2 V c 2 t) (iblk2 V c 3 t) xs

/-- What the accumulator holds after a point with `k = 0`: its pieces read back. -/
def accFirstAt (c : Dev nD) (t : Fin cfg2.N) (h0 : t.val % 4 = 0) : Vec F S1024x64 .f32 :=
  accV.read (Elt F) (accV.writes (Elt F) accV.junk (runFirstAt V c t h0).1)
/-- What the accumulator holds after a point with `k = 1, 2`, over what the point before left. -/
def accMidAt (c : Dev nD) (t : Fin cfg2.N) (h0 : ¬t.val % 4 = 0) (h1 : ¬t.val % 4 = 3) (xs : Vec F S1024x64 .f32) : Vec F S1024x64 .f32 :=
  accV.read (Elt F) (accV.writes (Elt F) accV.junk (runMidAt V c t h0 h1 xs).1)
/-- What the accumulator holds after a point with `k = 3`, over what the point before left. -/
def accLastAt (c : Dev nD) (t : Fin cfg2.N) (h0 : ¬t.val % 4 = 0) (h1 : t.val % 4 = 3) (xs : Vec F S1024x64 .f32) : Vec F S1024x64 .f32 :=
  accV.read (Elt F) (accV.writes (Elt F) accV.junk (runLastAt V c t h0 h1 xs).2.1)
/-- What the output block's staging buffer holds after a point with `k = 3`, over the accumulator the point before left. -/
def outLastAt (c : Dev nD) (t : Fin cfg2.N) (h0 : ¬t.val % 4 = 0) (h1 : t.val % 4 = 3) (xs : Vec F S1024x64 .f32) : Vec F S1x1024x64 .f32 :=
  outV.read (Elt F) (outV.writes (Elt F) outV.junk (runLastAt V c t h0 h1 xs).1)
/-- Where `k ≠ 3` nothing is stored into the output block: a placeholder nothing consults, the window being idle and
    not written back there. -/
def idleOut : Vec F S1x1024x64 .f32 := outV.read (Elt F) outV.junk

/-! ## The accumulation -/

/-- What the output block's staging buffer and the accumulator hold after the body at position `n`: the case
    `n mod 4` selects, run at the point's memrefs and blocks — for `k ≠ 0` over the accumulator as position `n - 1`
    left it. -/
def accAt (c : Dev nD) : (n : ℕ) → n < cfg2.N → Vec F S1x1024x64 .f32 × Vec F S1024x64 .f32
  | 0, hn => (idleOut, accFirstAt V c ⟨0, hn⟩ (Nat.zero_mod _))
  | n + 1, hn =>
    if h0 : (n + 1) % 4 = 0 then (idleOut, accFirstAt V c ⟨n + 1, hn⟩ h0)
    else if h1 : (n + 1) % 4 = 3 then
      (outLastAt V c ⟨n + 1, hn⟩ h0 h1 (accAt c n (Nat.lt_of_succ_lt hn)).2, accLastAt V c ⟨n + 1, hn⟩ h0 h1 (accAt c n (Nat.lt_of_succ_lt hn)).2)
    else (idleOut, accMidAt V c ⟨n + 1, hn⟩ h0 h1 (accAt c n (Nat.lt_of_succ_lt hn)).2)

theorem accAt_first (c : Dev nD) (t : Fin cfg2.N) (h0 : t.val % 4 = 0) :
    accAt V c t.val t.isLt = (idleOut, accFirstAt V c t h0) := by
  obtain ⟨n, hn⟩ := t
  cases n with
  | zero => exact rfl
  | succ n => exact (dif_pos h0).trans rfl

theorem accAt_mid (c : Dev nD) (t : Fin cfg2.N) (h0 : ¬t.val % 4 = 0) (h1 : ¬t.val % 4 = 3) :
    accAt V c t.val t.isLt = (idleOut, accMidAt V c t h0 h1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem accAt_last (c : Dev nD) (t : Fin cfg2.N) (h0 : ¬t.val % 4 = 0) (h1 : t.val % 4 = 3) :
    accAt V c t.val t.isLt = (outLastAt V c t h0 h1 (accAt V c (t.val - 1) (Nat.lt_of_le_of_lt (Nat.sub_le _ _) t.isLt)).2, accLastAt V c t h0 h1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The staged invariant -/

/-- Before position `n`: at the start what the region is entered with; afterwards the other regions' buffers at
    anything, the accumulator at what position `n - 1` left in it, and the generator register at some state. -/
def PhiS (c : Dev nD) : (n : ℕ) → n ≤ cfg2.N → sProp 𝕄
  | 0, _ => Pipeline.ΦA spec2 c
  | n + 1, hn => iprop(iprop(others (F := F) c ∗ owns (c : Thread nD τ) accM fullShare ((accAt V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(others (F := F) c ∗ owns (c : Thread nD τ) accM fullShare ((accAt V c n hn).2)) ∗ (∃ r, prngReg c r)) := rfl

theorem PhiS_pos (c : Dev nD) (n : ℕ) (h : n ≤ cfg2.N) (hz : n ≠ 0) :
    PhiS V c n h = iprop(iprop(others (F := F) c ∗ owns (c : Thread nD τ) accM fullShare ((accAt V c (n - 1) (by omega)).2)) ∗ (∃ r, prngReg c r)) := by
  cases n with
  | zero => exact absurd rfl hz
  | succ n => rfl

/-! ## The proof data -/

/-- The proof data of the aggregation region on core `c`: the arrays as the region finds them; after the body each
    input's buffer at its block and the output's at the accumulation's first component; the staged invariant; nothing
    owed; the two windows on the scaled rows' array hold half of it each, the others all of theirs. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (accAt V c t.val t.isLt).1
  Φ t := PhiS V c t.val (Nat.le_of_lt_succ t.isLt)
  q := fun w => if w = 2 then fullShare.left else if w = 3 then fullShare.right else fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (accAt V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at the point of position `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (mw0 t) fullShare ((dat2 V c).before 0 t d))
    ∗ (∃ d, owns (c : Thread nD τ) (mw1 t) fullShare ((dat2 V c).before 1 t d))
    ∗ (∃ d, owns (c : Thread nD τ) (mw2 t) fullShare ((dat2 V c).before 2 t d))
    ∗ (∃ d, owns (c : Thread nD τ) (mw3 t) fullShare ((dat2 V c).before 3 t d))
    ∗ (∃ d, owns (c : Thread nD τ) (mw4 t) fullShare ((dat2 V c).before 4 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; `t mod 4` says which case the point is in; the
    invariant hands the body the accumulator — at anything when `k = 0`, else at what the point before left — and
    takes it back at this point's contents; where `k ≠ 3` the output block's buffer is handed back as it was found,
    where `k = 3` it is left at the stored block; the other regions' buffers and the generator register pass through;
    the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (mw0 t) fullShare ((dat2 V c).after 0 t) from by
    unfold Dat.leavesExact; rw [live2_0 t], after2_0]
  rw [show (dat2 V c).leavesExact 1 t = owns (c : Thread nD τ) (mw1 t) fullShare ((dat2 V c).after 1 t) from by
    unfold Dat.leavesExact; rw [live2_1 t], after2_1]
  rw [show (dat2 V c).leavesExact 2 t = owns (c : Thread nD τ) (mw2 t) fullShare ((dat2 V c).after 2 t) from by
    unfold Dat.leavesExact; rw [live2_2 t], after2_2]
  rw [show (dat2 V c).leavesExact 3 t = owns (c : Thread nD τ) (mw3 t) fullShare ((dat2 V c).after 3 t) from by
    unfold Dat.leavesExact; rw [live2_3 t], after2_3]
  have hN : t.val < 128 := lt_of_lt_of_eq t.isLt (show cfg2.N = 128 from N_2)
  by_cases h0 : t.val % 4 = 0
  · have h1 : ¬t.val % 4 = 3 := by omega
    rw [Dat.leavesExact_idle (dat2 V c) 4 t (idle2_4 t h1) (noFlush2_4 t h1)]
    rw [accAt_first V c t h0]
    unfold accFirstAt; (try dsimp only)
    by_cases hz : t.val = 0
    · rw [PhiS_castSucc V c t, PhiS_zero V c _ _ hz, PhiA2_eq]
      iintro ⟨⟨⟨Ro, HS⟩, Hg⟩, Ho, ⟨%d0, H0⟩, ⟨%d1, H1⟩, ⟨%d2, H2⟩, ⟨%d3, H3⟩, ⟨%d4, H4⟩⟩
      iapply ((runFirstAt V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accFirst_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Ro, HS⟩, Hg⟩, Ho, ⟨%d0, H0⟩, ⟨%d1, H1⟩, ⟨%d2, H2⟩, ⟨%d3, H3⟩, ⟨%d4, H4⟩⟩
      iapply ((runFirstAt V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accFirst_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat2 V c).leavesExact 4 t = owns (c : Thread nD τ) (mw4 t) fullShare ((dat2 V c).after 4 t) from by
        unfold Dat.leavesExact; rw [live2_4 t h1], after2_4]
      rw [accAt_last V c t h0 h1]
      unfold outLastAt accLastAt; (try dsimp only)
      rw [PhiS_castSucc V c t, PhiS_pos V c _ _ hz]
      iintro ⟨⟨⟨Ro, HS⟩, Hg⟩, Ho, ⟨%d0, H0⟩, ⟨%d1, H1⟩, ⟨%d2, H2⟩, ⟨%d3, H3⟩, ⟨%d4, H4⟩⟩
      iapply ((runLastAt V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accLast_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast_cover c _ _ _ _ _ _ _ _ _ _ _ _ _ _ _ _ _ _ _ _)
    · rw [Dat.leavesExact_idle (dat2 V c) 4 t (idle2_4 t h1) (noFlush2_4 t h1)]
      rw [accAt_mid V c t h0 h1]
      unfold accMidAt; (try dsimp only)
      rw [PhiS_castSucc V c t, PhiS_pos V c _ _ hz]
      iintro ⟨⟨⟨Ro, HS⟩, Hg⟩, Ho, ⟨%d0, H0⟩, ⟨%d1, H1⟩, ⟨%d2, H2⟩, ⟨%d3, H3⟩, ⟨%d4, H4⟩⟩
      iapply ((runMidAt V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accMid_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body V c t

/-- What the region is entered with is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the entry invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨Ro, HS⟩, Hg⟩
  isplitl [Ro HS]
  · isplitl [Ro]; · iexact Ro
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.Kernel.Hand

end
-- ==== Proof.K.Shared2.lean ====
/-
  The third stage reads one array, the scaled rows, through two windows: once by the column block's rows and once
  by the row block's own rows.  The buffer behind that array is held once, whole, when the stage is entered; the two
  windows each take half of it, and give the halves back when the stage is left.  Here: the stage's arrays as an
  explicit list, the dealing of the shared buffer at the entry, and its rejoining at the exit, where only the
  output array has changed.
-/
import proofs.«139989_j90280212562329_2_alg».proof.Proof.Gen.Kernel.Launch
import proofs.«139989_j90280212562329_2_alg».proof.Proof.Gen.Kernel.Skeleton
import proofs.«139989_j90280212562329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- How the third stage's windows hold their arrays: the two windows on the scaled rows half each, the others whole. -/
abbrev q2 : Fin cfg2.W → PosShare TreeShare := fun w =>
  if w = 2 then fullShare.left else if w = 3 then fullShare.right else fullShare

/-- The four distinct buffers behind the third stage's five windows, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold Pipeline.arrBufs
  exact bigSep_eq_bigSepL_of_eq [main_arg1, main_v0, main_v1, main_v2] (by decide) (by decide) _

/-- A core's unscoped buffers are the buffers behind the stage's arrays and the rest. -/
theorem unscopedBufs_split2 (c : Dev nD) (V : (b : Ref sig .tc) → Buf (Elt F) ((c : Thread nD τ).loc b)) :
    (unscopedBufs c V : sProp 𝕄)
      = iprop((Pipeline.arrBufs spec2 c V : sProp 𝕄) ∗ Pipeline.unscopedRest spec2 c V) := by
  classical
  have hA : Finset.univ.image (Pipeline.arrRef spec2) ⊆ Finset.univ.filter fun b : Ref sig .tc => ¬ b.isScoped := by decide
  unfold unscopedBufs Pipeline.unscopedRest Pipeline.arrBufs
  rw [bigSep_sdiff_split hA]
  rfl

section
variable (c : Dev nD) (dat : Dat τ (Elt F) Unit ℕ (UR sig nD τ) ℕ cfg2 c) (hq : dat.q = q2)

include hq in
/-- The proof data's arrays, window by window, at the dealt shares. -/
theorem arrays2_eq (Fw : (w : Fin cfg2.W) → Buf (Elt F) ((cfg2.win w).arr.view.loc (c : Thread nD τ))) :
    (dat.arrays Fw : sProp 𝕄)
      = iprop((((c : Thread nD τ).loc main_arg1) ↦{fullShare} Fw 0) ∗ (((c : Thread nD τ).loc main_v0) ↦{fullShare} Fw 1)
          ∗ (((c : Thread nD τ).loc main_v1) ↦{fullShare.left} Fw 2) ∗ (((c : Thread nD τ).loc main_v1) ↦{fullShare.right} Fw 3)
          ∗ (((c : Thread nD τ).loc main_v2) ↦{fullShare} Fw 4)) := by
  have e : (dat.arrays Fw : sProp 𝕄) = bigSep Finset.univ fun w : Fin cfg2.W =>
      ((((c : Thread nD τ).loc (Pipeline.arrRef spec2 w)) ↦{dat.share w} Fw w : sProp 𝕄)) := by
    unfold Dat.arrays
    exact bigSep_congr fun w _ => by rw [(arr_whole2 w).set_eq_univ]
  have h0 : dat.share 0 = fullShare := by unfold Dat.share; rw [hq]; rfl
  have h1 : dat.share 1 = fullShare := by unfold Dat.share; rw [hq]; rfl
  have h2 : dat.share 2 = fullShare.left := by unfold Dat.share; rw [hq]; rfl
  have h3 : dat.share 3 = fullShare.right := by unfold Dat.share; rw [hq]; rfl
  have h4 : dat.share 4 = fullShare := by unfold Dat.share; rfl
  rw [e, bigSep_W2, h0, h1, h2, h3, h4]

include hq in
/-- ENTRY: the buffers behind the arrays, whole at the contents `V` the stage is entered with, are the proof
    data's arrays at their entry contents, the scaled rows' buffer dealt in halves to its two windows. -/
theorem arrays2_of_arrBufs (V : (b : Ref sig .tc) → Buf (Elt F) ((c : Thread nD τ).loc b))
    (hA : ∀ w, dat.A w = V (Pipeline.arrRef spec2 w)) :
    (Pipeline.arrBufs spec2 c V : sProp 𝕄) ⊢ dat.arrays (dat.arrAt · 0) := by
  rw [arrBufs2_eq, arrays2_eq c dat hq]
  have e0 : dat.arrAt 0 0 = V main_arg1 := hA 0
  have e1 : dat.arrAt 1 0 = V main_v0 := hA 1
  have e2 : dat.arrAt 2 0 = V main_v1 := hA 2
  have e3 : dat.arrAt 3 0 = V main_v1 := hA 3
  have e4 : dat.arrAt 4 0 = V main_v2 := hA 4
  rw [e0, e1, e2, e3, e4]
  have hdeal : ((((c : Thread nD τ).loc main_v1) ↦{fullShare} V main_v1 : sProp 𝕄))
      ⊢ iprop((((c : Thread nD τ).loc main_v1) ↦{fullShare.left} V main_v1) ∗ (((c : Thread nD τ).loc main_v1) ↦{fullShare.right} V main_v1)) :=
    (pointsTo_share (PosShare.mem_left_op_right fullShare)).1
  iintro ⟨H0, H1, Hh, H4⟩
  ihave Hs := hdeal $$ Hh
  icases Hs with ⟨Hl, Hr⟩
  isplitl [H0]; · iexact H0
  isplitl [H1]; · iexact H1
  isplitl [Hl]; · iexact Hl
  isplitl [Hr]; · iexact Hr
  iexact H4

include hq in
/-- EXIT: the proof data's arrays after the last point — the four input windows' as entered, the result array
    at what the write-backs leave — and the rest as entered are the core's unscoped buffers at any contents `V'`
    that has the result array there and agrees with `V` elsewhere. -/
theorem unscopedBufs2_of_arrays (V V' : (b : Ref sig .tc) → Buf (Elt F) ((c : Thread nD τ).loc b))
    (hA : ∀ w, dat.A w = V (Pipeline.arrRef spec2 w))
    (hout : V' main_v2 = dat.arrAt 4 cfg2.N) (hrest : ∀ b, b ≠ main_v2 → V' b = V b) :
    iprop(dat.arrays (dat.arrAt · cfg2.N) ∗ Pipeline.unscopedRest spec2 c V) ⊢ (unscopedBufs c V' : sProp 𝕄) := by
  rw [unscopedBufs_split2 c V', arrBufs2_eq, arrays2_eq c dat hq]
  have e0 : dat.arrAt 0 cfg2.N = V' main_arg1 := ((dat.arrAt_in 0 rfl _).trans (hA 0)).trans (hrest main_arg1 (by decide)).symm
  have e1 : dat.arrAt 1 cfg2.N = V' main_v0 := ((dat.arrAt_in 1 rfl _).trans (hA 1)).trans (hrest main_v0 (by decide)).symm
  have e2 : dat.arrAt 2 cfg2.N = V' main_v1 := ((dat.arrAt_in 2 rfl _).trans (hA 2)).trans (hrest main_v1 (by decide)).symm
  have e3 : dat.arrAt 3 cfg2.N = V' main_v1 := ((dat.arrAt_in 3 rfl _).trans (hA 3)).trans (hrest main_v1 (by decide)).symm
  have e4 : dat.arrAt 4 cfg2.N = V' main_v2 := hout.symm
  rw [e0, e1, e2, e3, e4]
  have hR : (Pipeline.unscopedRest spec2 c V : sProp 𝕄) = Pipeline.unscopedRest spec2 c V' := by
    unfold Pipeline.unscopedRest
    exact bigSep_congr fun b hb => by
      rw [hrest b (fun h => (Finset.mem_sdiff.mp hb).2 (Finset.mem_image.mpr ⟨4, Finset.mem_univ _, h.symm⟩))]
  rw [hR]
  iintro ⟨⟨H0, H1, Hl, Hr, H4⟩, Hrest⟩
  isplitr [Hrest]
  · isplitl [H0]; · iexact H0
    isplitl [H1]; · iexact H1
    isplitr [H4]
    · iapply (pointsTo_share (PosShare.mem_left_op_right fullShare)).2
      isplitl [Hl]; · iexact Hl
      iexact Hr
    iexact H4
  iexact Hrest

end

end Cert.Kernel.Hand

end
-- ==== Proof.K.Run.lean ====
/-
  The whole program as three stages in a row.  Between stages a core's unscoped buffers are held whole at known
  contents: what the launch put there, then after each stage the same with that stage's output array at what its
  write-backs leave.  Each stage takes its arrays out of those buffers when it is entered and puts them back when it
  is left; the generator register rides along untouched and nothing is ever owed.  The run's conclusion reads every
  unscoped buffer at the last contents, from which both "the arguments end as launched" and "the result array is
  what the third stage leaves" follow.
-/
import proofs.«139989_j90280212562329_2_alg».proof.Proof.K.Reg0
import proofs.«139989_j90280212562329_2_alg».proof.Proof.K.Reg1
import proofs.«139989_j90280212562329_2_alg».proof.Proof.K.Reg2
import proofs.«139989_j90280212562329_2_alg».proof.Proof.K.Shared2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each stage boundary -/

/-- Core `c`'s buffers at launch. -/
abbrev W0 : Dev nD → Valuation τ sig (Elt F) := fun c b => (s₀ m ρ).mem ((c : Dev nD), b)
/-- The same read at the TensorCore's references: what the first stage is entered with. -/
abbrev V0 : (c : Dev nD) → (b : Ref sig .tc) → Buf (Elt F) ((c : Thread nD τ).loc b) := fun c b => W0 m ρ c b

/-- After the first stage: its arrays at what the stage leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second stage. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the third stage: only the result array has changed. -/
def W3 (c : Dev nD) : Valuation τ sig (Elt F) :=
  Function.update (W2 m ρ c) (Proc.devRef .tc main_v2) ((dat2 (V2 m ρ) c).arrAt 4 cfg2.N)
theorem W3_out (c : Dev nD) : W3 m ρ c (Proc.devRef .tc main_v2) = (dat2 (V2 m ρ) c).arrAt 4 cfg2.N := by
  unfold W3; exact Function.update_self _ _ _
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl

/-! ## The proof data family and the thread state -/

/-- No stage has a prefetched table. -/
abbrev adm : (p : Fin 3) → (pcfgs (F := F) p).Adm := fun p => (cfgs p).toPCfg_adm
/-- Every stage's proof data, each at the contents the stage is entered with. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stage: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed part. -/
abbrev Tₙ (c : Dev nD) : sProp 𝕄 := iprop(StableHlo.held (c : Thread nD τ) (Pipeline.ucRefs τ sig) (W3 m ρ c) ∗ ∃ r, prngReg c r)

/-! ## The stages as segments -/

set_option backward.isDefEq.respectTransparency.types false in
/-- Stage 0 over the thread state: entered with every unscoped buffer at the contents before it, left with them at
    the contents after it.  Its arrays are split out of the unscoped buffers and put back at the exit contents; the
    generator register passes into the stage's invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered with every unscoped buffer at the contents before it, left with them at
    the contents after it.  Its arrays are split out of the unscoped buffers and put back at the exit contents; the
    generator register passes into the stage's invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third stage over the thread state.  Two of its windows read one array, so its arrays are dealt out of the
    unscoped buffers and rejoined by hand; its invariant carries the accumulator between points. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := arrays2_of_arrBufs c (pdats m ρ 2 c) rfl (V2 m ρ c) (fun w => A_eq2 (V2 m ρ) c w)
    have hsp : (unscopedBufs c (V2 m ρ c) : sProp 𝕄)
        ⊢ iprop((Pipeline.arrBufs spec2 c (V2 m ρ c) : sProp 𝕄) ∗ Pipeline.unscopedRest spec2 c (V2 m ρ c)) :=
      Entails.of_eq (unscopedBufs_split2 c (V2 m ρ c))
    rw [Pipeline.unscopedBufs_held] at hsp
    iintro ⟨⟨Hub, Hp, HO⟩, -, -⟩
    ihave H := hsp $$ Hub
    icases H with ⟨Hab, Hrest⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V2 m ρ) c)
    unfold Pipeline.ΦA
    iintro ⟨Hp, -, Hr⟩
    isplitl [Hr]; · iexact Hr
    iexact Hp
  hout c := by
    rw [Pipeline.ownSems0_none]
    refine BIBase.Entails.trans (hout2 (V2 m ρ) c) ?_
    unfold Pipeline.ΦA
    iintro ⟨Hr, Hp⟩
    isplitl [Hp]; · iexact Hp
    isplitr; · iempintro
    iexact Hr
  hexit c := by
    have hjoin := unscopedBufs2_of_arrays c (pdats m ρ 2 c) rfl (V2 m ρ c) (V3 m ρ c) (fun w => A_eq2 (V2 m ρ) c w)
      (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three stages in order. -/
abbrev segs : List (Pipeline.Seg (pcfgs (F := F)) adm (pdats m ρ) () defs₀ 𝒱₀ L lv) :=
  [ .region (reg0 m ρ), .region (reg1 m ρ), .region (reg2 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at the contents after the third stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The result array after the run is what the third stage's write-backs leave. -/
theorem run_result : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_out m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI.Reg0.lean ====
/-
  The first stage of the program: the inverse square root of each node's degree.

  The stage walks an 8 x 8 grid; at a point it is handed a slab of 512 adjacency rows of one batch
  ([1, 512, 4096]) and leaves the 512 inverse root degrees of those rows ([1, 512, 1]).  Its body has one
  shape of control: it reads the whole slab, computes, and writes the whole output block.  So what the body
  leaves in the output block is a closed function of the slab, and the slab it finds is the adjacency
  array's block at the point.  Everything is stated at the buffer contents `V` the stage is entered with.
-/
import proofs.«139989_j90280212562329_2_alg».proof.Proof.Gen.KernelIdeal.Launch
import proofs.«139989_j90280212562329_2_alg».proof.Proof.Gen.KernelIdeal.Skeleton
import proofs.«139989_j90280212562329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the two windows -/

/-- The block of window `w` (0: the adjacency slab, 1: the inverse root degrees) at point `t`, read off the
    window's array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency slab in the staging buffer is the array's block at every point, for any proof data whose
    array is the entry contents and whose body leaves the slab in place: where the pipeline does not fetch,
    the block index has not moved. -/
theorem slab0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two accesses: the whole slab, the whole output block -/

/-- The whole slab of adjacency rows. -/
abbrev slabRect : Rect S1x512x4096 := Rect.unit (s := S1x512x4096) ![0, 0, 0] S1x512x4096.size inb_S1x512x4096_S1x512x4096_0_0_0

/-- The whole block of inverse root degrees. -/
abbrev dinvRect : Rect S1x512x1 := Rect.unit (s := S1x512x1) ![0, 0, 0] S1x512x1.size inb_S1x512x1_S1x512x1_0_0_0

/-! ## What the body leaves in the output block -/

/-- The output block after the body, from the slab: the one store, of the payload computed from the loaded slab. -/
def out0_1 (x0 : Vec F S1x512x4096 .f32) : Vec F S1x512x1 .f32 :=
  View.canon [⟨dinvRect, k0_pay1 (View.ld x0 slabRect)⟩]

/-- The one store is of the whole block, so it covers it. -/
theorem cover0_1 (p0 : Vec F S1x512x1 .f32) (y : S1x512x1.Idx) :
    ∃ pc ∈ ([⟨dinvRect, p0⟩] : List (View.Piece (Elt F) S1x512x1 .f32)), y ∈ pc.1.set :=
  View.cover_of_tiled [⟨dinvRect, p0⟩] S1x512x1.size (by rfl) y

/-! ## The body's triple -/

set_option maxHeartbeats 1000000 in
/-- The body on whole staging memrefs, the slab's at read contents `x0` and the output's at anything, runs to the
    continuation holding the slab as it was and the output block at `out0_1 x0`. -/
theorem sound_kernel0 (c : Dev nD) (E : Set ℕ) (i : grid0.Coords) (arg2 : Memref sig .tc .vmem S1x512x4096 .f32) (harg2 : arg2.IsWhole) (arg3 : Memref sig .tc .vmem S1x512x1 .f32) (harg3 : arg3.IsWhole)
    (x0 : Vec F S1x512x4096 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__deg_kernel i arg2 harg2 arg3 harg3) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The stage's proof data -/

/-- The proof data of the stage on core `c`: the arrays as the stage finds them; after the body at point `t`
    the slab's buffer at the slab and the output's at `out0_1` of the slab; the invariant "the scoped rest
    and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The slab's staging buffer holds the array's block at every point. -/
theorem before0_0 (c : Dev nD) (t : Fin cfg0.N) (d) : (dat0 V c).before 0 t d = iblk0 V c 0 t :=
  slab0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the slab's memref holds the array's block, so the triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second stage of the program: the linear layer with each row scaled by that node's inverse root degree.

  The stage walks a grid of 8 points, one per batch; at a point it is handed the batch's feature rows
  ([1, 4096, 64]), the weights ([64, 64]), the bias ([64]) and the batch's inverse root degrees
  ([1, 4096, 1]) and leaves the scaled rows ([1, 4096, 64]).  The weights and the bias have a constant block
  index: the pipeline fetches them at the first point only and their buffers keep them.  The body has one
  shape of control: it reads the four whole blocks, computes, and writes the whole output block.  Everything
  is stated at the buffer contents `V` the stage is entered with.
-/
import proofs.«139989_j90280212562329_2_alg».proof.Proof.Gen.KernelIdeal.Launch
import proofs.«139989_j90280212562329_2_alg».proof.Proof.Gen.KernelIdeal.Skeleton
import proofs.«139989_j90280212562329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the five windows -/

/-- The block of window `w` (0: features, 1: weights, 2: bias, 3: inverse root degrees, 4: scaled rows) at
    point `t`, read off the window's array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its array's block at every point, fetched there or not, for any proof data
    whose array is the entry contents and whose body leaves the block in place: where the pipeline does not
    fetch, the block index has not moved.  One statement per input window. -/
theorem feat1_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem weight1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem bias1_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem scale1_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block whole -/

/-- The whole block of feature rows; the output block has the same shape and is stored whole through it too. -/
abbrev rowsRect : Rect S1x4096x64 := Rect.unit (s := S1x4096x64) ![0, 0, 0] S1x4096x64.size inb_S1x4096x64_S1x4096x64_0_0_0
/-- The whole weight matrix. -/
abbrev weightRect : Rect S64x64 := Rect.unit (s := S64x64) ![0, 0] S64x64.size inb_S64x64_S64x64_0_0
/-- The whole bias vector. -/
abbrev biasRect : Rect S64 := Rect.unit (s := S64) ![0] S64.size inb_S64_S64_0
/-- The whole column of inverse root degrees. -/
abbrev scaleRect : Rect S1x4096x1 := Rect.unit (s := S1x4096x1) ![0, 0, 0] S1x4096x1.size inb_S1x4096x1_S1x4096x1_0_0_0

/-! ## What the body leaves in the output block -/

/-- The output block after the body, from the four input blocks: the one store, of the payload computed from
    the four loads. -/
def out1_4 (x0 : Vec F S1x4096x64 .f32) (x1 : Vec F S64x64 .f32) (x2 : Vec F S64 .f32) (x3 : Vec F S1x4096x1 .f32) : Vec F S1x4096x64 .f32 :=
  View.canon [⟨rowsRect, k1_pay1 (View.ld x0 rowsRect) (View.ld x1 weightRect) (View.ld x2 biasRect) (View.ld x3 scaleRect)⟩]

/-- The one store is of the whole block, so it covers it. -/
theorem cover1_4 (p0 : Vec F S1x4096x64 .f32) (y : S1x4096x64.Idx) :
    ∃ pc ∈ ([⟨rowsRect, p0⟩] : List (View.Piece (Elt F) S1x4096x64 .f32)), y ∈ pc.1.set :=
  View.cover_of_tiled [⟨rowsRect, p0⟩] S1x4096x64.size (by rfl) y

/-! ## The body's triple -/

set_option maxHeartbeats 1000000 in
/-- The body on whole staging memrefs, the inputs' at read contents `x0 … x3` and the output's at anything, runs
    to the continuation holding the inputs' as they were and the output block at `out1_4 x0 x1 x2 x3`. -/
theorem sound_kernel1 (c : Dev nD) (E : Set ℕ) (i : grid1.Coords) (arg1 : Memref sig .tc .vmem S1x4096x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S1x4096x1 .f32) (harg4 : arg4.IsWhole) (arg5 : Memref sig .tc .vmem S1x4096x64 .f32) (harg5 : arg5.IsWhole)
    (x0 : Vec F S1x4096x64 .f32) (x1 : Vec F S64x64 .f32) (x2 : Vec F S64 .f32) (x3 : Vec F S1x4096x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__hs_kernel i arg1 harg1 arg2 harg2 arg3 harg3 arg4 harg4 arg5 harg5) K := by
  simp only [cc1__hs_kernel_eq_skeleton]; unfold cc1__hs_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The stage's proof data -/

/-- The proof data of the stage on core `c`: the arrays as the stage finds them; after the body at point `t`
    each input's buffer at its block and the output's at `out1_4` of the four input blocks; the invariant "the
    scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's staging buffer holds its array's block at every point. -/
theorem before1_0 (c : Dev nD) (t : Fin cfg1.N) (d) : (dat1 V c).before 0 t d = iblk1 V c 0 t :=
  feat1_of V (dat1 V c) (A_eq1 V c 0) (after1_0 V c) t d
theorem before1_1 (c : Dev nD) (t : Fin cfg1.N) (d) : (dat1 V c).before 1 t d = iblk1 V c 1 t :=
  weight1_of V (dat1 V c) (A_eq1 V c 1) (after1_1 V c) t d
theorem before1_2 (c : Dev nD) (t : Fin cfg1.N) (d) : (dat1 V c).before 2 t d = iblk1 V c 2 t :=
  bias1_of V (dat1 V c) (A_eq1 V c 2) (after1_2 V c) t d
theorem before1_3 (c : Dev nD) (t : Fin cfg1.N) (d) : (dat1 V c).before 3 t d = iblk1 V c 3 t :=
  scale1_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their arrays' blocks, so the triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
import proofs.«139989_j90280212562329_2_alg».proof.Proof.Gen.KernelIdeal.Launch
import proofs.«139989_j90280212562329_2_alg».proof.Proof.Gen.KernelIdeal.Skeleton
import proofs.«139989_j90280212562329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The two conditions of the aggregation body, in closed form

The body branches twice on the reduction coordinate `k = i 2`, the fastest axis of the 8 × 4 × 4 grid, so that
`k = t mod 4` at the point of position `t`: the accumulator is zeroed when `k = 0` and the output block is
written when `k = 3`. -/

/-- The first condition (`k = 0`), as the body computes it from the grid coordinates. -/
abbrev isFirst (i : grid2.Coords) : Prop :=
  (Scalar.cmpi .ne (Scalar.extui (Scalar.cmpi .eq (BitVec.ofNat 32 (i 2).val) 0#32)) 0#32) = 1#1

/-- It holds exactly at the positions divisible by four. -/
theorem isFirst_iff : ∀ t : Fin cfg2.N, isFirst (grid2.coords t) ↔ t.val % 4 = 0 :=
  (by decide +kernel : ∀ t : Fin grid2.N, isFirst (grid2.coords t) ↔ t.val % 4 = 0)

/-- The second condition (`k = 3`). -/
abbrev isLast (i : grid2.Coords) : Prop := k2_cond2 i = 1#1

/-- It holds exactly at the positions that are three modulo four. -/
theorem isLast_iff : ∀ t : Fin cfg2.N, isLast (grid2.coords t) ↔ t.val % 4 = 3 :=
  (by decide +kernel : ∀ t : Fin grid2.N, isLast (grid2.coords t) ↔ t.val % 4 = 3)

/-! ## Where the windows are idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
theorem live2_3 : ∀ t : Fin cfg2.N, cfg2.idle 3 (grid2.coords t) = false := fun _ => rfl
/-- The output window is idle wherever `k ≠ 3`, -/
theorem idle2_4 : ∀ t : Fin cfg2.N, ¬ t.val % 4 = 3 → cfg2.idle 4 (grid2.coords t) = true :=
  (by decide +kernel : ∀ t : Fin grid2.N, ¬ t.val % 4 = 3 → cfg2.idle 4 (grid2.coords t) = true)
/-- is not written back there, -/
theorem noFlush2_4 : ∀ t : Fin cfg2.N, ¬ t.val % 4 = 3 → (cfg2.win 4).flush t = false :=
  (by decide +kernel : ∀ t : Fin grid2.N, ¬ t.val % 4 = 3 → win2_4.flush t = false)
/-- and is live where `k = 3`. -/
theorem live2_4 : ∀ t : Fin cfg2.N, t.val % 4 = 3 → cfg2.idle 4 (grid2.coords t) = false :=
  (by decide +kernel : ∀ t : Fin grid2.N, t.val % 4 = 3 → cfg2.idle 4 (grid2.coords t) = false)

/-! ## The memrefs the body is called with -/

abbrev mw0 (t : Fin cfg2.N) : Memref sig .tc .vmem S1x1024x1024 .f32 := win2_0.stage (cfg2.slots t 0)
abbrev hw0 (t : Fin cfg2.N) : (mw0 t).IsWhole := hstage2_0 ((cfg2.slots t 0).cast nbuf2_0)
abbrev mw1 (t : Fin cfg2.N) : Memref sig .tc .vmem S1x1024x1 .f32 := win2_1.stage (cfg2.slots t 1)
abbrev hw1 (t : Fin cfg2.N) : (mw1 t).IsWhole := hstage2_1 ((cfg2.slots t 1).cast nbuf2_1)
abbrev mw2 (t : Fin cfg2.N) : Memref sig .tc .vmem S1x1024x64 .f32 := win2_2.stage (cfg2.slots t 2)
abbrev hw2 (t : Fin cfg2.N) : (mw2 t).IsWhole := hstage2_2 ((cfg2.slots t 2).cast nbuf2_2)
abbrev mw3 (t : Fin cfg2.N) : Memref sig .tc .vmem S1x1024x64 .f32 := win2_3.stage (cfg2.slots t 3)
abbrev hw3 (t : Fin cfg2.N) : (mw3 t).IsWhole := hstage2_3 ((cfg2.slots t 3).cast nbuf2_3)
abbrev mw4 (t : Fin cfg2.N) : Memref sig .tc .vmem S1x1024x64 .f32 := win2_4.stage (cfg2.slots t 4)
abbrev hw4 (t : Fin cfg2.N) : (mw4 t).IsWhole := hstage2_4 ((cfg2.slots t 4).cast nbuf2_4)
/-- The accumulator: a whole scoped buffer of the kernel's own, passed beside the windows. -/
abbrev accM : Memref sig .tc .vmem S1024x64 .f32 := Memref.whole cc2_scratch0
/-- The views through which the accumulator's and the output block's contents are stated. -/
abbrev accV : View sig .tc .vmem S1024x64 .f32 := accM.view
abbrev outV : View sig .tc .vmem S1x1024x64 .f32 := (Memref.whole cc2_stg4_0 : Memref sig .tc .vmem S1x1024x64 .f32).view

/-! ## The body on any whole memrefs, case by case -/

set_option maxHeartbeats 4000000 in
/-- `k = 0`: the accumulator, at anything, is zeroed and then receives the tile product; the output block is
    handed back untouched. The witness is the list of pieces the accumulator ends with. -/
noncomputable def runFirst (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : isFirst i) (hc1 : ¬isLast i)
    (x0 : Vec F S1x1024x1024 .f32) (x1 : Vec F S1x1024x1 .f32) (x2 : Vec F S1x1024x64 .f32) (x3 : Vec F S1x1024x64 .f32) :
    { LS : List (View.Piece (Elt F) S1024x64 .f32) //
      ∀ (y4 : Vec F S1x1024x64 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ (∃ d, owns (c : Thread nD τ) sc fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ (∃ f, sc.view.loc (c : Thread nD τ) ↦[sc.view.set]{fullShare} sc.view.writes (Elt F) f LS)) -∗ K ⟨⟩))
          ⊢ wp frame (wpE (defs₀ (F := F)) Variants.none c none) E (cc2__agg_kernel i a0 ha0 a1 ha1 a2 ha2 a3 ha3 a4 ha4 sc hsc) K } := by
  refine ⟨?_, fun y4 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := ha0.eq_unread hf0; obtain rfl := ha1.eq_unread hf1; obtain rfl := ha2.eq_unread hf2
    obtain rfl := ha3.eq_unread hf3; obtain rfl := ha4.eq_unread hf4
    sl_exec (disch := first | exact hc0 | exact hc1)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    iexists _; iexact HS

set_option maxHeartbeats 4000000 in
/-- `k = 1, 2`: the accumulator, at what the point before left, receives the tile product; the output block is
    handed back untouched. -/
noncomputable def runMid (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : ¬isLast i)
    (x0 : Vec F S1x1024x1024 .f32) (x1 : Vec F S1x1024x1 .f32) (x2 : Vec F S1x1024x64 .f32) (x3 : Vec F S1x1024x64 .f32) (xs : Vec F S1024x64 .f32) :
    { LS : List (View.Piece (Elt F) S1024x64 .f32) //
      ∀ (y4 : Vec F S1x1024x64 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ owns (c : Thread nD τ) sc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare y4 ∗ (∃ f, sc.view.loc (c : Thread nD τ) ↦[sc.view.set]{fullShare} sc.view.writes (Elt F) f LS)) -∗ K ⟨⟩))
          ⊢ wp frame (wpE (defs₀ (F := F)) Variants.none c none) E (cc2__agg_kernel i a0 ha0 a1 ha1 a2 ha2 a3 ha3 a4 ha4 sc hsc) K } := by
  refine ⟨?_, fun y4 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := ha0.eq_unread hf0; obtain rfl := ha1.eq_unread hf1; obtain rfl := ha2.eq_unread hf2
    obtain rfl := ha3.eq_unread hf3; obtain rfl := ha4.eq_unread hf4; obtain rfl := hsc.eq_unread hfs
    sl_exec (disch := first | exact hc0 | exact hc1)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    iexists _; iexact HS

set_option maxHeartbeats 4000000 in
/-- `k = 3`: the accumulator receives the last tile product, and the output block, at anything, is stored whole
    from the accumulator, the row factors and the node's own rows. The witness is the pair of piece lists the output
    block and the accumulator end with. -/
noncomputable def runLast (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) :
    Σ' (L4 : List (View.Piece (Elt F) S1x1024x64 .f32)), { LS : List (View.Piece (Elt F) S1024x64 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) sc fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L4) ∗ (∃ f, sc.view.loc (c : Thread nD τ) ↦[sc.view.set]{fullShare} sc.view.writes (Elt F) f LS)) -∗ K ⟨⟩))
          ⊢ wp frame (wpE (defs₀ (F := F)) Variants.none c none) E (cc2__agg_kernel i a0 ha0 a1 ha1 a2 ha2 a3 ha3 a4 ha4 sc hsc) K } := by
  refine ⟨?_, ?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := ha0.eq_unread hf0; obtain rfl := ha1.eq_unread hf1; obtain rfl := ha2.eq_unread hf2
    obtain rfl := ha3.eq_unread hf3; obtain rfl := hsc.eq_unread hfs
    sl_exec (disch := first | exact hc0 | exact hc1)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]; · iexists _; iexact H4
    iexists _; iexact HS

end Cert.KernelIdeal.Hand

end
-- ==== Proof.KI.Reg2.lean ====
import proofs.«139989_j90280212562329_2_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the point of position `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input's current staging buffer holds its block at every point, fetched there or not: an input that is not
fetched at a point has the block index it had at the point before, and the body leaves the inputs in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The region's invariant, its parts named -/

/-- The staging buffers of the two earlier regions, each whole at some contents: the body never touches them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

theorem sep_assoc_eq (P Q R : sProp 𝕄) : iprop((P ∗ Q) ∗ R) = iprop(P ∗ Q ∗ R) :=
  Idealize.SL.BI.equiv_iff.mp ⟨Idealize.SL.BI.sep_assoc, Idealize.SL.BI.sep_assoc'⟩

/-- The invariant the region is entered with: the other regions' staging buffers and the accumulator at anything, and
    the generator register at some state. -/
theorem PhiA2_eq (c : Dev nD) :
    (Pipeline.ΦA spec2 c : sProp 𝕄)
      = iprop(iprop(others (F := F) c ∗ (∃ d, owns (c : Thread nD τ) accM fullShare d)) ∗ (∃ r, prngReg c r)) := by
  unfold Pipeline.ΦA; rw [scopedRest2_eq]; unfold others; simp only [accM, owns_whole, sep_assoc_eq]; rfl

/-! ## What each case leaves -/

/-- The pieces the accumulator ends with when `k = 0` cover it. -/
theorem accFirst_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : isFirst i) (hc1 : ¬isLast i)
    (x0 : Vec F S1x1024x1024 .f32) (x1 : Vec F S1x1024x1 .f32) (x2 : Vec F S1x1024x64 .f32) (x3 : Vec F S1x1024x64 .f32) (y : S1024x64.Idx) :
    ∃ pc ∈ (runFirst c i a0 ha0 a1 ha1 a2 ha2 a3 ha3 a4 ha4 sc hsc hc0 hc1 x0 x1 x2 x3).1, y ∈ pc.1.set :=
  View.cover_of_tiledL (runFirst c i a0 ha0 a1 ha1 a2 ha2 a3 ha3 a4 ha4 sc hsc hc0 hc1 x0 x1 x2 x3).1 S1024x64.size (by sl_kernel_rfl) y

/-- The pieces the accumulator ends with when `k = 1, 2` cover it. -/
theorem accMid_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : ¬isLast i)
    (x0 : Vec F S1x1024x1024 .f32) (x1 : Vec F S1x1024x1 .f32) (x2 : Vec F S1x1024x64 .f32) (x3 : Vec F S1x1024x64 .f32) (xs : Vec F S1024x64 .f32) (y : S1024x64.Idx) :
    ∃ pc ∈ (runMid c i a0 ha0 a1 ha1 a2 ha2 a3 ha3 a4 ha4 sc hsc hc0 hc1 x0 x1 x2 x3 xs).1, y ∈ pc.1.set :=
  View.cover_of_tiledL (runMid c i a0 ha0 a1 ha1 a2 ha2 a3 ha3 a4 ha4 sc hsc hc0 hc1 x0 x1 x2 x3 xs).1 S1024x64.size (by sl_kernel_rfl) y

/-- The pieces the output block ends with when `k = 3` cover it. -/
theorem outLast_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) (y : S1x1024x64.Idx) :
    ∃ pc ∈ (runLast c i a0 ha0 a1 ha1 a2 ha2 a3 ha3 a4 ha4 sc hsc hc0 hc1 x0 x1 x2 x3 xs).1, y ∈ pc.1.set :=
  View.cover_of_tiledL (runLast c i a0 ha0 a1 ha1 a2 ha2 a3 ha3 a4 ha4 sc hsc hc0 hc1 x0 x1 x2 x3 xs).1 S1x1024x64.size (by sl_kernel_rfl) y

/-- The pieces the accumulator ends with when `k = 3` cover it. -/
theorem accLast_cover (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) (y : S1024x64.Idx) :
    ∃ pc ∈ (runLast c i a0 ha0 a1 ha1 a2 ha2 a3 ha3 a4 ha4 sc hsc hc0 hc1 x0 x1 x2 x3 xs).2.1, y ∈ pc.1.set :=
  View.cover_of_tiledL (runLast c i a0 ha0 a1 ha1 a2 ha2 a3 ha3 a4 ha4 sc hsc hc0 hc1 x0 x1 x2 x3 xs).2.1 S1024x64.size (by sl_kernel_rfl) y

theorem notLast_of_first (t : Fin cfg2.N) (h0 : t.val % 4 = 0) : ¬isLast (grid2.coords t) :=
  fun h => by have := (isLast_iff t).mp h; omega
theorem notFirst_of (t : Fin cfg2.N) (h0 : ¬t.val % 4 = 0) : ¬isFirst (grid2.coords t) := fun h => h0 ((isFirst_iff t).mp h)
theorem notLast_of (t : Fin cfg2.N) (h1 : ¬t.val % 4 = 3) : ¬isLast (grid2.coords t) := fun h => h1 ((isLast_iff t).mp h)

/-- The three runs at the point of position `t`: on the current staging memrefs and the accumulator, the inputs at
    their blocks. -/
abbrev runFirstAt (c : Dev nD) (t : Fin cfg2.N) (h0 : t.val % 4 = 0) :=
  runFirst c (grid2.coords t) (mw0 t) (hw0 t) (mw1 t) (hw1 t) (mw2 t) (hw2 t) (mw3 t) (hw3 t) (mw4 t) (hw4 t) accM (Memref.isWhole_whole _) ((isFirst_iff t).mpr h0) (notLast_of_first t h0) (iblk2 V c 0 t) (iblk2 V c 1 t) (iblk2 V c 2 t) (iblk2 V c 3 t)
abbrev runMidAt (c : Dev nD) (t : Fin cfg2.N) (h0 : ¬t.val % 4 = 0) (h1 : ¬t.val % 4 = 3) (xs : Vec F S1024x64 .f32) :=
  runMid c (grid2.coords t) (mw0 t) (hw0 t) (mw1 t) (hw1 t) (mw2 t) (hw2 t) (mw3 t) (hw3 t) (mw4 t) (hw4 t) accM (Memref.isWhole_whole _) (notFirst_of t h0) (notLast_of t h1) (iblk2 V c 0 t) (iblk2 V c 1 t) (iblk2 V c 2 t) (iblk2 V c 3 t) xs
abbrev runLastAt (c : Dev nD) (t : Fin cfg2.N) (h0 : ¬t.val % 4 = 0) (h1 : t.val % 4 = 3) (xs : Vec F S1024x64 .f32) :=
  runLast c (grid2.coords t) (mw0 t) (hw0 t) (mw1 t) (hw1 t) (mw2 t) (hw2 t) (mw3 t) (hw3 t) (mw4 t) (hw4 t) accM (Memref.isWhole_whole _) (notFirst_of t h0) ((isLast_iff t).mpr h1) (iblk2 V c 0 t) (iblk2 V c 1 t) (iblk2 V c 2 t) (iblk2 V c 3 t) xs

/-- What the accumulator holds after a point with `k = 0`: its pieces read back. -/
def accFirstAt (c : Dev nD) (t : Fin cfg2.N) (h0 : t.val % 4 = 0) : Vec F S1024x64 .f32 :=
  accV.read (Elt F) (accV.writes (Elt F) accV.junk (runFirstAt V c t h0).1)
/-- What the accumulator holds after a point with `k = 1, 2`, over what the point before left. -/
def accMidAt (c : Dev nD) (t : Fin cfg2.N) (h0 : ¬t.val % 4 = 0) (h1 : ¬t.val % 4 = 3) (xs : Vec F S1024x64 .f32) : Vec F S1024x64 .f32 :=
  accV.read (Elt F) (accV.writes (Elt F) accV.junk (runMidAt V c t h0 h1 xs).1)
/-- What the accumulator holds after a point with `k = 3`, over what the point before left. -/
def accLastAt (c : Dev nD) (t : Fin cfg2.N) (h0 : ¬t.val % 4 = 0) (h1 : t.val % 4 = 3) (xs : Vec F S1024x64 .f32) : Vec F S1024x64 .f32 :=
  accV.read (Elt F) (accV.writes (Elt F) accV.junk (runLastAt V c t h0 h1 xs).2.1)
/-- What the output block's staging buffer holds after a point with `k = 3`, over the accumulator the point before left. -/
def outLastAt (c : Dev nD) (t : Fin cfg2.N) (h0 : ¬t.val % 4 = 0) (h1 : t.val % 4 = 3) (xs : Vec F S1024x64 .f32) : Vec F S1x1024x64 .f32 :=
  outV.read (Elt F) (outV.writes (Elt F) outV.junk (runLastAt V c t h0 h1 xs).1)
/-- Where `k ≠ 3` nothing is stored into the output block: a placeholder nothing consults, the window being idle and
    not written back there. -/
def idleOut : Vec F S1x1024x64 .f32 := outV.read (Elt F) outV.junk

/-! ## The accumulation -/

/-- What the output block's staging buffer and the accumulator hold after the body at position `n`: the case
    `n mod 4` selects, run at the point's memrefs and blocks — for `k ≠ 0` over the accumulator as position `n - 1`
    left it. -/
def accAt (c : Dev nD) : (n : ℕ) → n < cfg2.N → Vec F S1x1024x64 .f32 × Vec F S1024x64 .f32
  | 0, hn => (idleOut, accFirstAt V c ⟨0, hn⟩ (Nat.zero_mod _))
  | n + 1, hn =>
    if h0 : (n + 1) % 4 = 0 then (idleOut, accFirstAt V c ⟨n + 1, hn⟩ h0)
    else if h1 : (n + 1) % 4 = 3 then
      (outLastAt V c ⟨n + 1, hn⟩ h0 h1 (accAt c n (Nat.lt_of_succ_lt hn)).2, accLastAt V c ⟨n + 1, hn⟩ h0 h1 (accAt c n (Nat.lt_of_succ_lt hn)).2)
    else (idleOut, accMidAt V c ⟨n + 1, hn⟩ h0 h1 (accAt c n (Nat.lt_of_succ_lt hn)).2)

theorem accAt_first (c : Dev nD) (t : Fin cfg2.N) (h0 : t.val % 4 = 0) :
    accAt V c t.val t.isLt = (idleOut, accFirstAt V c t h0) := by
  obtain ⟨n, hn⟩ := t
  cases n with
  | zero => exact rfl
  | succ n => exact (dif_pos h0).trans rfl

theorem accAt_mid (c : Dev nD) (t : Fin cfg2.N) (h0 : ¬t.val % 4 = 0) (h1 : ¬t.val % 4 = 3) :
    accAt V c t.val t.isLt = (idleOut, accMidAt V c t h0 h1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem accAt_last (c : Dev nD) (t : Fin cfg2.N) (h0 : ¬t.val % 4 = 0) (h1 : t.val % 4 = 3) :
    accAt V c t.val t.isLt = (outLastAt V c t h0 h1 (accAt V c (t.val - 1) (Nat.lt_of_le_of_lt (Nat.sub_le _ _) t.isLt)).2, accLastAt V c t h0 h1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The staged invariant -/

/-- Before position `n`: at the start what the region is entered with; afterwards the other regions' buffers at
    anything, the accumulator at what position `n - 1` left in it, and the generator register at some state. -/
def PhiS (c : Dev nD) : (n : ℕ) → n ≤ cfg2.N → sProp 𝕄
  | 0, _ => Pipeline.ΦA spec2 c
  | n + 1, hn => iprop(iprop(others (F := F) c ∗ owns (c : Thread nD τ) accM fullShare ((accAt V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(others (F := F) c ∗ owns (c : Thread nD τ) accM fullShare ((accAt V c n hn).2)) ∗ (∃ r, prngReg c r)) := rfl

theorem PhiS_pos (c : Dev nD) (n : ℕ) (h : n ≤ cfg2.N) (hz : n ≠ 0) :
    PhiS V c n h = iprop(iprop(others (F := F) c ∗ owns (c : Thread nD τ) accM fullShare ((accAt V c (n - 1) (by omega)).2)) ∗ (∃ r, prngReg c r)) := by
  cases n with
  | zero => exact absurd rfl hz
  | succ n => rfl

/-! ## The proof data -/

/-- The proof data of the aggregation region on core `c`: the arrays as the region finds them; after the body each
    input's buffer at its block and the output's at the accumulation's first component; the staged invariant; nothing
    owed; the two windows on the scaled rows' array hold half of it each, the others all of theirs. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (accAt V c t.val t.isLt).1
  Φ t := PhiS V c t.val (Nat.le_of_lt_succ t.isLt)
  q := fun w => if w = 2 then fullShare.left else if w = 3 then fullShare.right else fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (accAt V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at the point of position `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (mw0 t) fullShare ((dat2 V c).before 0 t d))
    ∗ (∃ d, owns (c : Thread nD τ) (mw1 t) fullShare ((dat2 V c).before 1 t d))
    ∗ (∃ d, owns (c : Thread nD τ) (mw2 t) fullShare ((dat2 V c).before 2 t d))
    ∗ (∃ d, owns (c : Thread nD τ) (mw3 t) fullShare ((dat2 V c).before 3 t d))
    ∗ (∃ d, owns (c : Thread nD τ) (mw4 t) fullShare ((dat2 V c).before 4 t d)))

/-- and what it returns. -/
def bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; `t mod 4` says which case the point is in; the
    invariant hands the body the accumulator — at anything when `k = 0`, else at what the point before left — and
    takes it back at this point's contents; where `k ≠ 3` the output block's buffer is handed back as it was found,
    where `k = 3` it is left at the stored block; the other regions' buffers and the generator register pass through;
    the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (mw0 t) fullShare ((dat2 V c).after 0 t) from by
    unfold Dat.leavesExact; rw [live2_0 t], after2_0]
  rw [show (dat2 V c).leavesExact 1 t = owns (c : Thread nD τ) (mw1 t) fullShare ((dat2 V c).after 1 t) from by
    unfold Dat.leavesExact; rw [live2_1 t], after2_1]
  rw [show (dat2 V c).leavesExact 2 t = owns (c : Thread nD τ) (mw2 t) fullShare ((dat2 V c).after 2 t) from by
    unfold Dat.leavesExact; rw [live2_2 t], after2_2]
  rw [show (dat2 V c).leavesExact 3 t = owns (c : Thread nD τ) (mw3 t) fullShare ((dat2 V c).after 3 t) from by
    unfold Dat.leavesExact; rw [live2_3 t], after2_3]
  have hN : t.val < 128 := lt_of_lt_of_eq t.isLt (show cfg2.N = 128 from N_2)
  by_cases h0 : t.val % 4 = 0
  · have h1 : ¬t.val % 4 = 3 := by omega
    rw [Dat.leavesExact_idle (dat2 V c) 4 t (idle2_4 t h1) (noFlush2_4 t h1)]
    rw [accAt_first V c t h0]
    unfold accFirstAt; (try dsimp only)
    by_cases hz : t.val = 0
    · rw [PhiS_castSucc V c t, PhiS_zero V c _ _ hz, PhiA2_eq]
      iintro ⟨⟨⟨Ro, HS⟩, Hg⟩, Ho, ⟨%d0, H0⟩, ⟨%d1, H1⟩, ⟨%d2, H2⟩, ⟨%d3, H3⟩, ⟨%d4, H4⟩⟩
      iapply ((runFirstAt V c t h0).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accFirst_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Ro, HS⟩, Hg⟩, Ho, ⟨%d0, H0⟩, ⟨%d1, H1⟩, ⟨%d2, H2⟩, ⟨%d3, H3⟩, ⟨%d4, H4⟩⟩
      iapply ((runFirstAt V c t h0).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accFirst_cover c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat2 V c).leavesExact 4 t = owns (c : Thread nD τ) (mw4 t) fullShare ((dat2 V c).after 4 t) from by
        unfold Dat.leavesExact; rw [live2_4 t h1], after2_4]
      rw [accAt_last V c t h0 h1]
      unfold outLastAt accLastAt; (try dsimp only)
      rw [PhiS_castSucc V c t, PhiS_pos V c _ _ hz]
      iintro ⟨⟨⟨Ro, HS⟩, Hg⟩, Ho, ⟨%d0, H0⟩, ⟨%d1, H1⟩, ⟨%d2, H2⟩, ⟨%d3, H3⟩, ⟨%d4, H4⟩⟩
      iapply ((runLastAt V c t h0 h1 _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accLast_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast_cover c _ _ _ _ _ _ _ _ _ _ _ _ _ _ _ _ _ _ _ _)
    · rw [Dat.leavesExact_idle (dat2 V c) 4 t (idle2_4 t h1) (noFlush2_4 t h1)]
      rw [accAt_mid V c t h0 h1]
      unfold accMidAt; (try dsimp only)
      rw [PhiS_castSucc V c t, PhiS_pos V c _ _ hz]
      iintro ⟨⟨⟨Ro, HS⟩, Hg⟩, Ho, ⟨%d0, H0⟩, ⟨%d1, H1⟩, ⟨%d2, H2⟩, ⟨%d3, H3⟩, ⟨%d4, H4⟩⟩
      iapply ((runMidAt V c t h0 h1 _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Ro HS Hg]
      · isplitl [Ro HS]
        · isplitl [Ro]; · iexact Ro
          unfold owns; iexists _; isplitr
          swap; · iexact HS
          ipureintro; exact View.read_writes_of_cover _ _ _ _ _ (accMid_cover c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body V c t

/-- What the region is entered with is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the entry invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨Ro, HS⟩, Hg⟩
  isplitl [Ro HS]
  · isplitl [Ro]; · iexact Ro
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.KernelIdeal.Hand

end
-- ==== Proof.KI.Shared2.lean ====
/-
  The third stage reads one array, the scaled rows, through two windows: once by the column block's rows and once
  by the row block's own rows.  The buffer behind that array is held once, whole, when the stage is entered; the two
  windows each take half of it, and give the halves back when the stage is left.  Here: the stage's arrays as an
  explicit list, the dealing of the shared buffer at the entry, and its rejoining at the exit, where only the
  output array has changed.
-/
import proofs.«139989_j90280212562329_2_alg».proof.Proof.Gen.KernelIdeal.Launch
import proofs.«139989_j90280212562329_2_alg».proof.Proof.Gen.KernelIdeal.Skeleton
import proofs.«139989_j90280212562329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- How the third stage's windows hold their arrays: the two windows on the scaled rows half each, the others whole. -/
abbrev q2 : Fin cfg2.W → PosShare TreeShare := fun w =>
  if w = 2 then fullShare.left else if w = 3 then fullShare.right else fullShare

/-- The four distinct buffers behind the third stage's five windows, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold Pipeline.arrBufs
  exact bigSep_eq_bigSepL_of_eq [main_arg1, main_v0, main_v1, main_v2] (by decide) (by decide) _

/-- A core's unscoped buffers are the buffers behind the stage's arrays and the rest. -/
theorem unscopedBufs_split2 (c : Dev nD) (V : (b : Ref sig .tc) → Buf (Elt F) ((c : Thread nD τ).loc b)) :
    (unscopedBufs c V : sProp 𝕄)
      = iprop((Pipeline.arrBufs spec2 c V : sProp 𝕄) ∗ Pipeline.unscopedRest spec2 c V) := by
  classical
  have hA : Finset.univ.image (Pipeline.arrRef spec2) ⊆ Finset.univ.filter fun b : Ref sig .tc => ¬ b.isScoped := by decide
  unfold unscopedBufs Pipeline.unscopedRest Pipeline.arrBufs
  rw [bigSep_sdiff_split hA]
  rfl

section
variable (c : Dev nD) (dat : Dat τ (Elt F) Unit ℕ (UR sig nD τ) ℕ cfg2 c) (hq : dat.q = q2)

include hq in
/-- The proof data's arrays, window by window, at the dealt shares. -/
theorem arrays2_eq (Fw : (w : Fin cfg2.W) → Buf (Elt F) ((cfg2.win w).arr.view.loc (c : Thread nD τ))) :
    (dat.arrays Fw : sProp 𝕄)
      = iprop((((c : Thread nD τ).loc main_arg1) ↦{fullShare} Fw 0) ∗ (((c : Thread nD τ).loc main_v0) ↦{fullShare} Fw 1)
          ∗ (((c : Thread nD τ).loc main_v1) ↦{fullShare.left} Fw 2) ∗ (((c : Thread nD τ).loc main_v1) ↦{fullShare.right} Fw 3)
          ∗ (((c : Thread nD τ).loc main_v2) ↦{fullShare} Fw 4)) := by
  have e : (dat.arrays Fw : sProp 𝕄) = bigSep Finset.univ fun w : Fin cfg2.W =>
      ((((c : Thread nD τ).loc (Pipeline.arrRef spec2 w)) ↦{dat.share w} Fw w : sProp 𝕄)) := by
    unfold Dat.arrays
    exact bigSep_congr fun w _ => by rw [(arr_whole2 w).set_eq_univ]
  have h0 : dat.share 0 = fullShare := by unfold Dat.share; rw [hq]; rfl
  have h1 : dat.share 1 = fullShare := by unfold Dat.share; rw [hq]; rfl
  have h2 : dat.share 2 = fullShare.left := by unfold Dat.share; rw [hq]; rfl
  have h3 : dat.share 3 = fullShare.right := by unfold Dat.share; rw [hq]; rfl
  have h4 : dat.share 4 = fullShare := by unfold Dat.share; rfl
  rw [e, bigSep_W2, h0, h1, h2, h3, h4]

include hq in
/-- ENTRY: the buffers behind the arrays, whole at the contents `V` the stage is entered with, are the proof
    data's arrays at their entry contents, the scaled rows' buffer dealt in halves to its two windows. -/
theorem arrays2_of_arrBufs (V : (b : Ref sig .tc) → Buf (Elt F) ((c : Thread nD τ).loc b))
    (hA : ∀ w, dat.A w = V (Pipeline.arrRef spec2 w)) :
    (Pipeline.arrBufs spec2 c V : sProp 𝕄) ⊢ dat.arrays (dat.arrAt · 0) := by
  rw [arrBufs2_eq, arrays2_eq c dat hq]
  have e0 : dat.arrAt 0 0 = V main_arg1 := hA 0
  have e1 : dat.arrAt 1 0 = V main_v0 := hA 1
  have e2 : dat.arrAt 2 0 = V main_v1 := hA 2
  have e3 : dat.arrAt 3 0 = V main_v1 := hA 3
  have e4 : dat.arrAt 4 0 = V main_v2 := hA 4
  rw [e0, e1, e2, e3, e4]
  have hdeal : ((((c : Thread nD τ).loc main_v1) ↦{fullShare} V main_v1 : sProp 𝕄))
      ⊢ iprop((((c : Thread nD τ).loc main_v1) ↦{fullShare.left} V main_v1) ∗ (((c : Thread nD τ).loc main_v1) ↦{fullShare.right} V main_v1)) :=
    (pointsTo_share (PosShare.mem_left_op_right fullShare)).1
  iintro ⟨H0, H1, Hh, H4⟩
  ihave Hs := hdeal $$ Hh
  icases Hs with ⟨Hl, Hr⟩
  isplitl [H0]; · iexact H0
  isplitl [H1]; · iexact H1
  isplitl [Hl]; · iexact Hl
  isplitl [Hr]; · iexact Hr
  iexact H4

include hq in
/-- EXIT: the proof data's arrays after the last point — the four input windows' as entered, the result array
    at what the write-backs leave — and the rest as entered are the core's unscoped buffers at any contents `V'`
    that has the result array there and agrees with `V` elsewhere. -/
theorem unscopedBufs2_of_arrays (V V' : (b : Ref sig .tc) → Buf (Elt F) ((c : Thread nD τ).loc b))
    (hA : ∀ w, dat.A w = V (Pipeline.arrRef spec2 w))
    (hout : V' main_v2 = dat.arrAt 4 cfg2.N) (hrest : ∀ b, b ≠ main_v2 → V' b = V b) :
    iprop(dat.arrays (dat.arrAt · cfg2.N) ∗ Pipeline.unscopedRest spec2 c V) ⊢ (unscopedBufs c V' : sProp 𝕄) := by
  rw [unscopedBufs_split2 c V', arrBufs2_eq, arrays2_eq c dat hq]
  have e0 : dat.arrAt 0 cfg2.N = V' main_arg1 := ((dat.arrAt_in 0 rfl _).trans (hA 0)).trans (hrest main_arg1 (by decide)).symm
  have e1 : dat.arrAt 1 cfg2.N = V' main_v0 := ((dat.arrAt_in 1 rfl _).trans (hA 1)).trans (hrest main_v0 (by decide)).symm
  have e2 : dat.arrAt 2 cfg2.N = V' main_v1 := ((dat.arrAt_in 2 rfl _).trans (hA 2)).trans (hrest main_v1 (by decide)).symm
  have e3 : dat.arrAt 3 cfg2.N = V' main_v1 := ((dat.arrAt_in 3 rfl _).trans (hA 3)).trans (hrest main_v1 (by decide)).symm
  have e4 : dat.arrAt 4 cfg2.N = V' main_v2 := hout.symm
  rw [e0, e1, e2, e3, e4]
  have hR : (Pipeline.unscopedRest spec2 c V : sProp 𝕄) = Pipeline.unscopedRest spec2 c V' := by
    unfold Pipeline.unscopedRest
    exact bigSep_congr fun b hb => by
      rw [hrest b (fun h => (Finset.mem_sdiff.mp hb).2 (Finset.mem_image.mpr ⟨4, Finset.mem_univ _, h.symm⟩))]
  rw [hR]
  iintro ⟨⟨H0, H1, Hl, Hr, H4⟩, Hrest⟩
  isplitr [Hrest]
  · isplitl [H0]; · iexact H0
    isplitl [H1]; · iexact H1
    isplitr [H4]
    · iapply (pointsTo_share (PosShare.mem_left_op_right fullShare)).2
      isplitl [Hl]; · iexact Hl
      iexact Hr
    iexact H4
  iexact Hrest

end

end Cert.KernelIdeal.Hand

end
-- ==== Proof.KI.Run.lean ====
/-
  The whole program as three stages in a row.  Between stages a core's unscoped buffers are held whole at known
  contents: what the launch put there, then after each stage the same with that stage's output array at what its
  write-backs leave.  Each stage takes its arrays out of those buffers when it is entered and puts them back when it
  is left; the generator register rides along untouched and nothing is ever owed.  The run's conclusion reads every
  unscoped buffer at the last contents, from which both "the arguments end as launched" and "the result array is
  what the third stage leaves" follow.
-/
import proofs.«139989_j90280212562329_2_alg».proof.Proof.KI.Reg0
import proofs.«139989_j90280212562329_2_alg».proof.Proof.KI.Reg1
import proofs.«139989_j90280212562329_2_alg».proof.Proof.KI.Reg2
import proofs.«139989_j90280212562329_2_alg».proof.Proof.KI.Shared2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each stage boundary -/

/-- Core `c`'s buffers at launch. -/
abbrev W0 : Dev nD → Valuation τ sig (Elt F) := fun c b => (s₀ m ρ).mem ((c : Dev nD), b)
/-- The same read at the TensorCore's references: what the first stage is entered with. -/
abbrev V0 : (c : Dev nD) → (b : Ref sig .tc) → Buf (Elt F) ((c : Thread nD τ).loc b) := fun c b => W0 m ρ c b

/-- After the first stage: its arrays at what the stage leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second stage. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the third stage: only the result array has changed. -/
def W3 (c : Dev nD) : Valuation τ sig (Elt F) :=
  Function.update (W2 m ρ c) (Proc.devRef .tc main_v2) ((dat2 (V2 m ρ) c).arrAt 4 cfg2.N)
theorem W3_out (c : Dev nD) : W3 m ρ c (Proc.devRef .tc main_v2) = (dat2 (V2 m ρ) c).arrAt 4 cfg2.N := by
  unfold W3; exact Function.update_self _ _ _
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl

/-! ## The proof data family and the thread state -/

/-- No stage has a prefetched table. -/
abbrev adm : (p : Fin 3) → (pcfgs (F := F) p).Adm := fun p => (cfgs p).toPCfg_adm
/-- Every stage's proof data, each at the contents the stage is entered with. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stage: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed part. -/
abbrev Tₙ (c : Dev nD) : sProp 𝕄 := iprop(StableHlo.held (c : Thread nD τ) (Pipeline.ucRefs τ sig) (W3 m ρ c) ∗ ∃ r, prngReg c r)

/-! ## The stages as segments -/

set_option backward.isDefEq.respectTransparency.types false in
/-- Stage 0 over the thread state: entered with every unscoped buffer at the contents before it, left with them at
    the contents after it.  Its arrays are split out of the unscoped buffers and put back at the exit contents; the
    generator register passes into the stage's invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 over the thread state: entered with every unscoped buffer at the contents before it, left with them at
    the contents after it.  Its arrays are split out of the unscoped buffers and put back at the exit contents; the
    generator register passes into the stage's invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third stage over the thread state.  Two of its windows read one array, so its arrays are dealt out of the
    unscoped buffers and rejoined by hand; its invariant carries the accumulator between points. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := arrays2_of_arrBufs c (pdats m ρ 2 c) rfl (V2 m ρ c) (fun w => A_eq2 (V2 m ρ) c w)
    have hsp : (unscopedBufs c (V2 m ρ c) : sProp 𝕄)
        ⊢ iprop((Pipeline.arrBufs spec2 c (V2 m ρ c) : sProp 𝕄) ∗ Pipeline.unscopedRest spec2 c (V2 m ρ c)) :=
      Entails.of_eq (unscopedBufs_split2 c (V2 m ρ c))
    rw [Pipeline.unscopedBufs_held] at hsp
    iintro ⟨⟨Hub, Hp, HO⟩, -, -⟩
    ihave H := hsp $$ Hub
    icases H with ⟨Hab, Hrest⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V2 m ρ) c)
    unfold Pipeline.ΦA
    iintro ⟨Hp, -, Hr⟩
    isplitl [Hr]; · iexact Hr
    iexact Hp
  hout c := by
    rw [Pipeline.ownSems0_none]
    refine BIBase.Entails.trans (hout2 (V2 m ρ) c) ?_
    unfold Pipeline.ΦA
    iintro ⟨Hr, Hp⟩
    isplitl [Hp]; · iexact Hp
    isplitr; · iempintro
    iexact Hr
  hexit c := by
    have hjoin := unscopedBufs2_of_arrays c (pdats m ρ 2 c) rfl (V2 m ρ c) (V3 m ρ c) (fun w => A_eq2 (V2 m ρ) c w)
      (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three stages in order. -/
abbrev segs : List (Pipeline.Seg (pcfgs (F := F)) adm (pdats m ρ) () defs₀ 𝒱₀ L lv) :=
  [ .region (reg0 m ρ), .region (reg1 m ρ), .region (reg2 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at the contents after the third stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The result array after the run is what the third stage's write-backs leave. -/
theorem run_result : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_out m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.Spec.lean ====
/-
  The mathematics both programs compute, index by index, on the extended reals, over the literal shapes
  X : [8, 4096, 64], A : [8, 4096, 4096], W : [64, 64], bias : [64].

  For a batch b and a node i the degree is the row sum of A plus one (the self loop), kept at least ε, and
  `dinv b i` is its inverse square root.  The linear layer is `lin b n e = Σ_d X[b,n,d] · W[d,e] + bias[e]`.
  The kernel's arrangement scales the rows of the linear layer once, `hs b n e = lin b n e · dinv b n`, and then
  forms `out b i e = dinv b i · (Σ_k A[b,i,k] · hs b k e + hs b i e)`: the sum over k carries the adjacency, the
  extra term is the self loop, and the outer factor is the row normalisation.
-/
import Idealize.ShloMosaic.PureOps.Ideal
import Idealize.ShloMosaic.Lib.ValueIdx

noncomputable section

namespace Cert.NormAdj

open Idealize.ShloMosaic Idealize.ShloMosaic.ValueIdx

/-- The shapes of the four arguments and of the intermediate and final arrays. -/
abbrev SX : Shape := ⟨3, ![8, 4096, 64]⟩
abbrev SA : Shape := ⟨3, ![8, 4096, 4096]⟩
abbrev SW : Shape := ⟨2, ![64, 64]⟩
abbrev SB : Shape := ⟨1, ![64]⟩
abbrev SD : Shape := ⟨3, ![8, 4096, 1]⟩

/-- The lower bound ε kept under the square root, as the one binary word both programs spell. -/
abbrev eps : EReal := Ideal.ofBits .f32 0x322BCC77#32

/-- The self loop's contribution to a degree, as the word the kernel spells (it is the extended real one). -/
abbrev one : EReal := Ideal.ofBits .f32 0x3F800000#32

/-- The degree of node `i` of batch `b`: the row sum of the adjacency plus the self loop, kept at least ε. -/
def deg (A : FVec Ideal SA .f32) (b : Fin 8) (i : Fin 4096) : EReal :=
  max ((∑ j : Fin 4096, A (ix3 b i j)) + one) eps

/-- The inverse square root of the degree. -/
def dinv (A : FVec Ideal SA .f32) (b : Fin 8) (i : Fin 4096) : EReal :=
  Ideal.rsqrt (deg A b i)

/-- The linear layer: a row of X times W, plus the bias. -/
def lin (X : FVec Ideal SX .f32) (W : FVec Ideal SW .f32) (bias : FVec Ideal SB .f32)
    (b : Fin 8) (n : Fin 4096) (e : Fin 64) : EReal :=
  (∑ d : Fin 64, X (ix3 b n d) * W (ix2 d e)) + bias (ix1 e)

/-- The linear layer with each row scaled by that node's inverse root degree. -/
def hs (X : FVec Ideal SX .f32) (A : FVec Ideal SA .f32) (W : FVec Ideal SW .f32) (bias : FVec Ideal SB .f32)
    (b : Fin 8) (n : Fin 4096) (e : Fin 64) : EReal :=
  lin X W bias b n e * dinv A b n

/-- The aggregated output in the kernel's arrangement: adjacency times the scaled rows, plus the node's own
    scaled row (the self loop), all scaled by the node's inverse root degree. -/
def out (X : FVec Ideal SX .f32) (A : FVec Ideal SA .f32) (W : FVec Ideal SW .f32) (bias : FVec Ideal SB .f32)
    (b : Fin 8) (i : Fin 4096) (e : Fin 64) : EReal :=
  dinv A b i * ((∑ k : Fin 4096, A (ix3 b i k) * hs X A W bias b k e) + hs X A W bias b i e)

/-- The three arrays the kernel's three stages leave, as whole-array functions of the arguments. -/
def dinvArr (A : FVec Ideal SA .f32) : FVec Ideal SD .f32 := fun j => dinv A (j 0) (j 1)
def hsArr (X : FVec Ideal SX .f32) (A : FVec Ideal SA .f32) (W : FVec Ideal SW .f32) (bias : FVec Ideal SB .f32) :
    FVec Ideal SX .f32 := fun j => hs X A W bias (j 0) (j 1) (j 2)
def outArr (X : FVec Ideal SX .f32) (A : FVec Ideal SA .f32) (W : FVec Ideal SW .f32) (bias : FVec Ideal SB .f32) :
    FVec Ideal SX .f32 := fun j => out X A W bias (j 0) (j 1) (j 2)

end Cert.NormAdj

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.Val0.lean ====
/-
  The first stage's output array, as one function of the adjacency array.

  Each grid point of the stage reads a slab of 512 adjacency rows of one batch and writes the 512 inverse
  root degrees of those rows.  Row `r` of the slab at the point with block coordinates `(b, q)` is row
  `512 q + r` of batch `b`, so what the point writes back is the block of `dinvArr A` at those coordinates;
  the 64 blocks tile the [8, 4096, 1] array, and after the last point the array is `dinvArr A`.
-/
import proofs.«139989_j90280212562329_2_alg».proof.Proof.KI.Reg0
import proofs.«139989_j90280212562329_2_alg».proof.Proof.Spec
import proofs.«139989_j90280212562329_2_alg».proof.Proof.LibRowReduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The body's arithmetic at an index -/

/-- The inverse root degree the body computes for row `r` of its slab: the row's sum, plus one, kept at
    least ε, under the inverse square root. -/
theorem rowValue0 (x0 : FVec Ideal S1x512x4096 .f32) (z : Fin 1) (r : Fin 512) (u : Fin 1) :
    k0_pay1 (F := Ideal) x0 (ix3 z r u)
      = Ideal.rsqrt (max ((∑ k : Fin 4096, x0 (ix3 (0 : Fin 1) r k)) + NormAdj.one) NormAdj.eps) := by
  unfold k0_pay1
  dsimp only
  refine (shapeCast_ab_1ab_apply _ _ z r u).trans ?_
  refine congrArg Ideal.rsqrt (congrArg (fun s => max (s + NormAdj.one) NormAdj.eps) ?_)
  refine (RowReduce.shapeCast_a_a1_apply _ _ r u).trans ?_
  refine (RowReduce.multiReduction_add_row _ _ _ _ _ r).trans ?_
  exact Finset.sum_congr rfl fun k _ => shapeCast_1ab_ab_apply _ _ r k

/-- When the slab's row `r` is row `i` of batch `b` of the adjacency, that value is `dinv A b i`. -/
theorem rowValue0_eq_dinv (A : FVec Ideal NormAdj.SA .f32) (x0 : FVec Ideal S1x512x4096 .f32) (b : Fin 8) (i : Fin 4096)
    (z : Fin 1) (r : Fin 512) (u : Fin 1) (hx : ∀ k : Fin 4096, x0 (ix3 (0 : Fin 1) r k) = A (ix3 b i k)) :
    k0_pay1 (F := Ideal) x0 (ix3 z r u) = NormAdj.dinv A b i := by
  rw [rowValue0]
  unfold NormAdj.dinv NormAdj.deg
  exact congrArg Ideal.rsqrt (congrArg (fun s => max (s + NormAdj.one) NormAdj.eps) (Finset.sum_congr rfl fun k _ => hx k))

/-! ## The schedule's index maps, decided once over the grid -/

theorem zeros3 : (![0, 0, 0] : Fin 3 → Nat) = fun _ => 0 := funext fun a => by fin_cases a <;> rfl

/-- The slab moves with the output block on the batch and row-block axes and spans all columns. -/
theorem blockIdx0 : ∀ t : Fin cfg0.N, win0_0.index t (0 : Fin 3) = win0_1.index t (0 : Fin 3)
    ∧ win0_0.index t (1 : Fin 3) = win0_1.index t (1 : Fin 3)
    ∧ win0_0.index t (2 : Fin 3) = 0
    ∧ win0_1.index t (2 : Fin 3) = 0
    ∧ win0_1.index t (0 : Fin 3) ≤ 7 ∧ win0_1.index t (1 : Fin 3) ≤ 7 :=
  (by decide +kernel : ∀ t : Fin grid0.N, _)

/-- Every output block is some point's. -/
theorem blockOnto0 : ∀ (q0 : Fin 8) (q1 : Fin 8), ∃ t : Fin cfg0.N, win0_1.index t = ![q0.val, q1.val, 0] :=
  (by decide +kernel : ∀ (q0 : Fin 8) (q1 : Fin 8), ∃ t : Fin grid0.N, win0_1.index t = ![q0.val, q1.val, 0])

/-! ## What a point writes back -/

/-- What point `t` writes back is block `t` of `dinvArr` of the adjacency array as the stage finds it. -/
theorem flushed0_eq (c : Dev nD) (t : Fin cfg0.N) :
    (dat0 (F := Ideal) V c).flushed 1 t
      = ((cfg0.win 1).blk t).view.read (Elt Ideal) (NormAdj.dinvArr (V c main_arg1)) := by
  show (cfg0.win 1).cut (grid0.coords t) ((dat0 V c).after 1 t) = _
  rw [after0_1]
  unfold out0_1
  rw [View.canon_unit_zero zeros3]
  simp only [View.ld_unit_zero (S := S1x512x4096) zeros3]
  obtain ⟨e0, e1, e2, e3, e4, e5⟩ := blockIdx0 t
  refine funext fun (j : S1x512x1.Idx) => ?_
  obtain ⟨z, r, u, rfl⟩ : ∃ (z : Fin 1) (r : Fin 512) (u : Fin 1), j = ix3 z r u := ⟨j 0, j 1, j 2, eq_ix3 j⟩
  show k0_pay1 (F := Ideal) (iblk0 V c 0 t) (ix3 z r u)
    = NormAdj.dinv (V c main_arg1) ((((cfg0.win 1).blk t).view.emb (ix3 z r u)) 0) ((((cfg0.win 1).blk t).view.emb (ix3 z r u)) 1)
  refine rowValue0_eq_dinv (V c main_arg1) (iblk0 V c 0 t) _ _ z r u fun k => ?_
  show V c main_arg1 (((cfg0.win 0).blk t).view.emb (ix3 (0 : Fin 1) r k)) = _
  refine congrArg (V c main_arg1) ?_
  funext a; apply Fin.ext
  match a with
  | ⟨0, _⟩ => show win0_0.index t (0 : Fin 3) * 1 + 1 * 0 = win0_1.index t (0 : Fin 3) * 1 + 1 * z.val; have := z.isLt; omega
  | ⟨1, _⟩ => show win0_0.index t (1 : Fin 3) * 512 + 1 * r.val = win0_1.index t (1 : Fin 3) * 512 + 1 * r.val; omega
  | ⟨2, _⟩ => show win0_0.index t (2 : Fin 3) * 4096 + 1 * k.val = k.val; omega

/-! ## The blocks tile the array -/

/-- An index of the array is in point `t`'s block iff each coordinate is in the block's range on its axis. -/
theorem mem_blk0 (t : Fin cfg0.N) (i : S8x4096x1.Idx) :
    i ∈ ((cfg0.win 1).blk t).view.set ↔ ∀ a : Fin 3, win0_1.index t a * S1x512x1.size a ≤ (i a).val ∧ (i a).val < win0_1.index t a * S1x512x1.size a + S1x512x1.size a := by
  show i ∈ ((View.whole main_v0).slice (win0_1.rect t)).set ↔ _
  rw [View.set_slice_whole, Rect.mem_set_unit]
  exact Iff.rfl

/-- Every index of the array is in some point's block: batch `b`, row `n` is in the block `(b, n / 512)`. -/
theorem cover0 (i : S8x4096x1.Idx) : ∃ t : Fin cfg0.N, (cfg0.win 1).flush t = true ∧ i ∈ ((cfg0.win 1).blk t).view.set := by
  have hi0 : (i 0).val < 8 := (i 0).isLt
  have hi1 : (i 1).val < 4096 := (i 1).isLt
  have hi2 : (i 2).val < 1 := (i 2).isLt
  obtain ⟨t, ht⟩ := blockOnto0 ⟨(i 0).val, by omega⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 1 ≤ (i 2).val ∧ (i 2).val < win0_1.index t (2 : Fin 3) * 1 + 1; omega

/-! ## The array after the stage -/

/-- After the last point the stage's output array is `dinvArr` of the adjacency array the stage was entered with. -/
theorem final0 (c : Dev nD) :
    ((dat0 (F := Ideal) V c).arrAt 1 cfg0.N : NormAdj.SD.Idx → EReal) = NormAdj.dinvArr (V c main_arg1) :=
  (dat0 (F := Ideal) V c).arrAt_eq_of_cover 1 (NormAdj.dinvArr (V c main_arg1)) (fun t _ => flushed0_eq V c t) cover0

end Cert.KernelIdeal.HandVal

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Val1.lean ====
/-
  The second stage's output array, as one function of the arrays the stage is entered with.

  Each of the 8 grid points handles one batch: it reads the batch's 4096 feature rows, the weights, the bias
  and the batch's 4096 inverse root degrees, and writes the batch's scaled rows
  `(X·W + bias) · dinv`.  Row `n` of the block at the point of batch `b` is row `n` of batch `b`, so what the
  point writes back is batch `b`'s block of `hsArr X A W bias` once the degrees' array is known to be
  `dinvArr A`; the 8 blocks tile the [8, 4096, 64] array.
-/
import proofs.«139989_j90280212562329_2_alg».proof.Proof.KI.Reg1
import proofs.«139989_j90280212562329_2_alg».proof.Proof.Spec
import proofs.«139989_j90280212562329_2_alg».proof.Proof.LibPlainDot
import proofs.«139989_j90280212562329_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The body's arithmetic at an index -/

/-- The body's product is a plain `4096×64` by `64×64` one. -/
theorem plainDims1 : dot_S4096x64_S64x64_S4096x64_1_0_0_1_n_n = DotDims.plain 4096 64 64 := rfl

/-- The scaled row entry the body computes at row `n`, column `e` of its block: the row of features times the
    column of weights, plus the bias entry, times the row's inverse root degree. -/
theorem rowValue1 (x0 : FVec Ideal S1x4096x64 .f32) (x1 : FVec Ideal S64x64 .f32) (x2 : FVec Ideal S64 .f32)
    (x3 : FVec Ideal S1x4096x1 .f32) (z : Fin 1) (n : Fin 4096) (e : Fin 64) :
    k1_pay1 (F := Ideal) x0 x1 x2 x3 (ix3 z n e)
      = ((∑ d : Fin 64, x0 (ix3 (0 : Fin 1) n d) * x1 (ix2 d e)) + x2 (ix1 e)) * x3 (ix3 (0 : Fin 1) n (0 : Fin 1)) := by
  unfold k1_pay1
  refine (shapeCast_ab_1ab_apply _ _ z n e).trans ?_
  refine congrArg₂ (fun s d : EReal => s * d) (congrArg₂ (fun s b : EReal => s + b) ?_ ?_) ?_
  · refine (PlainDot.matmul_zero_apply _ plainDims1 none _ _ n e).trans ?_
    exact Finset.sum_congr rfl fun d _ => congrArg (fun s : EReal => s * x1 (ix2 d e)) (shapeCast_1ab_ab_apply _ _ n d)
  · exact (broadcastTo_1b_ab_apply _ _ n e).trans (shapeCast_a_1a_apply _ _ (0 : Fin 1) e)
  · exact (broadcastTo_a1_ab_apply _ _ n e).trans (shapeCast_1ab_ab_apply _ _ n (0 : Fin 1))

/-- When the block's row `n` is row `i` of batch `b` of the features and of the degrees' array, and its column `e`
    is column `q` of the weights and of the bias, that value is `hs X A W bias b i q`. -/
theorem rowValue1_eq_hs (X : FVec Ideal NormAdj.SX .f32) (A : FVec Ideal NormAdj.SA .f32) (W : FVec Ideal NormAdj.SW .f32)
    (bias : FVec Ideal NormAdj.SB .f32) (x0 : FVec Ideal S1x4096x64 .f32) (x1 : FVec Ideal S64x64 .f32) (x2 : FVec Ideal S64 .f32)
    (x3 : FVec Ideal S1x4096x1 .f32) (b : Fin 8) (i : Fin 4096) (q : Fin 64) (z : Fin 1) (n : Fin 4096) (e : Fin 64)
    (h0 : ∀ d : Fin 64, x0 (ix3 (0 : Fin 1) n d) = X (ix3 b i d))
    (h1 : ∀ d : Fin 64, x1 (ix2 d e) = W (ix2 d q))
    (h2 : x2 (ix1 e) = bias (ix1 q))
    (h3 : x3 (ix3 (0 : Fin 1) n (0 : Fin 1)) = NormAdj.dinv A b i) :
    k1_pay1 (F := Ideal) x0 x1 x2 x3 (ix3 z n e) = NormAdj.hs X A W bias b i q := by
  rw [rowValue1, h2, h3]
  unfold NormAdj.hs NormAdj.lin
  exact congrArg (fun s : EReal => (s + bias (ix1 q)) * NormAdj.dinv A b i)
    (Finset.sum_congr rfl fun d _ => by rw [h0 d, h1 d])

/-! ## The schedule's index maps, decided once over the grid -/

theorem offs3 : (![0, 0, 0] : Fin 3 → Nat) = fun _ => 0 := funext fun a => by fin_cases a <;> rfl
theorem offs2 : (![0, 0] : Fin 2 → Nat) = fun _ => 0 := funext fun a => by fin_cases a <;> rfl
theorem offs1 : (![0] : Fin 1 → Nat) = fun _ => 0 := funext fun a => by fin_cases a <;> rfl

/-- The features' and the degrees' blocks move with the output block along the batch axis; the weights and
    the bias stay put; every block spans its other axes whole. -/
theorem blockIdx1 : ∀ t : Fin cfg1.N, win1_0.index t (0 : Fin 3) = win1_4.index t (0 : Fin 3)
    ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = win1_4.index t (0 : Fin 3)
    ∧ win1_3.index t (1 : Fin 3) = 0 ∧ win1_3.index t (2 : Fin 3) = 0
    ∧ win1_4.index t (1 : Fin 3) = 0 ∧ win1_4.index t (2 : Fin 3) = 0
    ∧ win1_4.index t (0 : Fin 3) ≤ 7 :=
  (by decide +kernel : ∀ t : Fin grid1.N, _)

/-- Every output block is some point's. -/
theorem blockOnto1 : ∀ q0 : Fin 8, ∃ t : Fin cfg1.N, win1_4.index t = ![q0.val, 0, 0] :=
  (by decide +kernel : ∀ q0 : Fin 8, ∃ t : Fin grid1.N, win1_4.index t = ![q0.val, 0, 0])

/-! ## What a point writes back -/

/-- What point `t` writes back is block `t` of `hsArr` of the arrays as the stage finds them, the degrees'
    array being `dinvArr A`. -/
theorem flushed1_eq (c : Dev nD) (A : FVec Ideal NormAdj.SA .f32)
    (hD : (V c main_v0 : NormAdj.SD.Idx → EReal) = NormAdj.dinvArr A) (t : Fin cfg1.N) :
    (dat1 (F := Ideal) V c).flushed 4 t
      = ((cfg1.win 4).blk t).view.read (Elt Ideal) (NormAdj.hsArr (V c main_arg0) A (V c main_arg2) (V c main_arg3)) := by
  show (cfg1.win 4).cut (grid1.coords t) ((dat1 V c).after 4 t) = _
  rw [after1_4]
  unfold out1_4
  rw [View.canon_unit_zero offs3]
  simp only [View.ld_unit_zero (S := S1x4096x64) offs3, View.ld_unit_zero (S := S64x64) offs2,
    View.ld_unit_zero (S := S64) offs1, View.ld_unit_zero (S := S1x4096x1) offs3]
  obtain ⟨e00, e01, e02, e10, e11, e20, e30, e31, e32, e41, e42, e40⟩ := blockIdx1 t
  refine funext fun (j : S1x4096x64.Idx) => ?_
  obtain ⟨z, n, e, rfl⟩ : ∃ (z : Fin 1) (n : Fin 4096) (e : Fin 64), j = ix3 z n e := ⟨j 0, j 1, j 2, eq_ix3 j⟩
  show k1_pay1 (F := Ideal) (iblk1 V c 0 t) (iblk1 V c 1 t) (iblk1 V c 2 t) (iblk1 V c 3 t) (ix3 z n e)
    = NormAdj.hs (V c main_arg0) A (V c main_arg2) (V c main_arg3)
        ((((cfg1.win 4).blk t).view.emb (ix3 z n e)) 0) ((((cfg1.win 4).blk t).view.emb (ix3 z n e)) 1)
        ((((cfg1.win 4).blk t).view.emb (ix3 z n e)) 2)
  refine rowValue1_eq_hs (V c main_arg0) A (V c main_arg2) (V c main_arg3) (iblk1 V c 0 t) (iblk1 V c 1 t) (iblk1 V c 2 t)
    (iblk1 V c 3 t) _ _ _ z n e (fun d => ?_) (fun d => ?_) ?_ ?_
  · show V c main_arg0 (((cfg1.win 0).blk t).view.emb (ix3 (0 : Fin 1) n d)) = _
    refine congrArg (V c main_arg0) ?_
    funext a; apply Fin.ext
    match a with
    | ⟨0, _⟩ => show win1_0.index t (0 : Fin 3) * 1 + 1 * 0 = win1_4.index t (0 : Fin 3) * 1 + 1 * z.val; have := z.isLt; omega
    | ⟨1, _⟩ => show win1_0.index t (1 : Fin 3) * 4096 + 1 * n.val = win1_4.index t (1 : Fin 3) * 4096 + 1 * n.val; omega
    | ⟨2, _⟩ => show win1_0.index t (2 : Fin 3) * 64 + 1 * d.val = d.val; omega
  · show V c main_arg2 (((cfg1.win 1).blk t).view.emb (ix2 d e)) = _
    refine congrArg (V c main_arg2) ?_
    funext a; apply Fin.ext
    match a with
    | ⟨0, _⟩ => show win1_1.index t (0 : Fin 2) * 64 + 1 * d.val = d.val; omega
    | ⟨1, _⟩ => show win1_1.index t (1 : Fin 2) * 64 + 1 * e.val = win1_4.index t (2 : Fin 3) * 64 + 1 * e.val; omega
  · show V c main_arg3 (((cfg1.win 2).blk t).view.emb (ix1 e)) = _
    refine congrArg (V c main_arg3) ?_
    funext a; apply Fin.ext
    match a with
    | ⟨0, _⟩ => show win1_2.index t (0 : Fin 1) * 64 + 1 * e.val = win1_4.index t (2 : Fin 3) * 64 + 1 * e.val; omega
  · show V c main_v0 (((cfg1.win 3).blk t).view.emb (ix3 (0 : Fin 1) n (0 : Fin 1))) = _
    refine (congrFun hD _).trans ?_
    show NormAdj.dinv A ((((cfg1.win 3).blk t).view.emb (ix3 (0 : Fin 1) n (0 : Fin 1))) 0)
        ((((cfg1.win 3).blk t).view.emb (ix3 (0 : Fin 1) n (0 : Fin 1))) 1) = _
    refine congrArg₂ (NormAdj.dinv A) (Fin.ext ?_) (Fin.ext ?_)
    · show win1_3.index t (0 : Fin 3) * 1 + 1 * 0 = win1_4.index t (0 : Fin 3) * 1 + 1 * z.val; have := z.isLt; omega
    · show win1_3.index t (1 : Fin 3) * 4096 + 1 * n.val = win1_4.index t (1 : Fin 3) * 4096 + 1 * n.val; omega

/-! ## The blocks tile the array -/

/-- An index of the array is in point `t`'s block iff each coordinate is in the block's range on its axis. -/
theorem mem_blk1 (t : Fin cfg1.N) (i : S8x4096x64.Idx) :
    i ∈ ((cfg1.win 4).blk t).view.set ↔ ∀ a : Fin 3, win1_4.index t a * S1x4096x64.size a ≤ (i a).val ∧ (i a).val < win1_4.index t a * S1x4096x64.size a + S1x4096x64.size a := by
  show i ∈ ((View.whole main_v1).slice (win1_4.rect t)).set ↔ _
  rw [View.set_slice_whole, Rect.mem_set_unit]
  exact Iff.rfl

/-- Every index of the array is in some point's block: batch `b`'s entries are in the block of batch `b`. -/
theorem cover1 (i : S8x4096x64.Idx) : ∃ t : Fin cfg1.N, (cfg1.win 4).flush t = true ∧ i ∈ ((cfg1.win 4).blk t).view.set := by
  have hi0 : (i 0).val < 8 := (i 0).isLt
  have hi1 : (i 1).val < 4096 := (i 1).isLt
  have hi2 : (i 2).val < 64 := (i 2).isLt
  obtain ⟨t, ht⟩ := blockOnto1 ⟨(i 0).val, by omega⟩
  have q0 : win1_4.index t (0 : Fin 3) = (i 0).val := congrFun ht 0
  have q1 : win1_4.index t (1 : Fin 3) = 0 := congrFun ht 1
  have q2 : win1_4.index t (2 : Fin 3) = 0 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 4096 ≤ (i 1).val ∧ (i 1).val < win1_4.index t (1 : Fin 3) * 4096 + 4096; omega
  | ⟨2, _⟩ => show win1_4.index t (2 : Fin 3) * 64 ≤ (i 2).val ∧ (i 2).val < win1_4.index t (2 : Fin 3) * 64 + 64; omega

/-! ## The array after the stage -/

/-- After the last point the stage's output array is `hsArr` of the features, the adjacency, the weights and the
    bias, when the degrees' array the stage was entered with is `dinvArr A`. -/
theorem final1 (c : Dev nD) (A : FVec Ideal NormAdj.SA .f32)
    (hD : (V c main_v0 : NormAdj.SD.Idx → EReal) = NormAdj.dinvArr A) :
    ((dat1 (F := Ideal) V c).arrAt 4 cfg1.N : NormAdj.SX.Idx → EReal)
      = NormAdj.hsArr (V c main_arg0) A (V c main_arg2) (V c main_arg3) :=
  (dat1 (F := Ideal) V c).arrAt_eq_of_cover 4 (NormAdj.hsArr (V c main_arg0) A (V c main_arg2) (V c main_arg3))
    (fun t _ => flushed1_eq V c A hD t) cover1

end Cert.KernelIdeal.HandVal

end
-- ==== Proof.Val2Pay.lean ====
import proofs.«139989_j90280212562329_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-! ## The body's arithmetic read at an index, at the ideal values -/

/-- The reset block is zero everywhere. -/
theorem pay1_apply (r : Fin 1024) (e : Fin 64) : k2_pay1 (F := Ideal) (ix2 r e) = 0 := by
  unfold k2_pay1
  rw [shapeCast_self]
  exact Ideal.ofBits_zero_f32

/-- The product of a 1024 × 1024 tile by a 1024 × 64 tile is plain: left axis 1 against right axis 0. -/
theorem dot_plain : dot_S1024x1024_S1024x64_S1024x64_1_0_0_1_n_n = DotDims.plain 1024 1024 64 := rfl

theorem lhsIdx_plain' (p : Fin 1024) (q : Fin 64) (k : Fin 1024) :
    (DotDims.plain 1024 1024 64).lhsIdx (ix2 p q) ((contrEquiv1 (DotDims.plain 1024 1024 64) 1024 rfl rfl).symm k) = ix2 p k := by
  funext a
  apply Fin.ext
  match a with
  | ⟨0, _⟩ => rfl
  | ⟨1, _⟩ => rfl

theorem rhsIdx_plain' (p : Fin 1024) (q : Fin 64) (k : Fin 1024) :
    (DotDims.plain 1024 1024 64).rhsIdx (ix2 p q) ((contrEquiv1 (DotDims.plain 1024 1024 64) 1024 rfl rfl).symm k) = ix2 k q := by
  funext a
  apply Fin.ext
  match a with
  | ⟨0, _⟩ => rfl
  | ⟨1, _⟩ => rfl

/-- The accumulate step at row `r` and feature `e`: the accumulator there plus the tile product's entry, a sum over
    the tile's 1024 columns. (Rounding the operands to bf16 is the identity at the ideal values.) -/
theorem pay2_apply (v3 : Vec Ideal S1x1024x1024 .f32) (v6 : Vec Ideal S1x1024x64 .f32) (v9 : Vec Ideal S1024x64 .f32)
    (r : Fin 1024) (e : Fin 64) :
    k2_pay2 v3 v6 v9 (ix2 r e) = v9 (ix2 r e) + ∑ j : Fin 1024, v3 (ix3 (0 : Fin 1) r j) * v6 (ix3 (0 : Fin 1) j e) := by
  unfold k2_pay2
  rw [shapeCast_self]
  refine (addf_apply _ _ _).trans (congrArg (v9 (ix2 r e) + ·) ?_)
  refine (Ideal.matmul_constant_zero_apply dot_S1024x1024_S1024x64_S1024x64_1_0_0_1_n_n none _ _ (ix2 r e)).trans ?_
  rw [dot_plain, ← Equiv.sum_comp (contrEquiv1 (DotDims.plain 1024 1024 64) 1024 rfl rfl).symm]
  refine Finset.sum_congr rfl fun k _ => ?_
  rw [lhsIdx_plain', rhsIdx_plain']
  rw [truncf_apply, truncf_apply, shapeCast_1ab_ab_apply, shapeCast_1ab_ab_apply]

/-- A column `[1024, 1]` broadcast to `[1024, 64]` reads, at `(r, e)`, the column at `r`. -/
theorem bcast_col_apply (v : (⟨2, ![1024, 1]⟩ : Shape).Idx → EReal) (h : (⟨2, ![1024, 1]⟩ : Shape).Broadcasts ⟨2, ![1024, 64]⟩)
    (r : Fin 1024) (e : Fin 64) : broadcastTo ⟨2, ![1024, 64]⟩ v h (ix2 r e) = v (ix2 r (0 : Fin 1)) := by
  refine broadcastTo_apply v h (ix2 r e) (ix2 r (0 : Fin 1)) fun ax => ?_
  match ax with
  | ⟨0, _⟩ => rfl
  | ⟨1, _⟩ => rfl

/-- The epilogue at row `r` and feature `e`: the row's factor times the accumulator plus the node's own scaled row. -/
theorem pay3_apply (v18 : Vec Ideal S1x1024x1 .f32) (v20 : Vec Ideal S1024x64 .f32) (v21 : Vec Ideal S1x1024x64 .f32)
    (r : Fin 1024) (e : Fin 64) :
    k2_pay3 v18 v20 v21 (ix3 (0 : Fin 1) r e) = v18 (ix3 (0 : Fin 1) r (0 : Fin 1)) * (v20 (ix2 r e) + v21 (ix3 (0 : Fin 1) r e)) := by
  unfold k2_pay3
  rw [shapeCast_ab_1ab_apply]
  refine (mulf_apply _ _ _).trans ?_
  rw [bcast_col_apply, shapeCast_1ab_ab_apply]
  refine congrArg (v18 (ix3 (0 : Fin 1) r (0 : Fin 1)) * ·) ?_
  refine (addf_apply _ _ _).trans ?_
  rw [shapeCast_1ab_ab_apply]

end Cert.KernelIdeal.HandVal
end
-- ==== Proof.Val2Pieces.lean ====
import proofs.«139989_j90280212562329_2_alg».proof.Proof.KI.Reg2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Hand

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as the body's arithmetic of the blocks

Every store of the body is one store of a whole buffer, and every load reads a whole buffer: so the accumulator after
a point is the accumulate step `k2_pay2` of the adjacency tile, the scaled rows' tile and the accumulator before —
the zero block `k2_pay1` when `k = 0` —, and the output block stored when `k = 3` is the epilogue `k2_pay3` of the
row factors, that accumulator and the node's own scaled rows. -/

theorem first_acc (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : isFirst i) (hc1 : ¬isLast i)
    (x0 : Vec F S1x1024x1024 .f32) (x1 : Vec F S1x1024x1 .f32) (x2 : Vec F S1x1024x64 .f32) (x3 : Vec F S1x1024x64 .f32) :
    accV.read (Elt F) (accV.writes (Elt F) accV.junk (runFirst c i a0 ha0 a1 ha1 a2 ha2 a3 ha3 a4 ha4 sc hsc hc0 hc1 x0 x1 x2 x3).1) = k2_pay2 x0 x2 (k2_pay1 (F := F)) := by
  rw [View.read_writes_eq_canon _ _ _ (accFirst_cover c i a0 ha0 a1 ha1 a2 ha2 a3 ha3 a4 ha4 sc hsc hc0 hc1 x0 x1 x2 x3)]
  unfold runFirst
  dsimp only
  sl_unfold_words
  rw [View.canon_cons_unit_zero (S := S1024x64) hz2, View.readCov_unit_zero (S := S1024x64) _ hz2]
  simp only [View.readAt_eq_ld, ha0.read_unread, ha2.read_unread, View.ld_unit_zero (S := S1x1024x1024) hz3, View.ld_unit_zero (S := S1x1024x64) hz3]

theorem mid_acc (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : ¬isLast i)
    (x0 : Vec F S1x1024x1024 .f32) (x1 : Vec F S1x1024x1 .f32) (x2 : Vec F S1x1024x64 .f32) (x3 : Vec F S1x1024x64 .f32) (xs : Vec F S1024x64 .f32) :
    accV.read (Elt F) (accV.writes (Elt F) accV.junk (runMid c i a0 ha0 a1 ha1 a2 ha2 a3 ha3 a4 ha4 sc hsc hc0 hc1 x0 x1 x2 x3 xs).1) = k2_pay2 x0 x2 xs := by
  rw [View.read_writes_eq_canon _ _ _ (accMid_cover c i a0 ha0 a1 ha1 a2 ha2 a3 ha3 a4 ha4 sc hsc hc0 hc1 x0 x1 x2 x3 xs)]
  unfold runMid
  dsimp only
  sl_unfold_words
  rw [View.canon_unit_zero hz2]
  simp only [View.readAt_eq_ld, ha0.read_unread, ha2.read_unread, hsc.read_unread, View.ld_unit_zero (S := S1x1024x1024) hz3, View.ld_unit_zero (S := S1x1024x64) hz3, View.ld_unit_zero (S := S1024x64) hz2]

theorem last_acc (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) :
    accV.read (Elt F) (accV.writes (Elt F) accV.junk (runLast c i a0 ha0 a1 ha1 a2 ha2 a3 ha3 a4 ha4 sc hsc hc0 hc1 x0 x1 x2 x3 xs).2.1) = k2_pay2 x0 x2 xs := by
  rw [View.read_writes_eq_canon _ _ _ (accLast_cover c i a0 ha0 a1 ha1 a2 ha2 a3 ha3 a4 ha4 sc hsc hc0 hc1 x0 x1 x2 x3 xs)]
  unfold runLast
  dsimp only
  sl_unfold_words
  rw [View.canon_unit_zero hz2]
  simp only [View.readAt_eq_ld, ha0.read_unread, ha2.read_unread, hsc.read_unread, View.ld_unit_zero (S := S1x1024x1024) hz3, View.ld_unit_zero (S := S1x1024x64) hz3, View.ld_unit_zero (S := S1024x64) hz2]

theorem last_out (c : Dev nD) (i : grid2.Coords) (a0 : Memref sig .tc .vmem S1x1024x1024 .f32) (ha0 : a0.IsWhole) (a1 : Memref sig .tc .vmem S1x1024x1 .f32) (ha1 : a1.IsWhole) (a2 : Memref sig .tc .vmem S1x1024x64 .f32) (ha2 : a2.IsWhole) (a3 : Memref sig .tc .vmem S1x1024x64 .f32) (ha3 : a3.IsWhole) (a4 : Memref sig .tc .vmem S1x1024x64 .f32) (ha4 : a4.IsWhole) (sc : Memref sig .tc .vmem S1024x64 .f32) (hsc : sc.IsWhole) (hc0 : ¬isFirst i) (hc1 : isLast i)
    (x0 : Vec F S1x1024x1024 .f32) (x1 : Vec F S1x1024x1 .f32) (x2 : Vec F S1x1024x64 .f32) (x3 : Vec F S1x1024x64 .f32) (xs : Vec F S1024x64 .f32) :
    outV.read (Elt F) (outV.writes (Elt F) outV.junk (runLast c i a0 ha0 a1 ha1 a2 ha2 a3 ha3 a4 ha4 sc hsc hc0 hc1 x0 x1 x2 x3 xs).1) = k2_pay3 x1 (k2_pay2 x0 x2 xs) x3 := by
  rw [View.read_writes_eq_canon _ _ _ (outLast_cover c i a0 ha0 a1 ha1 a2 ha2 a3 ha3 a4 ha4 sc hsc hc0 hc1 x0 x1 x2 x3 xs)]
  unfold runLast
  dsimp only
  sl_unfold_words
  rw [View.canon_unit_zero hz3]
  simp only [View.readAt_eq_ld, ha0.read_unread, ha1.read_unread, ha2.read_unread, ha3.read_unread, hsc.read_unread, View.ld_unit_zero (S := S1x1024x1024) hz3, View.ld_unit_zero (S := S1x1024x64) hz3, View.ld_unit_zero (S := S1x1024x1) hz3, View.ld_unit_zero (S := S1024x64) hz2]
  rw [View.readCov_unit_zero (S := S1024x64) _ hz2]

/-! ## The accumulation, step by step

At the points of a run of four (`k = 0, 1, 2, 3`) the accumulator is: the accumulate step over the zero block, then
three times the accumulate step over what the point before left; and the output block's buffer after the run's last
point is the epilogue of that point's accumulator. -/

variable (V : (c : Dev nD) → (b : Ref sig .tc) → Buf (Elt F) ((c : Thread nD τ).loc b))

theorem acc_first (c : Dev nD) (t : Fin cfg2.N) (h0 : t.val % 4 = 0) :
    (accAt V c t.val t.isLt).2 = k2_pay2 (iblk2 V c 0 t) (iblk2 V c 2 t) (k2_pay1 (F := F)) := by
  rw [accAt_first V c t h0]
  dsimp only
  unfold accFirstAt
  exact first_acc c (grid2.coords t) (mw0 t) (hw0 t) (mw1 t) (hw1 t) (mw2 t) (hw2 t) (mw3 t) (hw3 t) (mw4 t) (hw4 t) accM (Memref.isWhole_whole _) ((isFirst_iff t).mpr h0) (notLast_of_first t h0) (iblk2 V c 0 t) (iblk2 V c 1 t) (iblk2 V c 2 t) (iblk2 V c 3 t)

theorem acc_next (c : Dev nD) (t : Fin cfg2.N) (h0 : ¬t.val % 4 = 0) :
    (accAt V c t.val t.isLt).2
      = k2_pay2 (iblk2 V c 0 t) (iblk2 V c 2 t) (accAt V c (t.val - 1) (Nat.lt_of_le_of_lt (Nat.sub_le _ _) t.isLt)).2 := by
  by_cases h1 : t.val % 4 = 3
  · rw [accAt_last V c t h0 h1]
    dsimp only
    unfold accLastAt
    exact last_acc c (grid2.coords t) (mw0 t) (hw0 t) (mw1 t) (hw1 t) (mw2 t) (hw2 t) (mw3 t) (hw3 t) (mw4 t) (hw4 t) accM (Memref.isWhole_whole _) (notFirst_of t h0) ((isLast_iff t).mpr h1) (iblk2 V c 0 t) (iblk2 V c 1 t) (iblk2 V c 2 t) (iblk2 V c 3 t) _
  · rw [accAt_mid V c t h0 h1]
    dsimp only
    unfold accMidAt
    exact mid_acc c (grid2.coords t) (mw0 t) (hw0 t) (mw1 t) (hw1 t) (mw2 t) (hw2 t) (mw3 t) (hw3 t) (mw4 t) (hw4 t) accM (Memref.isWhole_whole _) (notFirst_of t h0) (notLast_of t h1) (iblk2 V c 0 t) (iblk2 V c 1 t) (iblk2 V c 2 t) (iblk2 V c 3 t) _

theorem out_last (c : Dev nD) (t : Fin cfg2.N) (h0 : ¬t.val % 4 = 0) (h1 : t.val % 4 = 3) :
    (accAt V c t.val t.isLt).1
      = k2_pay3 (iblk2 V c 1 t)
          (k2_pay2 (iblk2 V c 0 t) (iblk2 V c 2 t) (accAt V c (t.val - 1) (Nat.lt_of_le_of_lt (Nat.sub_le _ _) t.isLt)).2)
          (iblk2 V c 3 t) := by
  rw [accAt_last V c t h0 h1]
  dsimp only
  unfold outLastAt
  exact last_out c (grid2.coords t) (mw0 t) (hw0 t) (mw1 t) (hw1 t) (mw2 t) (hw2 t) (mw3 t) (hw3 t) (mw4 t) (hw4 t) accM (Memref.isWhole_whole _) (notFirst_of t h0) ((isLast_iff t).mpr h1) (iblk2 V c 0 t) (iblk2 V c 1 t) (iblk2 V c 2 t) (iblk2 V c 3 t) _

end Cert.KernelIdeal.HandVal
end
-- ==== Proof.LibLoraFold.lean ====
/-
  The algebra that joins the two programs, over the real numbers and abstract finite index types.

  A dense layer with two low-rank corrections can be evaluated in two ways.  Folding first: build the
  effective weight  Wᵀ + c₁ · (Aᵀ Bᵀ) + c₂ · (A1ᵀ A2ᵀ B1ᵀ B2ᵀ)  once and multiply the input row by it.
  Chaining: send the input row through each thin factor in turn and add the three results.  Both are the
  same number because matrix multiplication is associative and distributes over sums and scalar
  multiples; entry by entry this is the statement below.
-/
import Mathlib.Data.Matrix.Basic
import Mathlib.Data.Real.Basic
import Mathlib.Algebra.BigOperators.Group.Finset.Basic
import Mathlib.Tactic.Ring
import Mathlib.Tactic.Linarith

open scoped BigOperators

namespace LoraFold

variable {M I O P Q : Type*} [Fintype I] [Fintype O] [Fintype P] [Fintype Q]

/-- The folded effective weight at row `i` (an input feature) and column `o` (an output feature). -/
def weight (c₁ c₂ : ℝ) (W : O → I → ℝ) (A : P → I → ℝ) (B : O → P → ℝ) (A1 : Q → I → ℝ) (A2 : P → Q → ℝ)
    (B1 : Q → P → ℝ) (B2 : O → Q → ℝ) (i : I) (o : O) : ℝ :=
  (W o i + c₁ * ∑ r, A r i * B o r) + c₂ * ∑ r', (∑ q, (∑ r, A1 r i * A2 q r) * B1 r' q) * B2 o r'

/-- Folding the thin factors into one weight and multiplying once is the same as chaining the input row
    through the factors: associativity and distributivity of the matrix product, read at one entry. -/
theorem fold_eq_chain (c₁ c₂ : ℝ) (X : M → I → ℝ) (W : O → I → ℝ) (bias : O → ℝ) (A : P → I → ℝ) (B : O → P → ℝ)
    (A1 : Q → I → ℝ) (A2 : P → Q → ℝ) (B1 : Q → P → ℝ) (B2 : O → Q → ℝ) (p : M) (o : O) :
    (∑ i, X p i * weight c₁ c₂ W A B A1 A2 B1 B2 i o) + bias o
      = ((∑ i, X p i * W o i + bias o) + c₁ * ∑ r, (∑ i, X p i * A r i) * B o r)
        + c₂ * ∑ r', (∑ q, (∑ r, (∑ i, X p i * A1 r i) * A2 q r) * B1 r' q) * B2 o r' := by
  classical
  let Xm : Matrix M I ℝ := Matrix.of X
  let Wm : Matrix O I ℝ := Matrix.of W
  let Am : Matrix P I ℝ := Matrix.of A
  let Bm : Matrix O P ℝ := Matrix.of B
  let A1m : Matrix Q I ℝ := Matrix.of A1
  let A2m : Matrix P Q ℝ := Matrix.of A2
  let B1m : Matrix Q P ℝ := Matrix.of B1
  let B2m : Matrix O Q ℝ := Matrix.of B2
  have key : Xm * (Wm.transpose + c₁ • (Am.transpose * Bm.transpose)
        + c₂ • (A1m.transpose * A2m.transpose * B1m.transpose * B2m.transpose))
      = Xm * Wm.transpose + c₁ • (Xm * Am.transpose * Bm.transpose)
        + c₂ • (Xm * A1m.transpose * A2m.transpose * B1m.transpose * B2m.transpose) := by
    simp only [Matrix.mul_add, Matrix.mul_smul, Matrix.mul_assoc]
  have h := congrFun (congrFun key p) o
  simp only [Matrix.mul_apply, Matrix.add_apply, Matrix.smul_apply, Matrix.transpose_apply, Matrix.of_apply,
    smul_eq_mul, Xm, Wm, Am, Bm, A1m, A2m, B1m, B2m] at h
  unfold weight
  rw [h]
  ring

end LoraFold
-- ==== Proof.LibLoraFoldEReal.lean ====
/-
  The fold/chain identity of `LibLoraFold` for arrays whose entries are real numbers read as extended reals.

  On the extended reals distributivity fails at the infinities, so the identity is only claimed where every entry is
  (the image of) a real number: there sums and products of entries are again images of real numbers
  (`coe_sum`), both sides are the image of the corresponding real expressions, and those agree by
  `LoraFold.fold_eq_chain`.

  Independently of finiteness, a sum over `4096` positions accumulated in four consecutive blocks of `1024`,
  starting from zero, is the whole sum: addition of extended reals is associative and commutative (`sum_four_blocks`).
-/
import Mathlib.Data.EReal.Operations
import Mathlib.Algebra.BigOperators.Fin
import Mathlib.Algebra.BigOperators.Group.Finset.Sigma
import proofs.«139989_j90280212562329_2_alg».proof.Proof.LibLoraFold

open scoped BigOperators

namespace LoraFold

/-- A finite sum of real numbers, read in the extended reals term by term, is the real sum read there. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Accumulating a sum over `4096` positions block by block (four blocks of `1024`, first to last, from zero)
    gives the whole sum. -/
theorem sum_four_blocks (f : Fin 4096 → EReal) :
    ((((0 + ∑ b : Fin 1024, f ⟨1024 * 0 + b.val, by omega⟩) + ∑ b : Fin 1024, f ⟨1024 * 1 + b.val, by omega⟩)
        + ∑ b : Fin 1024, f ⟨1024 * 2 + b.val, by omega⟩) + ∑ b : Fin 1024, f ⟨1024 * 3 + b.val, by omega⟩)
      = ∑ i : Fin 4096, f i := by
  have e : ∑ i : Fin 4096, f i = ∑ a : Fin 4, ∑ b : Fin 1024, f ⟨1024 * a.val + b.val, by omega⟩ := by
    rw [← Fintype.sum_prod_type']
    refine (Fintype.sum_equiv (finProdFinEquiv (m := 4) (n := 1024)) _ _ fun ab => ?_).symm
    refine congrArg f (Fin.ext ?_)
    show 1024 * ab.1.val + ab.2.val = ab.2.val + 1024 * ab.1.val
    omega
  rw [e, Fin.sum_univ_four, zero_add]
  rfl

variable {I O P Q : Type*} [Fintype I] [Fintype O] [Fintype P] [Fintype Q]

/-- The fold/chain identity on the extended reals, for arrays of real numbers and real scaling factors. -/
theorem fold_eq_chain_ereal (c₁ c₂ : ℝ) (X : I → ℝ) (W : O → I → ℝ) (bias : O → ℝ) (A : P → I → ℝ) (B : O → P → ℝ)
    (A1 : Q → I → ℝ) (A2 : P → Q → ℝ) (B1 : Q → P → ℝ) (B2 : O → Q → ℝ) (o : O) :
    (∑ i, (X i : EReal) * (((W o i : EReal) + (c₁ : EReal) * ∑ r, (A r i : EReal) * (B o r : EReal))
          + (c₂ : EReal) * ∑ r', (∑ q, (∑ r, (A1 r i : EReal) * (A2 q r : EReal)) * (B1 r' q : EReal)) * (B2 o r' : EReal)))
        + (bias o : EReal)
      = ((∑ i, (X i : EReal) * (W o i : EReal) + (bias o : EReal))
          + (c₁ : EReal) * ∑ r, (∑ i, (X i : EReal) * (A r i : EReal)) * (B o r : EReal))
        + (c₂ : EReal) * ∑ r', (∑ q, (∑ r, (∑ i, (X i : EReal) * (A1 r i : EReal)) * (A2 q r : EReal)) * (B1 r' q : EReal))
            * (B2 o r' : EReal) := by
  have h := fold_eq_chain (M := Unit) c₁ c₂ (fun _ => X) W bias A B A1 A2 B1 B2 () o
  unfold weight at h
  simp only [← EReal.coe_mul, ← EReal.coe_add, coe_sum]
  exact congrArg _ h

end LoraFold
-- ==== Proof.Val2Cover.lean ====
/-
  The third stage's schedule: which blocks a grid point touches, and that the output blocks tile the array.

  The stage walks an 8 x 4 x 4 grid — batch, block of 1024 rows, block of 1024 columns — the column block
  fastest.  At a point the adjacency tile is the (batch, row block, column block) one; the inverse root
  degrees, the rows' own scaled entries and the output tile are the (batch, row block) ones; the scaled rows
  being contracted are the (batch, column block) ones.  The output tile is written back at the last column
  block only, once per (batch, row block), and those 32 tiles of [1, 1024, 64] tile the [8, 4096, 64] array.
-/
import proofs.«139989_j90280212562329_2_alg».proof.Proof.Gen.KernelIdeal.Points
import Idealize.ShloMosaic.Lib.ValueIdx
import Idealize.ShloMosaic.Lib.Pipeline.Value

set_option maxRecDepth 16384

noncomputable section

namespace Cert.KernelIdeal.HandVal

open Idealize.ShloMosaic Idealize.ShloMosaic.TcCoe Idealize.SL.Sem Idealize.ShloMosaic.ValueIdx
open Cert.KernelIdeal Cert.KernelIdeal.Gen

/-! ## The block indices at a point, decided once over the grid -/

/-- At every point: the adjacency tile, the inverse root degrees and the rows' own scaled entries sit at the
    output tile's batch and row block; the adjacency tile's column block and the contracted rows' row block are
    the point's position along the fastest axis; the contracted rows are the output tile's batch's; every other
    block index is zero. -/
theorem blockIdx2 : ∀ t : Fin cfg2.N,
    win2_0.index t (0 : Fin 3) = win2_4.index t (0 : Fin 3) ∧ win2_0.index t (1 : Fin 3) = win2_4.index t (1 : Fin 3)
    ∧ win2_0.index t (2 : Fin 3) = t.val % 4
    ∧ win2_1.index t (0 : Fin 3) = win2_4.index t (0 : Fin 3) ∧ win2_1.index t (1 : Fin 3) = win2_4.index t (1 : Fin 3)
    ∧ win2_1.index t (2 : Fin 3) = 0
    ∧ win2_2.index t (0 : Fin 3) = win2_4.index t (0 : Fin 3) ∧ win2_2.index t (1 : Fin 3) = t.val % 4
    ∧ win2_2.index t (2 : Fin 3) = 0
    ∧ win2_3.index t (0 : Fin 3) = win2_4.index t (0 : Fin 3) ∧ win2_3.index t (1 : Fin 3) = win2_4.index t (1 : Fin 3)
    ∧ win2_3.index t (2 : Fin 3) = 0
    ∧ win2_4.index t (2 : Fin 3) = 0 :=
  (by decide +kernel : ∀ t : Fin grid2.N, _)

/-- The output tile's batch and row block in closed form: the point's position with the fastest axis divided
    out.  Consecutive points along the fastest axis therefore share the output tile. -/
theorem blockCoords2 : ∀ t : Fin cfg2.N,
    win2_4.index t (0 : Fin 3) = t.val / 16 ∧ win2_4.index t (1 : Fin 3) = t.val / 4 % 4
    ∧ win2_4.index t (0 : Fin 3) ≤ 7 ∧ win2_4.index t (1 : Fin 3) ≤ 3 :=
  (by decide +kernel : ∀ t : Fin grid2.N, _)

/-- Every output tile is written back by some point: the one at the last column block of its batch and row block. -/
theorem blockOnto2 : ∀ (q0 : Fin 8) (q1 : Fin 4), ∃ t : Fin cfg2.N, t.val % 4 = 3 ∧ win2_4.index t = ![q0.val, q1.val, 0] :=
  (by decide +kernel : ∀ (q0 : Fin 8) (q1 : Fin 4), ∃ t : Fin grid2.N, t.val % 4 = 3 ∧ win2_4.index t = ![q0.val, q1.val, 0])

/-! ## The output tiles tile the array -/

/-- An index of the array is in point `t`'s output tile iff each coordinate is in the tile's range on its axis. -/
theorem mem_blk2 (t : Fin cfg2.N) (i : S8x4096x64.Idx) :
    i ∈ ((cfg2.win 4).blk t).view.set ↔ ∀ a : Fin 3, win2_4.index t a * S1x1024x64.size a ≤ (i a).val ∧ (i a).val < win2_4.index t a * S1x1024x64.size a + S1x1024x64.size a := by
  show i ∈ ((View.whole main_v2).slice (win2_4.rect t)).set ↔ _
  rw [View.set_slice_whole, Rect.mem_set_unit]
  exact Iff.rfl

/-- Every index of the array is in the tile of some point that writes back: batch `b`, row `n` is in the tile
    `(b, n / 1024)`, written back at that tile's last column block. -/
theorem cover2 (i : S8x4096x64.Idx) : ∃ t : Fin cfg2.N, (cfg2.win 4).flush t = true ∧ i ∈ ((cfg2.win 4).blk t).view.set := by
  have hi0 : (i 0).val < 8 := (i 0).isLt
  have hi1 : (i 1).val < 4096 := (i 1).isLt
  have hi2 : (i 2).val < 64 := (i 2).isLt
  obtain ⟨t, hlast, ht⟩ := blockOnto2 ⟨(i 0).val, by omega⟩ ⟨(i 1).val / 1024, by omega⟩
  have q0 : win2_4.index t (0 : Fin 3) = (i 0).val := congrFun ht 0
  have q1 : win2_4.index t (1 : Fin 3) = (i 1).val / 1024 := congrFun ht 1
  have q2 : win2_4.index t (2 : Fin 3) = 0 := congrFun ht 2
  refine ⟨t, (flush2_4 t).mpr hlast, ?_⟩
  rw [mem_blk2]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 1024 ≤ (i 1).val ∧ (i 1).val < win2_4.index t (1 : Fin 3) * 1024 + 1024; omega
  | ⟨2, _⟩ => show win2_4.index t (2 : Fin 3) * 64 ≤ (i 2).val ∧ (i 2).val < win2_4.index t (2 : Fin 3) * 64 + 64; omega

end Cert.KernelIdeal.HandVal

end
-- ==== Proof.Val2.lean ====
import proofs.«139989_j90280212562329_2_alg».proof.Proof.Val2Pay
import proofs.«139989_j90280212562329_2_alg».proof.Proof.Val2Pieces
import proofs.«139989_j90280212562329_2_alg».proof.Proof.Spec
import proofs.«139989_j90280212562329_2_alg».proof.Proof.LibLoraFoldEReal
import proofs.«139989_j90280212562329_2_alg».proof.Proof.Val2Cover
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen Cert.KernelIdeal.Hand

variable (V : (c : Dev nD) → (b : Ref sig .tc) → Buf (Elt Ideal) ((c : Thread nD τ).loc b))

/-! ## Where a point's blocks sit in their arrays

The point of position `t` of the 8 × 4 × 4 grid has batch `t / 16`, row block `t / 4 mod 4` and reduction step
`t mod 4`. The adjacency tile is block (batch, row block, step); the row factors, the node's own scaled rows and
the output are block (batch, row block, 0); the scaled rows entering the product are block (batch, step, 0). -/

theorem blkIdx : ∀ t : Fin cfg2.N,
    win2_0.index t (0 : Fin 3) = t.val / 16 ∧ win2_0.index t (1 : Fin 3) = t.val / 4 % 4 ∧ win2_0.index t (2 : Fin 3) = t.val % 4
    ∧ win2_1.index t (0 : Fin 3) = t.val / 16 ∧ win2_1.index t (1 : Fin 3) = t.val / 4 % 4 ∧ win2_1.index t (2 : Fin 3) = 0
    ∧ win2_2.index t (0 : Fin 3) = t.val / 16 ∧ win2_2.index t (1 : Fin 3) = t.val % 4 ∧ win2_2.index t (2 : Fin 3) = 0
    ∧ win2_3.index t (0 : Fin 3) = t.val / 16 ∧ win2_3.index t (1 : Fin 3) = t.val / 4 % 4 ∧ win2_3.index t (2 : Fin 3) = 0
    ∧ win2_4.index t (0 : Fin 3) = t.val / 16 ∧ win2_4.index t (1 : Fin 3) = t.val / 4 % 4 ∧ win2_4.index t (2 : Fin 3) = 0 :=
  (by decide +kernel : ∀ t : Fin grid2.N, _)

/-- The adjacency tile's entry `(r, j)` is the adjacency at row `1024 · (row block) + r`, column `1024 · step + j`. -/
theorem read_blk0 (Z : S8x4096x4096.Idx → EReal) (t : Fin cfg2.N) (r j : Fin 1024) (b : Fin 8) (i n : Fin 4096)
    (hb : b.val = t.val / 16) (hi : i.val = 1024 * (t.val / 4 % 4) + r.val) (hn : n.val = 1024 * (t.val % 4) + j.val) :
    ((cfg2.win 0).blk t).view.read (Elt Ideal) Z (ix3 (0 : Fin 1) r j) = Z (ix3 b i n) := by
  obtain ⟨e0, e1, e2, -⟩ := blkIdx t
  show Z (((cfg2.win 0).blk t).view.emb (ix3 (0 : Fin 1) r j)) = Z (ix3 b i n)
  refine congrArg Z (funext fun a => Fin.ext ?_)
  match a with
  | ⟨0, _⟩ => show win2_0.index t (0 : Fin 3) * 1 + 1 * (0 : ℕ) = b.val; omega
  | ⟨1, _⟩ => show win2_0.index t (1 : Fin 3) * 1024 + 1 * r.val = i.val; omega
  | ⟨2, _⟩ => show win2_0.index t (2 : Fin 3) * 1024 + 1 * j.val = n.val; omega

/-- The row factors' entry `r` is the factor of row `1024 · (row block) + r`. -/
theorem read_blk1 (Z : S8x4096x1.Idx → EReal) (t : Fin cfg2.N) (r : Fin 1024) (b : Fin 8) (i : Fin 4096)
    (hb : b.val = t.val / 16) (hi : i.val = 1024 * (t.val / 4 % 4) + r.val) :
    ((cfg2.win 1).blk t).view.read (Elt Ideal) Z (ix3 (0 : Fin 1) r (0 : Fin 1)) = Z (ix3 b i (0 : Fin 1)) := by
  obtain ⟨-, -, -, e0, e1, e2, -⟩ := blkIdx t
  show Z (((cfg2.win 1).blk t).view.emb (ix3 (0 : Fin 1) r (0 : Fin 1))) = Z (ix3 b i (0 : Fin 1))
  refine congrArg Z (funext fun a => Fin.ext ?_)
  match a with
  | ⟨0, _⟩ => show win2_1.index t (0 : Fin 3) * 1 + 1 * (0 : ℕ) = b.val; omega
  | ⟨1, _⟩ => show win2_1.index t (1 : Fin 3) * 1024 + 1 * r.val = i.val; omega
  | ⟨2, _⟩ => show win2_1.index t (2 : Fin 3) * 1 + 1 * (0 : ℕ) = (0 : ℕ); omega

/-- The entering scaled rows' entry `(j, e)` is the scaled row `1024 · step + j` at feature `e`. -/
theorem read_blk2 (Z : S8x4096x64.Idx → EReal) (t : Fin cfg2.N) (j : Fin 1024) (e : Fin 64) (b : Fin 8) (n : Fin 4096)
    (hb : b.val = t.val / 16) (hn : n.val = 1024 * (t.val % 4) + j.val) :
    ((cfg2.win 2).blk t).view.read (Elt Ideal) Z (ix3 (0 : Fin 1) j e) = Z (ix3 b n e) := by
  obtain ⟨-, -, -, -, -, -, e0, e1, e2, -⟩ := blkIdx t
  show Z (((cfg2.win 2).blk t).view.emb (ix3 (0 : Fin 1) j e)) = Z (ix3 b n e)
  refine congrArg Z (funext fun a => Fin.ext ?_)
  match a with
  | ⟨0, _⟩ => show win2_2.index t (0 : Fin 3) * 1 + 1 * (0 : ℕ) = b.val; omega
  | ⟨1, _⟩ => show win2_2.index t (1 : Fin 3) * 1024 + 1 * j.val = n.val; omega
  | ⟨2, _⟩ => show win2_2.index t (2 : Fin 3) * 64 + 1 * e.val = e.val; omega

/-- The node's own scaled rows' entry `(r, e)` is the scaled row `1024 · (row block) + r` at feature `e`. -/
theorem read_blk3 (Z : S8x4096x64.Idx → EReal) (t : Fin cfg2.N) (r : Fin 1024) (e : Fin 64) (b : Fin 8) (i : Fin 4096)
    (hb : b.val = t.val / 16) (hi : i.val = 1024 * (t.val / 4 % 4) + r.val) :
    ((cfg2.win 3).blk t).view.read (Elt Ideal) Z (ix3 (0 : Fin 1) r e) = Z (ix3 b i e) := by
  obtain ⟨-, -, -, -, -, -, -, -, -, e0, e1, e2, -⟩ := blkIdx t
  show Z (((cfg2.win 3).blk t).view.emb (ix3 (0 : Fin 1) r e)) = Z (ix3 b i e)
  refine congrArg Z (funext fun a => Fin.ext ?_)
  match a with
  | ⟨0, _⟩ => show win2_3.index t (0 : Fin 3) * 1 + 1 * (0 : ℕ) = b.val; omega
  | ⟨1, _⟩ => show win2_3.index t (1 : Fin 3) * 1024 + 1 * r.val = i.val; omega
  | ⟨2, _⟩ => show win2_3.index t (2 : Fin 3) * 64 + 1 * e.val = e.val; omega

/-- The output block's entry `(r, e)` is the output at row `1024 · (row block) + r`, feature `e`. -/
theorem read_blk4 (Z : S8x4096x64.Idx → EReal) (t : Fin cfg2.N) (r : Fin 1024) (e : Fin 64) (b : Fin 8) (i : Fin 4096)
    (hb : b.val = t.val / 16) (hi : i.val = 1024 * (t.val / 4 % 4) + r.val) :
    ((cfg2.win 4).blk t).view.read (Elt Ideal) Z (ix3 (0 : Fin 1) r e) = Z (ix3 b i e) := by
  obtain ⟨-, -, -, -, -, -, -, -, -, -, -, -, e0, e1, e2⟩ := blkIdx t
  show Z (((cfg2.win 4).blk t).view.emb (ix3 (0 : Fin 1) r e)) = Z (ix3 b i e)
  refine congrArg Z (funext fun a => Fin.ext ?_)
  match a with
  | ⟨0, _⟩ => show win2_4.index t (0 : Fin 3) * 1 + 1 * (0 : ℕ) = b.val; omega
  | ⟨1, _⟩ => show win2_4.index t (1 : Fin 3) * 1024 + 1 * r.val = i.val; omega
  | ⟨2, _⟩ => show win2_4.index t (2 : Fin 3) * 64 + 1 * e.val = e.val; omega

/-! ## The accumulator and the output block at an index -/

/-- The four input blocks at a point, as vectors of extended reals: the adjacency tile, the row factors, the scaled rows
    entering the product, the node's own scaled rows. -/
abbrev blkA (c : Dev nD) (t : Fin cfg2.N) : Vec Ideal S1x1024x1024 .f32 := iblk2 V c 0 t
abbrev blkD (c : Dev nD) (t : Fin cfg2.N) : Vec Ideal S1x1024x1 .f32 := iblk2 V c 1 t
abbrev blkK (c : Dev nD) (t : Fin cfg2.N) : Vec Ideal S1x1024x64 .f32 := iblk2 V c 2 t
abbrev blkI (c : Dev nD) (t : Fin cfg2.N) : Vec Ideal S1x1024x64 .f32 := iblk2 V c 3 t

/-- The tile product's entry at a point: the sum over the tile's 1024 columns of the adjacency tile's row `r` times
    the entering scaled rows' column `e`. -/
def tile (c : Dev nD) (t : Fin cfg2.N) (r : Fin 1024) (e : Fin 64) : EReal :=
  ∑ j : Fin 1024, blkA V c t (ix3 (0 : Fin 1) r j) * blkK V c t (ix3 (0 : Fin 1) j e)

/-- After a point with `k = 0` the accumulator is zero plus that point's tile product. -/
theorem acc_first_apply (c : Dev nD) (n : ℕ) (hn : n < cfg2.N) (h0 : n % 4 = 0) (r : Fin 1024) (e : Fin 64) :
    (accAt V c n hn).2 (ix2 r e) = 0 + tile V c ⟨n, hn⟩ r e := by
  have h := acc_first V c ⟨n, hn⟩ h0
  refine (congrFun h (ix2 r e)).trans ?_
  refine (pay2_apply (iblk2 V c 0 ⟨n, hn⟩) (iblk2 V c 2 ⟨n, hn⟩) (k2_pay1 (F := Ideal)) r e).trans ?_
  rw [pay1_apply]; rfl

/-- After a point with `k ≠ 0` it is what the point before left plus that point's tile product. -/
theorem acc_succ_apply (c : Dev nD) (n : ℕ) (hn : n + 1 < cfg2.N) (h0 : ¬(n + 1) % 4 = 0) (r : Fin 1024) (e : Fin 64) :
    (accAt V c (n + 1) hn).2 (ix2 r e) = (accAt V c n (Nat.lt_of_succ_lt hn)).2 (ix2 r e) + tile V c ⟨n + 1, hn⟩ r e := by
  have h : (accAt V c (n + 1) hn).2
      = k2_pay2 (iblk2 V c 0 ⟨n + 1, hn⟩) (iblk2 V c 2 ⟨n + 1, hn⟩) (accAt V c n (Nat.lt_of_succ_lt hn)).2 :=
    acc_next V c ⟨n + 1, hn⟩ h0
  refine (congrFun h (ix2 r e)).trans ?_
  exact pay2_apply (iblk2 V c 0 ⟨n + 1, hn⟩) (iblk2 V c 2 ⟨n + 1, hn⟩) (accAt V c n (Nat.lt_of_succ_lt hn)).2 r e

/-- The output block stored at a point with `k = 3`: the row's factor times (that point's accumulator plus the node's
    own scaled row). -/
theorem out_succ_apply (c : Dev nD) (n : ℕ) (hn : n + 1 < cfg2.N) (h0 : ¬(n + 1) % 4 = 0) (h1 : (n + 1) % 4 = 3)
    (r : Fin 1024) (e : Fin 64) :
    (accAt V c (n + 1) hn).1 (ix3 (0 : Fin 1) r e)
      = blkD V c ⟨n + 1, hn⟩ (ix3 (0 : Fin 1) r (0 : Fin 1))
        * (((accAt V c n (Nat.lt_of_succ_lt hn)).2 (ix2 r e) + tile V c ⟨n + 1, hn⟩ r e)
            + blkI V c ⟨n + 1, hn⟩ (ix3 (0 : Fin 1) r e)) := by
  have h : (accAt V c (n + 1) hn).1
      = k2_pay3 (iblk2 V c 1 ⟨n + 1, hn⟩)
          (k2_pay2 (iblk2 V c 0 ⟨n + 1, hn⟩) (iblk2 V c 2 ⟨n + 1, hn⟩) (accAt V c n (Nat.lt_of_succ_lt hn)).2)
          (iblk2 V c 3 ⟨n + 1, hn⟩) :=
    out_last V c ⟨n + 1, hn⟩ h0 h1
  refine (congrFun h (ix3 (0 : Fin 1) r e)).trans ?_
  refine (pay3_apply (iblk2 V c 1 ⟨n + 1, hn⟩) _ (iblk2 V c 3 ⟨n + 1, hn⟩) r e).trans ?_
  rw [pay2_apply (iblk2 V c 0 ⟨n + 1, hn⟩) (iblk2 V c 2 ⟨n + 1, hn⟩) (accAt V c n (Nat.lt_of_succ_lt hn)).2 r e]
  rfl

/-- A whole run of four points: the output block stored at its last point, from the four tile products. -/
theorem run_value (c : Dev nD) (n : ℕ) (hn : n + 1 + 1 + 1 < cfg2.N) (h : n % 4 = 0) (r : Fin 1024) (e : Fin 64) :
    (accAt V c (n + 1 + 1 + 1) hn).1 (ix3 (0 : Fin 1) r e)
      = blkD V c ⟨n + 1 + 1 + 1, hn⟩ (ix3 (0 : Fin 1) r (0 : Fin 1))
        * (((((0 + tile V c ⟨n, by omega⟩ r e) + tile V c ⟨n + 1, by omega⟩ r e) + tile V c ⟨n + 1 + 1, by omega⟩ r e)
              + tile V c ⟨n + 1 + 1 + 1, hn⟩ r e)
            + blkI V c ⟨n + 1 + 1 + 1, hn⟩ (ix3 (0 : Fin 1) r e)) := by
  rw [out_succ_apply V c (n + 1 + 1) hn (by omega) (by omega) r e,
    acc_succ_apply V c (n + 1) (by omega) (by omega) r e,
    acc_succ_apply V c n (by omega) (by omega) r e,
    acc_first_apply V c n (by omega) h r e]

/-! ## The blocks as the region finds them -/

variable (X : FVec Ideal Cert.NormAdj.SX .f32) (A : FVec Ideal Cert.NormAdj.SA .f32) (W : FVec Ideal Cert.NormAdj.SW .f32) (bias : FVec Ideal Cert.NormAdj.SB .f32)

/-- A point's tile product, from the arrays the region is entered with: the sum over block `k` of the 4096 columns of
    adjacency times scaled row. -/
theorem tile_value (c : Dev nD) (hA : (V c main_arg1 : Cert.NormAdj.SA.Idx → EReal) = A)
    (hH : (V c main_v1 : Cert.NormAdj.SX.Idx → EReal) = Cert.NormAdj.hsArr X A W bias)
    (t : Fin cfg2.N) (k : ℕ) (hk4 : k < 4) (hk : t.val % 4 = k) (r : Fin 1024) (e : Fin 64) (b : Fin 8) (i : Fin 4096)
    (hb : b.val = t.val / 16) (hi : i.val = 1024 * (t.val / 4 % 4) + r.val) :
    tile V c t r e
      = ∑ j : Fin 1024, A (ix3 b i ⟨1024 * k + j.val, by have := j.isLt; omega⟩)
          * Cert.NormAdj.hs X A W bias b ⟨1024 * k + j.val, by have := j.isLt; omega⟩ e := by
  unfold tile
  refine Finset.sum_congr rfl fun j _ => ?_
  have hj := j.isLt
  have e0 : blkA V c t (ix3 (0 : Fin 1) r j) = A (ix3 b i ⟨1024 * k + j.val, by omega⟩) :=
    (read_blk0 (V c main_arg1) t r j b i ⟨1024 * k + j.val, by omega⟩ hb hi (by show 1024 * k + j.val = _; omega)).trans
      (congrFun hA _)
  have e2 : blkK V c t (ix3 (0 : Fin 1) j e) = Cert.NormAdj.hs X A W bias b ⟨1024 * k + j.val, by omega⟩ e :=
    (read_blk2 (V c main_v1) t j e b ⟨1024 * k + j.val, by omega⟩ hb (by show 1024 * k + j.val = _; omega)).trans
      (congrFun hH _)
  rw [e0, e2]

/-- WHAT A POINT WITH `k = 3` WRITES BACK is its block of the aggregated output. -/
theorem flushed2_eq (c : Dev nD) (hA : (V c main_arg1 : Cert.NormAdj.SA.Idx → EReal) = A)
    (hD : (V c main_v0 : Cert.NormAdj.SD.Idx → EReal) = Cert.NormAdj.dinvArr A)
    (hH : (V c main_v1 : Cert.NormAdj.SX.Idx → EReal) = Cert.NormAdj.hsArr X A W bias)
    (t : Fin cfg2.N) (hf : (cfg2.win 4).flush t = true) :
    (dat2 V c).flushed 4 t = ((cfg2.win 4).blk t).view.read (Elt Ideal) (Cert.NormAdj.outArr X A W bias) := by
  have h3 : t.val % 4 = 3 := (flush2_4 t).mp hf
  have hN : cfg2.N = 128 := N_2
  obtain ⟨tv, ht⟩ := t
  obtain ⟨n, rfl⟩ : ∃ n, tv = n + 1 + 1 + 1 := ⟨tv - 3, by dsimp only at h3; omega⟩
  have hn0 : n % 4 = 0 := by dsimp only at h3; omega
  show (cfg2.win 4).cut (grid2.coords ⟨n + 1 + 1 + 1, ht⟩) ((dat2 V c).after 4 ⟨n + 1 + 1 + 1, ht⟩) = _
  rw [after2_4]
  refine funext fun (y : S1x1024x64.Idx) => ?_
  obtain ⟨u, r, e, rfl⟩ : ∃ (u : Fin 1) (r : Fin 1024) (e : Fin 64), y = ix3 u r e := ⟨y 0, y 1, y 2, eq_ix3 y⟩
  obtain rfl : u = 0 := Subsingleton.elim _ _
  show (accAt V c (n + 1 + 1 + 1) ht).1 (ix3 (0 : Fin 1) r e) = _
  have hr := r.isLt
  have hlt : n + 1 + 1 + 1 < 128 := hN ▸ ht
  obtain ⟨b, hb⟩ : ∃ b : Fin 8, b.val = (n + 1 + 1 + 1) / 16 := ⟨⟨(n + 1 + 1 + 1) / 16, by omega⟩, rfl⟩
  obtain ⟨i, hi⟩ : ∃ i : Fin 4096, i.val = 1024 * ((n + 1 + 1 + 1) / 4 % 4) + r.val :=
    ⟨⟨1024 * ((n + 1 + 1 + 1) / 4 % 4) + r.val, by omega⟩, rfl⟩
  rw [read_blk4 (Cert.NormAdj.outArr X A W bias) ⟨n + 1 + 1 + 1, ht⟩ r e b i hb hi]
  rw [run_value V c n ht hn0 r e]
  rw [tile_value V X A W bias c hA hH ⟨n, by omega⟩ 0 (by omega) hn0 r e b i (by show b.val = n / 16; omega) (by show i.val = 1024 * (n / 4 % 4) + r.val; omega),
    tile_value V X A W bias c hA hH ⟨n + 1, by omega⟩ 1 (by omega) (by show (n + 1) % 4 = 1; omega) r e b i (by show b.val = (n + 1) / 16; omega) (by show i.val = 1024 * ((n + 1) / 4 % 4) + r.val; omega),
    tile_value V X A W bias c hA hH ⟨n + 1 + 1, by omega⟩ 2 (by omega) (by show (n + 1 + 1) % 4 = 2; omega) r e b i (by show b.val = (n + 1 + 1) / 16; omega) (by show i.val = 1024 * ((n + 1 + 1) / 4 % 4) + r.val; omega),
    tile_value V X A W bias c hA hH ⟨n + 1 + 1 + 1, ht⟩ 3 (by omega) (by show (n + 1 + 1 + 1) % 4 = 3; omega) r e b i hb hi]
  rw [LoraFold.sum_four_blocks (fun m : Fin 4096 => A (ix3 b i m) * Cert.NormAdj.hs X A W bias b m e)]
  have e1 : blkD V c ⟨n + 1 + 1 + 1, ht⟩ (ix3 (0 : Fin 1) r (0 : Fin 1)) = Cert.NormAdj.dinv A b i :=
    (read_blk1 (V c main_v0) ⟨n + 1 + 1 + 1, ht⟩ r b i hb hi).trans (congrFun hD _)
  have e3 : blkI V c ⟨n + 1 + 1 + 1, ht⟩ (ix3 (0 : Fin 1) r e) = Cert.NormAdj.hs X A W bias b i e :=
    (read_blk3 (V c main_v1) ⟨n + 1 + 1 + 1, ht⟩ r e b i hb hi).trans (congrFun hH _)
  rw [e1, e3]
  rfl

/-- THE OUTPUT ARRAY after the last point: the aggregated output, as one function of the arrays the region was entered
    with — every index lies in the block some point with `k = 3` writes back. -/
theorem final2 (c : Dev nD) (X : FVec Ideal Cert.NormAdj.SX .f32) (A : FVec Ideal Cert.NormAdj.SA .f32) (W : FVec Ideal Cert.NormAdj.SW .f32)
    (bias : FVec Ideal Cert.NormAdj.SB .f32)
    (hA : (V c main_arg1 : Cert.NormAdj.SA.Idx → EReal) = A) (hD : (V c main_v0 : Cert.NormAdj.SD.Idx → EReal) = Cert.NormAdj.dinvArr A)
    (hH : (V c main_v1 : Cert.NormAdj.SX.Idx → EReal) = Cert.NormAdj.hsArr X A W bias) :
    ((dat2 (F := Ideal) V c).arrAt 4 cfg2.N : Cert.NormAdj.SX.Idx → EReal) = Cert.NormAdj.outArr X A W bias :=
  (dat2 V c).arrAt_eq_of_cover 4 (Cert.NormAdj.outArr X A W bias) (fun t hf => flushed2_eq V X A W bias c hA hD hH t hf) cover2

end Cert.KernelIdeal.HandVal

end
-- ==== Proof.KernelValue.lean ====
/-
  What the idealized program leaves in its result array, as one function of the four launch arrays.

  The first stage turns the adjacency into the inverse root degrees; the second reads those and the features and
  leaves the scaled rows; the third reads the adjacency, the inverse root degrees and the scaled rows and leaves the
  output.  Each stage's output array after its last point is a whole-array function of the arrays it was entered
  with, and each stage is entered with the launch arrays (no stage writes them) and the arrays the stages before it
  left.  Chaining the three gives the output as `outArr` of the launch arrays.
-/
import proofs.«139989_j90280212562329_2_alg».proof.Proof.KI.Run
import proofs.«139989_j90280212562329_2_alg».proof.Proof.Val0
import proofs.«139989_j90280212562329_2_alg».proof.Proof.Val1
import proofs.«139989_j90280212562329_2_alg».proof.Proof.Val2
import proofs.«139989_j90280212562329_2_alg».proof.Proof.Spec

noncomputable section

namespace Cert.KernelIdeal.HandVal

open Idealize.ShloMosaic Idealize.ShloMosaic.TcCoe Idealize.SL.Sem
open Cert.KernelIdeal Cert.KernelIdeal.Gen Cert.KernelIdeal.Hand Cert.NormAdj

variable (m : (ℓ : Loc nD τ sig) → Buf (Elt Ideal) ℓ) (ρ : Dev nD → PrngReg)

/-- The features, the weights and the bias reach the second stage as launched: the first stage does not hold them. -/
theorem V1_arg0 (c : Dev nD) : V1 m ρ c main_arg0 = m ((c : Thread nD τ).loc main_arg0) := W1_of_ne m ρ c main_arg0 (by decide)
theorem V1_arg2 (c : Dev nD) : V1 m ρ c main_arg2 = m ((c : Thread nD τ).loc main_arg2) := W1_of_ne m ρ c main_arg2 (by decide)
theorem V1_arg3 (c : Dev nD) : V1 m ρ c main_arg3 = m ((c : Thread nD τ).loc main_arg3) := W1_of_ne m ρ c main_arg3 (by decide)

/-- The inverse root degrees the second stage is entered with are the first stage's result on the launched adjacency. -/
theorem V1_dinv (c : Dev nD) :
    (V1 m ρ c main_v0 : SD.Idx → EReal) = dinvArr (m ((c : Thread nD τ).loc main_arg1)) :=
  (W1_arr m ρ c 1).trans (final0 (V0 m ρ) c)

/-- The adjacency reaches the third stage as launched: the first stage reads it, the second does not hold it. -/
theorem V2_adj (c : Dev nD) : (V2 m ρ c main_arg1 : SA.Idx → EReal) = m ((c : Thread nD τ).loc main_arg1) :=
  (W2_of_ne m ρ c main_arg1 (by decide)).trans
    ((W1_arr m ρ c 0).trans (((dat0 (V0 m ρ) c).arrAt_in 0 rfl _).trans (A_eq0 (V0 m ρ) c 0)))

/-- The inverse root degrees reach the third stage as the first stage left them: the second only reads them. -/
theorem V2_dinv (c : Dev nD) :
    (V2 m ρ c main_v0 : SD.Idx → EReal) = dinvArr (m ((c : Thread nD τ).loc main_arg1)) :=
  (W2_arr m ρ c 3).trans (((dat1 (V1 m ρ) c).arrAt_in 3 rfl _).trans ((A_eq1 (V1 m ρ) c 3).trans (V1_dinv m ρ c)))

/-- The scaled rows the third stage is entered with are the second stage's result. -/
theorem V2_hs (c : Dev nD) :
    (V2 m ρ c main_v1 : SX.Idx → EReal)
      = hsArr (m ((c : Thread nD τ).loc main_arg0)) (m ((c : Thread nD τ).loc main_arg1)) (m ((c : Thread nD τ).loc main_arg2)) (m ((c : Thread nD τ).loc main_arg3)) := by
  refine (W2_arr m ρ c 4).trans ((final1 (V1 m ρ) c (m ((c : Thread nD τ).loc main_arg1)) (V1_dinv m ρ c)).trans ?_)
  rw [V1_arg0, V1_arg2, V1_arg3]

/-- The result array after the third stage's last point is the output of the launch arrays. -/
theorem kernel_value (c : Dev nD) :
    ((dat2 (F := Ideal) (V2 m ρ) c).arrAt 4 cfg2.N : SX.Idx → EReal)
      = outArr (m ((c : Thread nD τ).loc main_arg0)) (m ((c : Thread nD τ).loc main_arg1)) (m ((c : Thread nD τ).loc main_arg2)) (m ((c : Thread nD τ).loc main_arg3)) :=
  final2 (V2 m ρ) c _ _ _ _ (V2_adj m ρ c) (V2_dinv m ρ c) (V2_hs m ρ c)

end Cert.KernelIdeal.HandVal

end
-- ==== Proof.RefConsts.lean ====
/-
  The four float words the two programs spell, as the extended reals they denote.

  `0x00000000` is zero and `0x3F800000` is one.  `0x322BCC77` has exponent field 100 and fraction 2870391, so it is
  the positive real (2^23 + 2870391) · 2^(100 - 127 - 23) = 11258999 · 2^(-50), the lower bound ε.  `0xBF000000` has the
  sign bit set, exponent field 126 and fraction zero: -(2^23) · 2^(126 - 127 - 23) = -1/2.
-/
import Idealize.ShloMosaic.PureOps.Ideal

noncomputable section

namespace Cert.NormAdj

open Idealize.ShloMosaic

/-- The word `0x00000000` denotes zero. -/
theorem word_zero : Ideal.ofBits .f32 0x00000000#32 = 0 := by
  simp [Ideal.ofBits, Ideal.ieee]

/-- The word `0x3F800000` denotes one. -/
theorem word_one : Ideal.ofBits .f32 0x3F800000#32 = ((1 : ℝ) : EReal) := by
  simp [Ideal.ofBits, Ideal.ieee, -EReal.coe_mul]; norm_num

/-- The real number ε: 11258999 · 2^(-50). -/
def epsR : ℝ := 11258999 * (2 : ℝ) ^ (-50 : Int)

theorem epsR_pos : 0 < epsR := by unfold epsR; positivity

/-- The word `0x322BCC77` denotes ε. -/
theorem word_eps : Ideal.ofBits .f32 0x322BCC77#32 = ((epsR : ℝ) : EReal) := by
  unfold epsR
  simp [Ideal.ofBits, Ideal.ieee, -EReal.coe_mul]

/-- The word `0xBF000000` denotes minus one half. -/
theorem word_neg_half : Ideal.ofBits .f32 0xBF000000#32 = (((-1 / 2 : ℝ)) : EReal) := by
  simp [Ideal.ofBits, Ideal.ieee, -EReal.coe_mul, -EReal.coe_neg]; norm_num

end Cert.NormAdj

end
-- ==== Proof.RefLaw.lean ====
/-
  The reference's arrangement of the normalised aggregation, and the law that joins it to the kernel's.

  The reference forms Â = A + I, the degree d = max(0 + Σ_j Â[b,i,j], ε), its power d^(-1/2), the normalised matrix
  Â[b,i,k] · d^(-1/2)[b,i] · d^(-1/2)[b,k], and multiplies it into the linear layer.  The kernel's arrangement scales the
  rows of the linear layer first and adds the self loop as a separate term.

  Where every entry of the arguments is a real number the two agree.  The row sum of the identity is one, so the two
  degrees are the same extended real, and it is a real number at least ε > 0; for a positive real d, d^(-1/2) is
  1/√d, the inverse square root.  What remains is an identity between finite sums of real numbers: distributivity,
  and the identity matrix picking the i-th term out of the sum over k.
-/
import proofs.«139989_j90280212562329_2_alg».proof.Proof.Spec
import proofs.«139989_j90280212562329_2_alg».proof.Proof.RefConsts

noncomputable section

namespace Cert.NormAdj

open Idealize.ShloMosaic Idealize.ShloMosaic.ValueIdx
open scoped BigOperators

/-! ## The reference's arrangement -/

/-- The identity matrix's entry: one on the diagonal, zero off it. -/
def delta (i k : Fin 4096) : EReal := ((if i = k then (1 : ℝ) else 0 : ℝ) : EReal)

/-- The reference's degree: zero plus the row sum of A + I, kept at least ε. -/
def refDeg (A : FVec Ideal SA .f32) (b : Fin 8) (i : Fin 4096) : EReal :=
  max (Ideal.ofBits .f32 0x00000000#32 + ∑ j : Fin 4096, (A (ix3 b i j) + delta i j)) eps

/-- The reference's normaliser: the degree to the power minus one half. -/
def refDinv (A : FVec Ideal SA .f32) (b : Fin 8) (i : Fin 4096) : EReal :=
  Ideal.pow (refDeg A b i) (Ideal.ofBits .f32 0xBF000000#32)

/-- The reference's result: the normalised matrix times the linear layer. -/
def refOut (X : FVec Ideal SX .f32) (A : FVec Ideal SA .f32) (W : FVec Ideal SW .f32) (bias : FVec Ideal SB .f32)
    (b : Fin 8) (i : Fin 4096) (e : Fin 64) : EReal :=
  ∑ k : Fin 4096, ((A (ix3 b i k) + delta i k) * refDinv A b i * refDinv A b k) * lin X W bias b k e

/-! ## Sums of real numbers read in the extended reals -/

/-- A finite sum of real numbers read term by term in the extended reals is the real sum read there. -/
theorem coe_sum {ι : Type*} (s : Finset ι) (f : ι → ℝ) :
    ∑ i ∈ s, ((f i : ℝ) : EReal) = ((∑ i ∈ s, f i : ℝ) : EReal) := by
  classical
  refine Finset.induction_on s (by simp) fun a t ha ih => ?_
  rw [Finset.sum_insert ha, Finset.sum_insert ha, ih, EReal.coe_add]

/-! ## The law over the real numbers -/

/-- Distributivity, and the identity matrix picking out the i-th term: for real a, l, s over a finite index type,
    Σ_k ((a_k + δ_ik) · s_i · s_k) · l_k = s_i · (Σ_k a_k · (l_k · s_k) + l_i · s_i). -/
theorem law_real {ι : Type*} [Fintype ι] [DecidableEq ι] (a l s : ι → ℝ) (i : ι) :
    ∑ k, ((a k + (if i = k then (1 : ℝ) else 0)) * s i * s k) * l k
      = s i * ((∑ k, a k * (l k * s k)) + l i * s i) := by
  have hk : ∀ k, ((a k + (if i = k then (1 : ℝ) else 0)) * s i * s k) * l k
      = s i * (a k * (l k * s k)) + (if i = k then s i * s k * l k else 0) := by
    intro k
    split_ifs <;> ring
  simp only [hk, Finset.sum_add_distrib, Finset.sum_ite_eq, Finset.mem_univ, if_true, ← Finset.mul_sum]
  ring

/-! ## The degree and its inverse square root -/

/-- The row sum of the identity matrix is one. -/
theorem sum_delta (i : Fin 4096) : ∑ j : Fin 4096, delta i j = ((1 : ℝ) : EReal) := by
  unfold delta
  rw [coe_sum, Finset.sum_ite_eq, if_pos (Finset.mem_univ _)]

/-- The self loop's word is the real one, the lower bound's word the real ε. -/
theorem one_eq : one = ((1 : ℝ) : EReal) := word_one
theorem eps_eq : eps = ((epsR : ℝ) : EReal) := word_eps

/-- The maximum of two real numbers read in the extended reals. -/
theorem coe_max (x y : ℝ) : max (x : EReal) (y : EReal) = ((max x y : ℝ) : EReal) :=
  (EReal.coe_strictMono.monotone.map_max).symm

/-- The two degrees are the same extended real. -/
theorem refDeg_eq_deg (A : FVec Ideal SA .f32) (b : Fin 8) (i : Fin 4096) : refDeg A b i = deg A b i := by
  unfold refDeg deg
  rw [word_zero, zero_add, Finset.sum_add_distrib, sum_delta, one_eq]

/-- Where A is an array of real numbers, the degree is a real number at least ε. -/
theorem deg_real (A : FVec Ideal SA .f32) (a : SA.Idx → ℝ) (hA : ∀ j, A j = (a j : EReal)) (b : Fin 8) (i : Fin 4096) :
    deg A b i = ((max ((∑ j : Fin 4096, a (ix3 b i j)) + 1) epsR : ℝ) : EReal) := by
  unfold deg
  simp only [hA, coe_sum, one_eq, eps_eq, ← EReal.coe_add, coe_max]

/-- For a positive real d, d to the power minus one half is the inverse square root of d. -/
theorem pow_neg_half_eq_rsqrt (d : ℝ) (hd : 0 < d) :
    Ideal.pow (d : EReal) (Ideal.ofBits .f32 0xBF000000#32) = Ideal.rsqrt (d : EReal) := by
  rw [word_neg_half, Ideal.pow_coe_coe, Ideal.rsqrt_coe, if_neg (not_lt.2 hd.le), if_neg hd.ne']
  refine congrArg _ ?_
  show d ^ (-1 / 2 : ℝ) = (Real.sqrt d)⁻¹
  rw [Real.sqrt_eq_rpow, show (-1 / 2 : ℝ) = -(1 / 2) by ring, Real.rpow_neg hd.le]

/-- Where A is an array of real numbers, the two normalisers are the same real number. -/
theorem refDinv_real (A : FVec Ideal SA .f32) (a : SA.Idx → ℝ) (hA : ∀ j, A j = (a j : EReal)) (b : Fin 8)
    (i : Fin 4096) :
    refDinv A b i = (((Real.sqrt (max ((∑ j : Fin 4096, a (ix3 b i j)) + 1) epsR))⁻¹ : ℝ) : EReal)
      ∧ dinv A b i = (((Real.sqrt (max ((∑ j : Fin 4096, a (ix3 b i j)) + 1) epsR))⁻¹ : ℝ) : EReal) := by
  have hd : 0 < max ((∑ j : Fin 4096, a (ix3 b i j)) + 1) epsR := lt_max_of_lt_right epsR_pos
  have e : dinv A b i = (((Real.sqrt (max ((∑ j : Fin 4096, a (ix3 b i j)) + 1) epsR))⁻¹ : ℝ) : EReal) := by
    unfold dinv
    rw [deg_real A a hA, Ideal.rsqrt_coe, if_neg (not_lt.2 hd.le), if_neg hd.ne']
  refine ⟨?_, e⟩
  unfold refDinv
  rw [refDeg_eq_deg, deg_real A a hA, pow_neg_half_eq_rsqrt _ hd, Ideal.rsqrt_coe, if_neg (not_lt.2 hd.le),
    if_neg hd.ne']

/-! ## The law on arrays of real numbers -/

/-- Where every entry of the four arguments is a real number, the reference's arrangement and the kernel's give the
    same extended real at every index. -/
theorem refOut_eq_out (X : FVec Ideal SX .f32) (A : FVec Ideal SA .f32) (W : FVec Ideal SW .f32)
    (bias : FVec Ideal SB .f32)
    (hX : ∀ i, ∃ r : ℝ, X i = (r : EReal)) (hA : ∀ i, ∃ r : ℝ, A i = (r : EReal))
    (hW : ∀ i, ∃ r : ℝ, W i = (r : EReal)) (hb : ∀ i, ∃ r : ℝ, bias i = (r : EReal))
    (b : Fin 8) (i : Fin 4096) (e : Fin 64) :
    refOut X A W bias b i e = out X A W bias b i e := by
  choose x hx using hX
  choose a ha using hA
  choose w hw using hW
  choose β hβ using hb
  have hlin : ∀ k : Fin 4096, lin X W bias b k e
      = (((∑ d : Fin 64, x (ix3 b k d) * w (ix2 d e)) + β (ix1 e) : ℝ) : EReal) := by
    intro k
    unfold lin
    simp only [hx, hw, hβ, ← EReal.coe_mul, coe_sum, ← EReal.coe_add]
  unfold refOut out hs
  simp only [hlin, (refDinv_real A a ha b _).1, (refDinv_real A a ha b _).2, ha, delta, ← EReal.coe_mul,
    ← EReal.coe_add, coe_sum]
  exact congrArg _ (law_real (fun k => a (ix3 b i k))
    (fun k => (∑ d : Fin 64, x (ix3 b k d) * w (ix2 d e)) + β (ix1 e))
    (fun k => (Real.sqrt (max ((∑ j : Fin 4096, a (ix3 b k j)) + 1) epsR))⁻¹) i)

end Cert.NormAdj

end
-- ==== Proof.RefSpec.lean ====
/-
  The reference's result, read index by index, and the law that joins it to the kernel's arrangement.

  The reference's composed term is read one operation at a time.  The iota / compare / convert chain is the identity
  matrix: two words below 2^32 built from indices below 4096 are equal exactly when the indices are.  The reduce is zero
  plus the row sum, the maximum and the power give the normaliser, the two broadcasts place it along rows and along
  columns, and the two dot products are the linear layer and the aggregation.  Index by index this is `refOut`, and
  on arrays of real numbers `refOut` is the kernel's `out`.
-/
import proofs.«139989_j90280212562329_2_alg».proof.Proof.Gen.ReferenceIdeal.Run
import proofs.«139989_j90280212562329_2_alg».proof.Proof.Gen.ReferenceIdeal.Read
import proofs.«139989_j90280212562329_2_alg».proof.Proof.Spec
import proofs.«139989_j90280212562329_2_alg».proof.Proof.RefLaw

noncomputable section

namespace Cert.NormAdj

open Idealize.ShloMosaic Idealize.ShloMosaic.ValueIdx Cert.ReferenceIdeal Cert.ReferenceIdeal.Gen
open Cert.ReferenceIdeal.Read
open scoped BigOperators

/-- The reference's result as one function of the four argument arrays: its last operation's value. -/
def refTerm (X : FVec Ideal SX .f32) (A : FVec Ideal SA .f32) (W : FVec Ideal SW .f32) (bias : FVec Ideal SB .f32) :
    FVec Ideal SX .f32 :=
  val_main_v24 (F := Ideal) X A W bias

/-- The composed term the reference's run states is `refTerm` of the four launch arrays. -/
theorem run_term_eq (X : FVec Ideal SX .f32) (A : FVec Ideal SA .f32) (W : FVec Ideal SW .f32)
    (bias : FVec Ideal SB .f32) : val_main_v24 (F := Ideal) X A W bias = refTerm X A W bias := rfl

/-! ## The identity matrix -/

/-- Two 32-bit words built from indices below 4096 are equal exactly when the indices are. -/
theorem ofNat_eq_iff (i k : Fin 4096) : BitVec.ofNat 32 i.val = BitVec.ofNat 32 k.val ↔ i = k := by
  constructor
  · intro h
    have h' := congrArg BitVec.toNat h
    simp only [BitVec.toNat_ofNat] at h'
    have hi := i.isLt
    have hk := k.isLt
    exact Fin.ext (by omega)
  · rintro rfl; rfl

/-- The compare-and-convert of the two iotas is the identity matrix's entry. -/
theorem mask_word (i k : Fin 4096) :
    FloatOps.uitofp (F := Ideal) .f32 (IntOp.cmpi .eq (IntOp.addi (BitVec.ofNat 32 i.val) 0#32) (BitVec.ofNat 32 k.val))
      = delta i k := by
  unfold delta
  show (((IntOp.cmpi .eq (IntOp.addi (BitVec.ofNat 32 i.val) 0#32) (BitVec.ofNat 32 k.val)).toNat : ℝ) : EReal) = _
  refine congrArg _ ?_
  unfold IntOp.cmpi IntOp.addi
  rw [BitVec.add_zero]
  by_cases h : i = k
  · rw [if_pos h, beq_iff_eq.2 ((ofNat_eq_iff i k).2 h)]; simp
  · rw [if_neg h, beq_eq_false_iff_ne.2 (fun e => h ((ofNat_eq_iff i k).1 e))]; simp

/-- The broadcast identity matrix at an index. -/
theorem mask_at (b : Fin 8) (i k : Fin 4096) : val_main_v7 (F := Ideal) (ix3 b i k) = delta i k := by
  rw [val_main_v7_apply, val_main_v6_apply, val_main_v5_apply, val_main_v4_apply, val_main_v3_apply,
    val_main_v0_apply, val_main_v2_apply, val_main_c_apply, val_main_v1_apply]
  exact mask_word i k

/-- A + I at an index. -/
theorem ahat_at (A : FVec Ideal SA .f32) (b : Fin 8) (i k : Fin 4096) :
    val_main_v8 (F := Ideal) A (ix3 b i k) = A (ix3 b i k) + delta i k := by
  rw [val_main_v8_apply, mask_at]
  rfl

/-! ## The degree and the normaliser -/

theorem idx9 (b : Fin 8) (i k : Fin 4096) : idx_main_v9 (ix2 b i) k = ix3 b i k :=
  funext fun a => Fin.ext (by match a with | ⟨0, _⟩ => rfl | ⟨1, _⟩ => rfl | ⟨2, _⟩ => rfl)

/-- The reference's degree at an index. -/
theorem deg_at (A : FVec Ideal SA .f32) (b : Fin 8) (i : Fin 4096) :
    val_main_v11 (F := Ideal) A (ix2 b i) = refDeg A b i := by
  rw [val_main_v11_apply, val_main_v9_apply, val_main_v10_apply, val_main_cst_0_apply, val_main_cst_apply]
  unfold refDeg
  simp only [Ideal.maximumf_def, Ideal.ofBits_def]
  refine congrArg (fun t => max (_ + t) _) (Finset.sum_congr rfl fun k _ => ?_)
  rw [idx9, ahat_at]

/-- The reference's normaliser at an index. -/
theorem dinv_at (A : FVec Ideal SA .f32) (b : Fin 8) (i : Fin 4096) :
    val_main_v13 (F := Ideal) A (ix2 b i) = refDinv A b i := by
  rw [val_main_v13_apply, deg_at, val_main_v12_apply, val_main_cst_1_apply]
  rfl

/-! ## The normalised matrix and the linear layer -/

theorem idx14_15 (b : Fin 8) (i k : Fin 4096) : idx_main_v14 (idx_main_v15 (ix3 b i k)) = ix2 b i :=
  funext fun a => Fin.ext (by match a with | ⟨0, _⟩ => rfl | ⟨1, _⟩ => rfl)

theorem idx17_18 (b : Fin 8) (i k : Fin 4096) : idx_main_v17 (idx_main_v18 (ix3 b i k)) = ix2 b k :=
  funext fun a => Fin.ext (by match a with | ⟨0, _⟩ => rfl | ⟨1, _⟩ => rfl)

/-- The normalised matrix at an index. -/
theorem norm_at (A : FVec Ideal SA .f32) (b : Fin 8) (i k : Fin 4096) :
    val_main_v19 (F := Ideal) A (ix3 b i k) = (A (ix3 b i k) + delta i k) * refDinv A b i * refDinv A b k := by
  rw [val_main_v19_apply, val_main_v16_apply, ahat_at, val_main_v15_apply, val_main_v14_apply, val_main_v18_apply,
    val_main_v17_apply, idx14_15, idx17_18, dinv_at, dinv_at]
  rfl

theorem lidx20 (b : Fin 8) (n : Fin 4096) (e d : Fin 64) : lidx_main_v20 (ix3 b n e) d = ix3 b n d :=
  funext fun a => Fin.ext (by match a with | ⟨0, _⟩ => rfl | ⟨1, _⟩ => rfl | ⟨2, _⟩ => rfl)

theorem ridx20 (b : Fin 8) (n : Fin 4096) (e d : Fin 64) : ridx_main_v20 (ix3 b n e) d = ix2 d e :=
  funext fun a => Fin.ext (by match a with | ⟨0, _⟩ => rfl | ⟨1, _⟩ => rfl)

theorem idx21_22 (b : Fin 8) (n : Fin 4096) (e : Fin 64) : idx_main_v21 (idx_main_v22 (ix3 b n e)) = ix1 e :=
  funext fun a => Fin.ext (by match a with | ⟨0, _⟩ => rfl)

/-- The linear layer at an index. -/
theorem lin_at (X : FVec Ideal SX .f32) (W : FVec Ideal SW .f32) (bias : FVec Ideal SB .f32)
    (b : Fin 8) (n : Fin 4096) (e : Fin 64) :
    val_main_v23 (F := Ideal) X W bias (ix3 b n e) = lin X W bias b n e := by
  rw [val_main_v23_apply, val_main_v20_apply, val_main_v22_apply, val_main_v21_apply, idx21_22]
  unfold lin
  simp only [Ideal.addf_def]
  refine congrArg (· + _) (Finset.sum_congr rfl fun d _ => ?_)
  rw [lidx20, ridx20]

/-! ## The result -/

theorem lidx24 (b : Fin 8) (i : Fin 4096) (e : Fin 64) (k : Fin 4096) : lidx_main_v24 (ix3 b i e) k = ix3 b i k :=
  funext fun a => Fin.ext (by match a with | ⟨0, _⟩ => rfl | ⟨1, _⟩ => rfl | ⟨2, _⟩ => rfl)

theorem ridx24 (b : Fin 8) (i : Fin 4096) (e : Fin 64) (k : Fin 4096) : ridx_main_v24 (ix3 b i e) k = ix3 b k e :=
  funext fun a => Fin.ext (by match a with | ⟨0, _⟩ => rfl | ⟨1, _⟩ => rfl | ⟨2, _⟩ => rfl)

/-- The reference's result at an index is its arrangement `refOut`. -/
theorem refTerm_at (X : FVec Ideal SX .f32) (A : FVec Ideal SA .f32) (W : FVec Ideal SW .f32)
    (bias : FVec Ideal SB .f32) (b : Fin 8) (i : Fin 4096) (e : Fin 64) :
    refTerm X A W bias (ix3 b i e) = refOut X A W bias b i e := by
  unfold refTerm refOut
  rw [val_main_v24_apply]
  refine Finset.sum_congr rfl fun k _ => ?_
  rw [lidx24, ridx24, norm_at, lin_at]

/-- On arrays of real numbers the reference's result is the kernel's arrangement, as whole arrays. -/
theorem reference_is_out (X : FVec Ideal SX .f32) (A : FVec Ideal SA .f32) (W : FVec Ideal SW .f32)
    (bias : FVec Ideal SB .f32)
    (hX : ∀ i, ∃ r : ℝ, X i = (r : EReal)) (hA : ∀ i, ∃ r : ℝ, A i = (r : EReal))
    (hW : ∀ i, ∃ r : ℝ, W i = (r : EReal)) (hb : ∀ i, ∃ r : ℝ, bias i = (r : EReal)) :
    refTerm X A W bias = outArr X A W bias := by
  funext j
  obtain ⟨b, i, e, rfl⟩ : ∃ (b : Fin 8) (i : Fin 4096) (e : Fin 64), j = ix3 b i e := ⟨j 0, j 1, j 2, eq_ix3 j⟩
  rw [refTerm_at, refOut_eq_out X A W bias hX hA hW hb]
  rfl

/-- The same, stated on the last operation's value directly. -/
theorem reference_val_is_out (X : FVec Ideal SX .f32) (A : FVec Ideal SA .f32) (W : FVec Ideal SW .f32)
    (bias : FVec Ideal SB .f32)
    (hX : ∀ i, ∃ r : ℝ, X i = (r : EReal)) (hA : ∀ i, ∃ r : ℝ, A i = (r : EReal))
    (hW : ∀ i, ∃ r : ℝ, W i = (r : EReal)) (hb : ∀ i, ∃ r : ℝ, bias i = (r : EReal)) :
    val_main_v24 (F := Ideal) X A W bias = outArr X A W bias :=
  reference_is_out X A W bias hX hA hW hb

end Cert.NormAdj

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.RefFinite.lean ====
/-
  The precondition "every entry of every argument has absolute value below +inf", read entry by entry: each of
  the four arguments is an array of real numbers.

  The precondition is the conjunction of four tests, one per argument, each a reduction by `and` over the whole
  array of the comparison |a| < +inf.  A conjunction of one-bit words is one only if every word is, and each test then
  gives, entry by entry, a real number.
-/
import proofs.«139989_j90280212562329_2_alg».proof.Proof.Gen.Pre_finite_inputs
import proofs.«139989_j90280212562329_2_alg».proof.Proof.LibFiniteAll
import proofs.«139989_j90280212562329_2_alg».proof.Proof.Spec
import Idealize.ShloMosaic.Lib.Affine

noncomputable section

namespace Cert.NormAdj

open Idealize.ShloMosaic Idealize.ShloMosaic.FiniteAll Cert.Pre_finite_inputs.Gen

/-- Under the precondition every entry of X, A, W and the bias is a real number. -/
theorem finite_of_pre (X : FVec Ideal SX .f32) (A : FVec Ideal SA .f32) (W : FVec Ideal SW .f32)
    (bias : FVec Ideal SB .f32)
    (h : Cert.Pre_finite_inputs.fn (F := Ideal) X A W bias = fun _ => 1#1) :
    (∀ i, ∃ r : ℝ, X i = (r : EReal)) ∧ (∀ i, ∃ r : ℝ, A i = (r : EReal)) ∧
      (∀ i, ∃ r : ℝ, W i = (r : EReal)) ∧ (∀ i, ∃ r : ℝ, bias i = (r : EReal)) := by
  have h0 := congrFun h ValueIdx.ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨all_real X _ _ _ _ h1, all_real A _ _ _ _ h2, all_real W _ _ _ _ h3, all_real bias _ _ _ _ h4⟩

end Cert.NormAdj

end
-- ==== Proof.lean ====
/-
  A graph-convolution layer with the symmetrically normalised adjacency, computed two ways.

  The reference forms Â = A + I, the degrees d = max(row sums of Â, ε), the normalised adjacency
  Â[i,j] · d_i^(-1/2) · d_j^(-1/2), and multiplies it into the linear layer X·W + bias.  The kernel works in three
  stages: the inverse root degrees rsqrt(max(row sum of A + 1, ε)); the linear layer with each row scaled by its
  node's inverse root degree; and, per block of rows, the adjacency times those scaled rows accumulated over four
  column blocks, plus the node's own scaled row (the identity's contribution), all scaled by the node's inverse root
  degree.  On the extended reals the two agree when every input is a real number: the degree is then a real at least
  ε > 0, its power −1/2 is the inverse of its square root, and the rest is distributivity and pulling the identity's
  term out of the sum.  That finiteness is what the precondition provides.

  The frames: each program terminates without a fault and leaves its four argument arrays as launched.  For the
  kernel's two readings (word level and idealized) this is the run of its three stages one after the other, each
  stage's arrays taken out of the core's buffers at its entry and put back at its exit; for the reference it is its
  run as a list of host operations.  The idealization rewrote nothing, so it preserves the kernel trivially.
-/
import proofs.«139989_j90280212562329_2_alg».proof.Defs
import proofs.«139989_j90280212562329_2_alg».proof.Proof.Gen.Kernel
import proofs.«139989_j90280212562329_2_alg».proof.Proof.Gen.KernelIdeal
import proofs.«139989_j90280212562329_2_alg».proof.Proof.Gen.ReferenceIdeal
import proofs.«139989_j90280212562329_2_alg».proof.Proof.Gen.Pre_finite_inputs
import proofs.«139989_j90280212562329_2_alg».proof.Proof.Gen.ReferenceIdeal.Run
import proofs.«139989_j90280212562329_2_alg».proof.Proof.Gen.ReferenceIdeal.Read
import proofs.«139989_j90280212562329_2_alg».proof.Proof.K.Run
import proofs.«139989_j90280212562329_2_alg».proof.Proof.KI.Run
import proofs.«139989_j90280212562329_2_alg».proof.Proof.KernelValue
import proofs.«139989_j90280212562329_2_alg».proof.Proof.RefSpec
import proofs.«139989_j90280212562329_2_alg».proof.Proof.RefFinite
import Idealize.ShloMosaic.Adequacy
import Idealize.ShloMosaic.Init

noncomputable section

namespace Cert.Proof

open Idealize.ShloMosaic Idealize.ShloMosaic.TcCoe Idealize.SL.Sem

/-- The word-level kernel terminates and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- The idealized kernel terminates and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference terminates and leaves its arguments as launched: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories that agree on the four arguments, all of whose entries are real numbers, end with
    the same result array: the kernel's three stages chained, and the reference's last operation read index by
    index, are one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.NormAdj.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun r h c => ⟨(h c).1.trans ?_, (h c).2⟩)
      (Cert.KernelIdeal.Hand.run_result (F := Ideal) m ρ)
    exact Cert.KernelIdeal.HandVal.kernel_value m ρ c
  · refine (θ_run (Cert.ReferenceIdeal.defs (F := Ideal)) _ _).mono (fun r h c => ⟨(h c).1.trans ?_, (h c).2⟩)
      (Cert.ReferenceIdeal.Value.run (F := Ideal) m' ρ')
    obtain ⟨hX, hA, hW, hb⟩ := Cert.NormAdj.finite_of_pre _ _ _ _ (hpre c)
    rw [(hagree c).1, (hagree c).2.1, (hagree c).2.2.1, (hagree c).2.2.2]
    exact (Cert.ReferenceIdeal.Read.val_main_v24_eq _ _ _ _).trans (Cert.NormAdj.reference_val_is_out _ _ _ _ hX hA hW hb)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
